-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x512 : Shape := ⟨3, ![256, 128, 512]⟩
abbrev S256x128x3 : Shape := ⟨3, ![256, 128, 3]⟩
abbrev S256 : Shape := ⟨1, ![256]⟩
abbrev S128x256x3 : Shape := ⟨3, ![128, 256, 3]⟩
abbrev S128 : Shape := ⟨1, ![128]⟩
abbrev S_ : Shape := ⟨0, ![]⟩

class Facts : Prop where
  bcast_S_S256x128x512 : S_.BroadcastsInDim S256x128x512 (![] : Fin 0 → Fin S256x128x512.rank)
  reducesTo_S256x128x512_S_d0_1_2 : S256x128x512.ReducesTo [0, 1, 2] S_
  h_S_ : 0 < S_.numel
  bcast_S_S256x128x3 : S_.BroadcastsInDim S256x128x3 (![] : Fin 0 → Fin S256x128x3.rank)
  reducesTo_S256x128x3_S_d0_1_2 : S256x128x3.ReducesTo [0, 1, 2] S_
  bcast_S_S256 : S_.BroadcastsInDim S256 (![] : Fin 0 → Fin S256.rank)
  reducesTo_S256_S_d0 : S256.ReducesTo [0] S_
  bcast_S_S128x256x3 : S_.BroadcastsInDim S128x256x3 (![] : Fin 0 → Fin S128x256x3.rank)
  reducesTo_S128x256x3_S_d0_1_2 : S128x256x3.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256x3 1) : IVec S_ 1 :=
  let main_c_5 : IVec S_ 1 := constantI S_ 1 1#1
  let main_v17 : IVec S_ 1 := (fun x v => Host.reduce IntOp.andi x v reducesTo_S128x256x3_S_d0_1_2 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S256x128x512 .f32) (main_arg1 : FVec F S256x128x3 .f32) (main_arg2 : FVec F S256 .f32) (main_arg3 : FVec F S128x256x3 .f32) (main_arg4 : FVec F S128 .f32) : IVec S_ 1 :=
  let main_v0 : FVec F S256x128x512 .f32 := Host.absf main_arg0
  let main_cst : FVec F S_ .f32 := constant S_ .f32 0x7F800000#32
  let main_v1 : FVec F S256x128x512 .f32 := broadcastInDim S256x128x512 ![] bcast_S_S256x128x512 main_cst
  let main_v2 : IVec S256x128x512 1 := cmpf .olt main_v0 main_v1
  let main_c : IVec S_ 1 := constantI S_ 1 1#1
  let main_v3 : IVec S_ 1 := (fun x v => Host.reduce IntOp.andi x v reducesTo_S256x128x512_S_d0_1_2 h_S_) main_v2 main_c
  let main_v4 : FVec F S256x128x3 .f32 := Host.absf main_arg1
  let main_cst_0 : FVec F S_ .f32 := constant S_ .f32 0x7F800000#32
  let main_v5 : FVec F S256x128x3 .f32 := broadcastInDim S256x128x3 ![] bcast_S_S256x128x3 main_cst_0
  let main_v6 : IVec S256x128x3 1 := cmpf .olt main_v4 main_v5
  let main_c_1 : IVec S_ 1 := constantI S_ 1 1#1
  let main_v7 : IVec S_ 1 := (fun x v => Host.reduce IntOp.andi x v reducesTo_S256x128x3_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256x3 .f32 := Host.absf main_arg3
  let main_cst_4 : FVec F S_ .f32 := constant S_ .f32 0x7F800000#32
  let main_v15 : FVec F S128x256x3 .f32 := broadcastInDim S128x256x3 ![] bcast_S_S128x256x3 main_cst_4
  let main_v16 : IVec S128x256x3 1 := cmpf .olt main_v14 main_v15
  fn_part1 (F := F) main_arg4 main_v13 main_v16
-- ==== Kernel.lean ====
abbrev S256x128x512 : Shape := ⟨3, ![256, 128, 512]⟩
abbrev S256x128x3 : Shape := ⟨3, ![256, 128, 3]⟩
abbrev S256 : Shape := ⟨1, ![256]⟩
abbrev S128x256x3 : Shape := ⟨3, ![128, 256, 3]⟩
abbrev S128 : Shape := ⟨1, ![128]⟩
abbrev S256x128x1 : Shape := ⟨3, ![256, 128, 1]⟩
abbrev S256x128 : Shape := ⟨2, ![256, 128]⟩
abbrev S256x384 : Shape := ⟨2, ![256, 384]⟩
abbrev S128x256x1 : Shape := ⟨3, ![128, 256, 1]⟩
abbrev S128x256 : Shape := ⟨2, ![128, 256]⟩
abbrev S384x256 : Shape := ⟨2, ![384, 256]⟩
abbrev S256x1 : Shape := ⟨2, ![256, 1]⟩
abbrev S128x1 : Shape := ⟨2, ![128, 1]⟩
abbrev S32x128x512 : Shape := ⟨3, ![32, 128, 512]⟩
abbrev S1x128x512 : Shape := ⟨3, ![1, 128, 512]⟩
abbrev S128x512 : Shape := ⟨2, ![128, 512]⟩
abbrev S128x511 : Shape := ⟨2, ![128, 511]⟩
abbrev S384x512 : Shape := ⟨2, ![384, 512]⟩
abbrev S256x512 : Shape := ⟨2, ![256, 512]⟩

abbrev nBuf : Space → Nat
  | .hbm => 24
  | .vmem => 8
  | .smem => 0
  | _ => 0

abbrev bufTy : (tb : Table) → Fin (tcTables nBuf tb) → BufTy
  | .hbm, ⟨0, _⟩ => ⟨S256x128x512, .f32⟩
  | .hbm, ⟨1, _⟩ => ⟨S256x128x3, .f32⟩
  | .hbm, ⟨2, _⟩ => ⟨S256, .f32⟩
  | .hbm, ⟨3, _⟩ => ⟨S128x256x3, .f32⟩
  | .hbm, ⟨4, _⟩ => ⟨S128, .f32⟩
  | .hbm, ⟨5, _⟩ => ⟨S256x128x1, .f32⟩
  | .hbm, ⟨6, _⟩ => ⟨S256x128, .f32⟩
  | .hbm, ⟨7, _⟩ => ⟨S256x128x1, .f32⟩
  | .hbm, ⟨8, _⟩ => ⟨S256x128, .f32⟩
  | .hbm, ⟨9, _⟩ => ⟨S256x128x1, .f32⟩
  | .hbm, ⟨10, _⟩ => ⟨S256x128, .f32⟩
  | .hbm, ⟨11, _⟩ => ⟨S256x384, .f32⟩
  | .hbm, ⟨12, _⟩ => ⟨S256x384, .bf16⟩
  | .hbm, ⟨13, _⟩ => ⟨S128x256x1, .f32⟩
  | .hbm, ⟨14, _⟩ => ⟨S128x256, .f32⟩
  | .hbm, ⟨15, _⟩ => ⟨S128x256x1, .f32⟩
  | .hbm, ⟨16, _⟩ => ⟨S128x256, .f32⟩
  | .hbm, ⟨17, _⟩ => ⟨S128x256x1, .f32⟩
  | .hbm, ⟨18, _⟩ => ⟨S128x256, .f32⟩
  | .hbm, ⟨19, _⟩ => ⟨S384x256, .f32⟩
  | .hbm, ⟨20, _⟩ => ⟨S384x256, .bf16⟩
  | .hbm, ⟨21, _⟩ => ⟨S256x1, .f32⟩
  | .hbm, ⟨22, _⟩ => ⟨S128x1, .f32⟩
  | .hbm, ⟨23, _⟩ => ⟨S256x128x512, .f32⟩
  | .local _ .vmem, ⟨0, _⟩ => ⟨S32x128x512, .f32⟩
  | .local _ .vmem, ⟨1, _⟩ => ⟨S32x128x512, .f32⟩
  | .local _ .vmem, ⟨2, _⟩ => ⟨S256x384, .bf16⟩
  | .local _ .vmem, ⟨3, _⟩ => ⟨S256x1, .f32⟩
  | .local _ .vmem, ⟨4, _⟩ => ⟨S384x256, .bf16⟩
  | .local _ .vmem, ⟨5, _⟩ => ⟨S128x1, .f32⟩
  | .local _ .vmem, ⟨6, _⟩ => ⟨S32x128x512, .f32⟩
  | .local _ .vmem, ⟨7, _⟩ => ⟨S32x128x512, .f32⟩
  | _, _ => ⟨S256x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S256x128x3_S256x128x1_0_0_0 : S256x128x3.Slices ![0, 0, 0] S256x128x1
  shapeCasts_S256x128x1_S256x128 : S256x128x1.ShapeCasts S256x128
  slices_S256x128x3_S256x128x1_0_0_1 : S256x128x3.Slices ![0, 0, 1] S256x128x1
  slices_S256x128x3_S256x128x1_0_0_2 : S256x128x3.Slices ![0, 0, 2] S256x128x1
  concatenates_S256x128_S256x128_S256x128_S256x384_d1 : Shape.Concatenates [S256x128, S256x128, S256x128] S256x384 1
  bitsLt_bf16_f32 : FTy.bits .bf16 < FTy.bits .f32
  slices_S128x256x3_S128x256x1_0_0_0 : S128x256x3.Slices ![0, 0, 0] S128x256x1
  shapeCasts_S128x256x1_S128x256 : S128x256x1.ShapeCasts S128x256
  slices_S128x256x3_S128x256x1_0_0_1 : S128x256x3.Slices ![0, 0, 1] S128x256x1
  slices_S128x256x3_S128x256x1_0_0_2 : S128x256x3.Slices ![0, 0, 2] S128x256x1
  concatenates_S128x256_S128x256_S128x256_S384x256_d0 : Shape.Concatenates [S128x256, S128x256, S128x256] S384x256 0
  shapeCasts_S256_S256x1 : S256.ShapeCasts S256x1
  shapeCasts_S128_S128x1 : S128.ShapeCasts S128x1
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S32x128x512_S1x128x512_0_0_0 : ∀ a, (![0, 0, 0] : Fin 3 → Nat) a + S1x128x512.size a ≤ S32x128x512.size a
  h_S1x128x512 : 0 < S1x128x512.numel
  shapeCasts_S1x128x512_S128x512 : S1x128x512.ShapeCasts S128x512
  slices_S128x512_o0_0_S128x511 : S128x512.Slices ![0, 0] S128x511
  concatenates_S128x1_S128x511_S128x512_d1 : Shape.Concatenates [S128x1, S128x511] S128x512 1
  slices_S128x512_o0_1_S128x511 : S128x512.Slices ![0, 1] S128x511
  concatenates_S128x511_S128x1_S128x512_d1 : Shape.Concatenates [S128x511, S128x1] S128x512 1
  concatenates_S128x512_S128x512_S128x512_S384x512_d0 : Shape.Concatenates [S128x512, S128x512, S128x512] S384x512 0
  broadcasts_S256x1_S256x512 : S256x1.Broadcasts S256x512
  inb_S32x128x512_S1x128x512_1_0_0 : ∀ a, (![1, 0, 0] : Fin 3 → Nat) a + S1x128x512.size a ≤ S32x128x512.size a
  inb_S32x128x512_S1x128x512_2_0_0 : ∀ a, (![2, 0, 0] : Fin 3 → Nat) a + S1x128x512.size a ≤ S32x128x512.size a
  inb_S32x128x512_S1x128x512_3_0_0 : ∀ a, (![3, 0, 0] : Fin 3 → Nat) a + S1x128x512.size a ≤ S32x128x512.size a
  inb_S32x128x512_S1x128x512_4_0_0 : ∀ a, (![4, 0, 0] : Fin 3 → Nat) a + S1x128x512.size a ≤ S32x128x512.size a
  inb_S32x128x512_S1x128x512_5_0_0 : ∀ a, (![5, 0, 0] : Fin 3 → Nat) a + S1x128x512.size a ≤ S32x128x512.size a
  inb_S32x128x512_S1x128x512_6_0_0 : ∀ a, (![6, 0, 0] : Fin 3 → Nat) a + S1x128x512.size a ≤ S32x128x512.size a
  inb_S32x128x512_S1x128x512_7_0_0 : ∀ a, (![7, 0, 0] : Fin 3 → Nat) a + S1x128x512.size a ≤ S32x128x512.size a
  inb_S32x128x512_S1x128x512_8_0_0 : ∀ a, (![8, 0, 0] : Fin 3 → Nat) a + S1x128x512.size a ≤ S32x128x512.size a
  inb_S32x128x512_S1x128x512_9_0_0 : ∀ a, (![9, 0, 0] : Fin 3 → Nat) a + S1x128x512.size a ≤ S32x128x512.size a
  inb_S32x128x512_S1x128x512_10_0_0 : ∀ a, (![10, 0, 0] : Fin 3 → Nat) a + S1x128x512.size a ≤ S32x128x512.size a
  inb_S32x128x512_S1x128x512_11_0_0 : ∀ a, (![11, 0, 0] : Fin 3 → Nat) a + S1x128x512.size a ≤ S32x128x512.size a
  inb_S32x128x512_S1x128x512_12_0_0 : ∀ a, (![12, 0, 0] : Fin 3 → Nat) a + S1x128x512.size a ≤ S32x128x512.size a
  inb_S32x128x512_S1x128x512_13_0_0 : ∀ a, (![13, 0, 0] : Fin 3 → Nat) a + S1x128x512.size a ≤ S32x128x512.size a
  inb_S32x128x512_S1x128x512_14_0_0 : ∀ a, (![14, 0, 0] : Fin 3 → Nat) a + S1x128x512.size a ≤ S32x128x512.size a
  inb_S32x128x512_S1x128x512_15_0_0 : ∀ a, (![15, 0, 0] : Fin 3 → Nat) a + S1x128x512.size a ≤ S32x128x512.size a
  inb_S32x128x512_S1x128x512_16_0_0 : ∀ a, (![16, 0, 0] : Fin 3 → Nat) a + S1x128x512.size a ≤ S32x128x512.size a
  inb_S32x128x512_S1x128x512_17_0_0 : ∀ a, (![17, 0, 0] : Fin 3 → Nat) a + S1x128x512.size a ≤ S32x128x512.size a
  inb_S32x128x512_S1x128x512_18_0_0 : ∀ a, (![18, 0, 0] : Fin 3 → Nat) a + S1x128x512.size a ≤ S32x128x512.size a
  inb_S32x128x512_S1x128x512_19_0_0 : ∀ a, (![19, 0, 0] : Fin 3 → Nat) a + S1x128x512.size a ≤ S32x128x512.size a
  inb_S32x128x512_S1x128x512_20_0_0 : ∀ a, (![20, 0, 0] : Fin 3 → Nat) a + S1x128x512.size a ≤ S32x128x512.size a
  inb_S32x128x512_S1x128x512_21_0_0 : ∀ a, (![21, 0, 0] : Fin 3 → Nat) a + S1x128x512.size a ≤ S32x128x512.size a
  inb_S32x128x512_S1x128x512_22_0_0 : ∀ a, (![22, 0, 0] : Fin 3 → Nat) a + S1x128x512.size a ≤ S32x128x512.size a
  inb_S32x128x512_S1x128x512_23_0_0 : ∀ a, (![23, 0, 0] : Fin 3 → Nat) a + S1x128x512.size a ≤ S32x128x512.size a
  inb_S32x128x512_S1x128x512_24_0_0 : ∀ a, (![24, 0, 0] : Fin 3 → Nat) a + S1x128x512.size a ≤ S32x128x512.size a
  inb_S32x128x512_S1x128x512_25_0_0 : ∀ a, (![25, 0, 0] : Fin 3 → Nat) a + S1x128x512.size a ≤ S32x128x512.size a
  inb_S32x128x512_S1x128x512_26_0_0 : ∀ a, (![26, 0, 0] : Fin 3 → Nat) a + S1x128x512.size a ≤ S32x128x512.size a
  inb_S32x128x512_S1x128x512_27_0_0 : ∀ a, (![27, 0, 0] : Fin 3 → Nat) a + S1x128x512.size a ≤ S32x128x512.size a
  inb_S32x128x512_S1x128x512_28_0_0 : ∀ a, (![28, 0, 0] : Fin 3 → Nat) a + S1x128x512.size a ≤ S32x128x512.size a
  inb_S32x128x512_S1x128x512_29_0_0 : ∀ a, (![29, 0, 0] : Fin 3 → Nat) a + S1x128x512.size a ≤ S32x128x512.size a
  inb_S32x128x512_S1x128x512_30_0_0 : ∀ a, (![30, 0, 0] : Fin 3 → Nat) a + S1x128x512.size a ≤ S32x128x512.size a
  inb_S32x128x512_S1x128x512_31_0_0 : ∀ a, (![31, 0, 0] : Fin 3 → Nat) a + S1x128x512.size a ≤ S32x128x512.size a
  slices_S384x512_o128_0_S128x512 : S384x512.Slices ![128, 0] S128x512
  broadcasts_S128x1_S128x512 : S128x1.Broadcasts S128x512
  slices_S384x512_o0_0_S128x512 : S384x512.Slices ![0, 0] S128x512
  slices_S384x512_o256_0_S128x512 : S384x512.Slices ![256, 0] S128x512
  shapeCasts_S128x512_S1x128x512 : S128x512.ShapeCasts S1x128x512
  dot_S256x384_S384x512_S256x512_1_0_0_1_n_n_wf : DotDims.WF S256x384 S384x512 S256x512 [1] [0] [0] [1] [] []
  dot_S384x256_S256x512_S384x512_1_0_0_1_n_n_wf : DotDims.WF S384x256 S256x512 S384x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x512.size a ≤ S256x128x512.size a
  hwx0_0 : ∀ i : grid0.Coords, EltTy.bits .f32 = 32 ∨ (Rect.block (s := S256x128x512) S32x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S256x384.size a
  hwx0_1 : ∀ i : grid0.Coords, EltTy.bits .bf16 = 32 ∨ (Rect.block (s := S256x384) S256x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .bf16 = 32 ∨ (Rect.block (s := S384x256) S384x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128x512.size a ≤ S256x128x512.size a
  hwx0_5 : ∀ i : grid0.Coords, EltTy.bits .f32 = 32 ∨ (Rect.block (s := S256x128x512) S32x128x512.size (cc0_transform_5 i) (hinb0_5 i)).WholeWords (EltTy.packing .f32)

variable [Facts₀]

def dot_S256x384_S384x512_S256x512_1_0_0_1_n_n : DotDims S256x384 S384x512 S256x512 where
  lhsContracting := [1]
  rhsContracting := [0]
  lhsNonContracting := [0]
  rhsNonContracting := [1]
  lhsBatch := []
  rhsBatch := []
  wf := dot_S256x384_S384x512_S256x512_1_0_0_1_n_n_wf
def dot_S384x256_S256x512_S384x512_1_0_0_1_n_n : DotDims S384x256 S256x512 S384x512 where
  lhsContracting := [1]
  rhsContracting := [0]
  lhsNonContracting := [0]
  rhsNonContracting := [1]
  lhsBatch := []
  rhsBatch := []
  wf := dot_S384x256_S256x512_S384x512_1_0_0_1_n_n_wf

abbrev win0_0 : Pipeline.Window sig grid0 :=
  Pipeline.Window.ofSpec (Memref.whole main_arg0) S32x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S32x128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x128x512 : Shape := ⟨3, ![256, 128, 512]⟩
abbrev S256x128x3 : Shape := ⟨3, ![256, 128, 3]⟩
abbrev S256 : Shape := ⟨1, ![256]⟩
abbrev S128x256x3 : Shape := ⟨3, ![128, 256, 3]⟩
abbrev S128 : Shape := ⟨1, ![128]⟩
abbrev S256x128x1 : Shape := ⟨3, ![256, 128, 1]⟩
abbrev S256x128 : Shape := ⟨2, ![256, 128]⟩
abbrev S256x384 : Shape := ⟨2, ![256, 384]⟩
abbrev S128x256x1 : Shape := ⟨3, ![128, 256, 1]⟩
abbrev S128x256 : Shape := ⟨2, ![128, 256]⟩
abbrev S128x768 : Shape := ⟨2, ![128, 768]⟩
abbrev S256x1 : Shape := ⟨2, ![256, 1]⟩
abbrev S128x1 : Shape := ⟨2, ![128, 1]⟩
abbrev S2x8x128 : Shape := ⟨3, ![2, 8, 128]⟩
abbrev S1x1x1 : Shape := ⟨3, ![1, 1, 1]⟩
abbrev S_ : Shape := ⟨0, ![]⟩
abbrev S1x128x512 : Shape := ⟨3, ![1, 128, 512]⟩
abbrev S1x1x512 : Shape := ⟨3, ![1, 1, 512]⟩
abbrev S1x128x1 : Shape := ⟨3, ![1, 128, 1]⟩
abbrev S1x128x511 : Shape := ⟨3, ![1, 128, 511]⟩
abbrev S1x384x512 : Shape := ⟨3, ![1, 384, 512]⟩
abbrev S1x256x384 : Shape := ⟨3, ![1, 256, 384]⟩
abbrev S1x256x512 : Shape := ⟨3, ![1, 256, 512]⟩
abbrev S1x256x1 : Shape := ⟨3, ![1, 256, 1]⟩
abbrev S1x256x511 : Shape := ⟨3, ![1, 256, 511]⟩
abbrev S1x768x512 : Shape := ⟨3, ![1, 768, 512]⟩
abbrev S1x128x768 : Shape := ⟨3, ![1, 128, 768]⟩

abbrev nBuf : Space → Nat
  | .hbm => 25
  | .vmem => 9
  | .smem => 0
  | _ => 0

abbrev bufTy : (tb : Table) → Fin (tcTables nBuf tb) → BufTy
  | .hbm, ⟨0, _⟩ => ⟨S256x128x512, .f32⟩
  | .hbm, ⟨1, _⟩ => ⟨S256x128x3, .f32⟩
  | .hbm, ⟨2, _⟩ => ⟨S256, .f32⟩
  | .hbm, ⟨3, _⟩ => ⟨S128x256x3, .f32⟩
  | .hbm, ⟨4, _⟩ => ⟨S128, .f32⟩
  | .hbm, ⟨5, _⟩ => ⟨S256x128x1, .f32⟩
  | .hbm, ⟨6, _⟩ => ⟨S256x128, .f32⟩
  | .hbm, ⟨7, _⟩ => ⟨S256x128x1, .f32⟩
  | .hbm, ⟨8, _⟩ => ⟨S256x128, .f32⟩
  | .hbm, ⟨9, _⟩ => ⟨S256x128x1, .f32⟩
  | .hbm, ⟨10, _⟩ => ⟨S256x128, .f32⟩
  | .hbm, ⟨11, _⟩ => ⟨S256x384, .f32⟩
  | .hbm, ⟨12, _⟩ => ⟨S128x256x1, .f32⟩
  | .hbm, ⟨13, _⟩ => ⟨S128x256, .f32⟩
  | .hbm, ⟨14, _⟩ => ⟨S128x256x1, .f32⟩
  | .hbm, ⟨15, _⟩ => ⟨S128x256, .f32⟩
  | .hbm, ⟨16, _⟩ => ⟨S128x256x1, .f32⟩
  | .hbm, ⟨17, _⟩ => ⟨S128x256, .f32⟩
  | .hbm, ⟨18, _⟩ => ⟨S128x768, .f32⟩
  | .hbm, ⟨19, _⟩ => ⟨S256x1, .f32⟩
  | .hbm, ⟨20, _⟩ => ⟨S128x1, .f32⟩
  | .hbm, ⟨21, _⟩ => ⟨S2x8x128, .f32⟩
  | .hbm, ⟨22, _⟩ => ⟨S1x1x1, .f32⟩
  | .hbm, ⟨23, _⟩ => ⟨S_, .f32⟩
  | .hbm, ⟨24, _⟩ => ⟨S256x128x512, .f32⟩
  | .local _ .vmem, ⟨0, _⟩ => ⟨S2x8x128, .f32⟩
  | .local _ .vmem, ⟨1, _⟩ => ⟨S1x128x512, .f32⟩
  | .local _ .vmem, ⟨2, _⟩ => ⟨S1x128x512, .f32⟩
  | .local _ .vmem, ⟨3, _⟩ => ⟨S256x384, .f32⟩
  | .local _ .vmem, ⟨4, _⟩ => ⟨S256x1, .f32⟩
  | .local _ .vmem, ⟨5, _⟩ => ⟨S128x768, .f32⟩
  | .local _ .vmem, ⟨6, _⟩ => ⟨S128x1, .f32⟩
  | .local _ .vmem, ⟨7, _⟩ => ⟨S1x128x512, .f32⟩
  | .local _ .vmem, ⟨8, _⟩ => ⟨S1x128x512, .f32⟩
  | _, _ => ⟨S256x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc1_stg0_0 : Ref sig .tc := ⟨.vmem, 1, rfl⟩
abbrev cc1_stg0_1 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_sem0_0 : DmaSem sig := 0
abbrev cc1_sem0_0 : DmaSem sig := 1
abbrev cc1_sem0_1 : DmaSem sig := 2
abbrev cc1_sem1_0 : DmaSem sig := 3
abbrev cc1_sem2_0 : DmaSem sig := 4
abbrev cc1_sem3_0 : DmaSem sig := 5
abbrev cc1_sem4_0 : DmaSem sig := 6
abbrev cc1_sem5_0 : DmaSem sig := 7
abbrev cc1_sem5_1 : DmaSem sig := 8

abbrev nD : Nat := 1
abbrev τ : Topo := Topo.v7x

variable {F : FTy → Type} [FloatOps F]

abbrev grid0 : Pipeline.Grid := .none

abbrev stage0_0 : Fin 1 → Memref sig .tc .vmem S2x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := ⟨1, ![256], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S256x128x3_S256x128x1_0_0_0 : S256x128x3.Slices ![0, 0, 0] S256x128x1
  shapeCasts_S256x128x1_S256x128 : S256x128x1.ShapeCasts S256x128
  slices_S256x128x3_S256x128x1_0_0_1 : S256x128x3.Slices ![0, 0, 1] S256x128x1
  slices_S256x128x3_S256x128x1_0_0_2 : S256x128x3.Slices ![0, 0, 2] S256x128x1
  concatenates_S256x128_S256x128_S256x128_S256x384_d1 : Shape.Concatenates [S256x128, S256x128, S256x128] S256x384 1
  slices_S128x256x3_S128x256x1_0_0_0 : S128x256x3.Slices ![0, 0, 0] S128x256x1
  shapeCasts_S128x256x1_S128x256 : S128x256x1.ShapeCasts S128x256
  slices_S128x256x3_S128x256x1_0_0_1 : S128x256x3.Slices ![0, 0, 1] S128x256x1
  slices_S128x256x3_S128x256x1_0_0_2 : S128x256x3.Slices ![0, 0, 2] S128x256x1
  concatenates_S128x256_S128x256_S128x256_S128x768_d1 : Shape.Concatenates [S128x256, S128x256, S128x256] S128x768 1
  shapeCasts_S256_S256x1 : S256.ShapeCasts S256x1
  shapeCasts_S128_S128x1 : S128.ShapeCasts S128x1
  iota_S2x8x128_d2_w32 : S2x8x128.Iotas .tc 32 [2]
  rotates_S2x8x128_d2 : S2x8x128.Rotates 2 none
  inb_S2x8x128_S2x8x128_0_0_0 : ∀ a, (![0, 0, 0] : Fin 3 → Nat) a + S2x8x128.size a ≤ S2x8x128.size a
  h_S2x8x128 : 0 < S2x8x128.numel
  slices_S2x8x128_S1x1x1_0_0_1 : S2x8x128.Slices ![0, 0, 1] S1x1x1
  shapeCasts_S1x1x1_S_ : S1x1x1.ShapeCasts S_
  iota_S1x1x512_d2_w32 : S1x1x512.Iotas .tc 32 [2]
  natLt_1_32 : 1 < 32
  inb_S1x128x512_S1x128x512_0_0_0 : ∀ a, (![0, 0, 0] : Fin 3 → Nat) a + S1x128x512.size a ≤ S1x128x512.size a
  h_S1x128x512 : 0 < S1x128x512.numel
  slices_S1x128x512_o0_0_0_S1x128x511 : S1x128x512.Slices ![0, 0, 0] S1x128x511
  concatenates_S1x128x1_S1x128x511_S1x128x512_d2 : Shape.Concatenates [S1x128x1, S1x128x511] S1x128x512 2
  broadcasts_S1x1x512_S1x128x512 : S1x1x512.Broadcasts S1x128x512
  slices_S1x128x512_o0_0_1_S1x128x511 : S1x128x512.Slices ![0, 0, 1] S1x128x511
  concatenates_S1x128x511_S1x128x1_S1x128x512_d2 : Shape.Concatenates [S1x128x511, S1x128x1] S1x128x512 2
  concatenates_S1x128x512_S1x128x512_S1x128x512_S1x384x512_d1 : Shape.Concatenates [S1x128x512, S1x128x512, S1x128x512] S1x384x512 1
  inb_S256x384_S256x384_0_0 : ∀ a, (![0, 0] : Fin 2 → Nat) a + S256x384.size a ≤ S256x384.size a
  h_S256x384 : 0 < S256x384.numel
  shapeCasts_S256x384_S256x384 : S256x384.ShapeCasts S256x384
  shapeCasts_S256x384_S1x256x384 : S256x384.ShapeCasts S1x256x384
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x1_S1x256x1 : S256x1.ShapeCasts S1x256x1
  broadcasts_S1x256x1_S1x256x512 : S1x256x1.Broadcasts S1x256x512
  slices_S1x256x512_o0_0_0_S1x256x511 : S1x256x512.Slices ![0, 0, 0] S1x256x511
  concatenates_S1x256x1_S1x256x511_S1x256x512_d2 : Shape.Concatenates [S1x256x1, S1x256x511] S1x256x512 2
  broadcasts_S1x1x512_S1x256x512 : S1x1x512.Broadcasts S1x256x512
  slices_S1x256x512_o0_0_1_S1x256x511 : S1x256x512.Slices ![0, 0, 1] S1x256x511
  concatenates_S1x256x511_S1x256x1_S1x256x512_d2 : Shape.Concatenates [S1x256x511, S1x256x1] S1x256x512 2
  concatenates_S1x256x512_S1x256x512_S1x256x512_S1x768x512_d1 : Shape.Concatenates [S1x256x512, S1x256x512, S1x256x512] S1x768x512 1
  inb_S128x768_S128x768_0_0 : ∀ a, (![0, 0] : Fin 2 → Nat) a + S128x768.size a ≤ S128x768.size a
  h_S128x768 : 0 < S128x768.numel
  shapeCasts_S128x768_S128x768 : S128x768.ShapeCasts S128x768
  shapeCasts_S128x768_S1x128x768 : S128x768.ShapeCasts S1x128x768
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S1x128x1 : S128x1.ShapeCasts S1x128x1
  broadcasts_S1x128x1_S1x128x512 : S1x128x1.Broadcasts S1x128x512
  dot_S1x256x384_S1x384x512_S1x256x512_2_1_1_2_0_0_wf : DotDims.WF S1x256x384 S1x384x512 S1x256x512 [2] [1] [1] [2] [0] [0]
  dot_S1x128x768_S1x768x512_S1x128x512_2_1_1_2_0_0_wf : DotDims.WF S1x128x768 S1x768x512 S1x128x512 [2] [1] [1] [2] [0] [0]
  hstage0_0 : ∀ j, (stage0_0 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x512.size a ≤ S256x128x512.size a
  hwx1_0 : ∀ i : grid1.Coords, EltTy.bits .f32 = 32 ∨ (Rect.block (s := S256x128x512) S1x128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x384.size a ≤ S256x384.size a
  hwx1_1 : ∀ i : grid1.Coords, EltTy.bits .f32 = 32 ∨ (Rect.block (s := S256x384) S256x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x768.size a ≤ S128x768.size a
  hwx1_3 : ∀ i : grid1.Coords, EltTy.bits .f32 = 32 ∨ (Rect.block (s := S128x768) S128x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x512.size a ≤ S256x128x512.size a
  hwx1_5 : ∀ i : grid1.Coords, EltTy.bits .f32 = 32 ∨ (Rect.block (s := S256x128x512) S1x128x512.size (cc1_transform_5 i) (hinb1_5 i)).WholeWords (EltTy.packing .f32)

variable [Facts₀]

def dot_S1x256x384_S1x384x512_S1x256x512_2_1_1_2_0_0 : DotDims S1x256x384 S1x384x512 S1x256x512 where
  lhsContracting := [2]
  rhsContracting := [1]
  lhsNonContracting := [1]
  rhsNonContracting := [2]
  lhsBatch := [0]
  rhsBatch := [0]
  wf := dot_S1x256x384_S1x384x512_S1x256x512_2_1_1_2_0_0_wf
def dot_S1x128x768_S1x768x512_S1x128x512_2_1_1_2_0_0 : DotDims S1x128x768 S1x768x512 S1x128x512 where
  lhsContracting := [2]
  rhsContracting := [1]
  lhsNonContracting := [1]
  rhsNonContracting := [2]
  lhsBatch := [0]
  rhsBatch := [0]
  wf := dot_S1x128x768_S1x768x512_S1x128x512_2_1_1_2_0_0_wf

abbrev win0_0 : Pipeline.Window sig grid0 :=
  Pipeline.Window.whole (Memref.whole main_v16) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

abbrev win1_0 : Pipeline.Window sig grid1 :=
  Pipeline.Window.ofSpec (Memref.whole main_arg0) S1x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.KBody.lean ====
/-
  The body of the convolution kernel, run once on symbolic staging buffers.

  One grid point handles 32 samples.  The body reads its five input windows (the block of 32 samples, the
  two weight matrices, the two bias columns), reads and then overwrites each of the 32 slabs
  `[i, :, :]` of its output window, and touches nothing else.  What it leaves in the output window is a
  list of 32 stores, one slab each, whose values are pure functions of the input windows' contents; the
  list is the witness below, found while the body is stepped through.
-/
import proofs.«164273_g2000305763469021_pallasbulk_548_28_alg».proof.Proof.Gen.Kernel.Launch
import proofs.«164273_g2000305763469021_pallasbulk_548_28_alg».proof.Proof.Gen.Kernel.Skeleton
import proofs.«164273_g2000305763469021_pallasbulk_548_28_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in its output window, last first, as values over the input windows'
    contents `x0 … x4`, together with the fact that from the six staging buffers held whole — the inputs
    at `x0 … x4`, the output at anything — the body runs to its return, giving back the inputs as they
    were and the output with exactly those stores written over what it held. -/
noncomputable def bodyRun (c : Dev nD) (i : grid0.Coords)
    (a1 : Memref sig .tc .vmem S32x128x512 .f32) (h1 : a1.IsWhole) (a2 : Memref sig .tc .vmem S256x384 .bf16) (h2 : a2.IsWhole)
    (a3 : Memref sig .tc .vmem S256x1 .f32) (h3 : a3.IsWhole) (a4 : Memref sig .tc .vmem S384x256 .bf16) (h4 : a4.IsWhole)
    (a5 : Memref sig .tc .vmem S128x1 .f32) (h5 : a5.IsWhole) (a6 : Memref sig .tc .vmem S32x128x512 .f32) (h6 : a6.IsWhole)
    (x0 : Vec F S32x128x512 .f32) (x1 : Vec F S256x384 .bf16) (x2 : Vec F S256x1 .f32) (x3 : Vec F S384x256 .bf16) (x4 : Vec F S128x1 .f32) :
    { L : List (View.Piece (Elt F) S32x128x512 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ (∃ d, owns (c : Thread nD τ) a6 fullShare d)
            ∗ (iprop(owns (c : Thread nD τ) a1 fullShare x0 ∗ owns (c : Thread nD τ) a2 fullShare x1 ∗ owns (c : Thread nD τ) a3 fullShare x2
                ∗ owns (c : Thread nD τ) a4 fullShare x3 ∗ owns (c : Thread nD τ) a5 fullShare x4
                ∗ (∃ f, a6.view.loc (c : Thread nD τ) ↦[a6.view.set]{fullShare} a6.view.writes (Elt F) f L)) -∗ K ⟨⟩))
          ⊢ wp frame (wpE (defs₀ (F := F)) Variants.none c none) E (cc0__conv_block_kernel i a1 h1 a2 h2 a3 h3 a4 h4 a5 h5 a6 h6) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h1.eq_unread hf0
    obtain rfl := h2.eq_unread hf1
    obtain rfl := h3.eq_unread hf2
    obtain rfl := h4.eq_unread hf3
    obtain rfl := h5.eq_unread hf4
    sl_exec_parts
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    iexists _; iexact H5

end Cert.Kernel.Hand

end
-- ==== Proof.KFrame.lean ====
/-
  The frame of the convolution program: it runs to the end, faults nowhere, and leaves its five
  argument arrays as it found them; and, for use by a value claim, every array of the one kernel region
  named after the run.

  `@main` is eighteen host operations (the two weight tensors re-laid as matrices with the three taps side
  by side, the two bias vectors as columns) followed by the kernel region on a grid of 8 points.  At point
  `t` the pipeline stages block `t` (32 samples) of the input, the whole of the four small operands, and block
  `t` of the result; the body (run in the module imported below) leaves the inputs as staged and overwrites
  the whole result block.  So: after the body an input window holds its block, the output window holds the
  body's 32 stores read back (they tile the block, hence cover it, whatever it held before).
-/
import proofs.«164273_g2000305763469021_pallasbulk_548_28_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations that precede the region. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- `@main` is those host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_of_unwritten (c : Dev nD) (b : Ref sig .tc)
    (h : ∀ op ∈ (hostOps0 : List (HloOp τ sig (Elt F))), (Proc.devRef .tc b : DevRef τ sig) ∉ op.writes) :
    V m c b = m ((c : Thread nD τ).loc b) :=
  StableHlo.after_of_forall_not_mem (b := Proc.devRef .tc b) _ _ h

/-- None of them writes an argument. -/
theorem args_unwritten (b : Ref sig .tc)
    (hb : b ∉ ([main_v0, main_v1, main_v2, main_v3, main_v4, main_v5, main_v6, main_v7, main_v8, main_v9, main_v10, main_v11, main_v12, main_v13, main_v14, main_v15, main_v16, main_v17] : List (Ref sig .tc))) :
    ∀ op ∈ (hostOps0 : List (HloOp τ sig (Elt F))), (Proc.devRef .tc b : DevRef τ sig) ∉ op.writes := by
  simp only [List.mem_cons, List.not_mem_nil, or_false, not_or] at hb
  obtain ⟨h0, h1, h2, h3, h4, h5, h6, h7, h8, h9, h10, h11, h12, h13, h14, h15, h16, h17⟩ := hb
  refine List.forall_iff_forall_mem.mp ?_
  simp only [hostOps0, List.Forall, StableHlo.unary_writes, StableHlo.reshape_writes, StableHlo.nary_writes, Finset.mem_singleton]
  refine ⟨?_, ?_, ?_, ?_, ?_, ?_, ?_, ?_, ?_, ?_, ?_, ?_, ?_, ?_, ?_, ?_, ?_, ?_⟩ <;> exact StableHlo.devRef_ne_of_ne (by assumption)

theorem V_main_arg0 (c : Dev nD) : V m c main_arg0 = m ((c : Thread nD τ).loc main_arg0) := V_of_unwritten m c _ (args_unwritten _ (by decide))
theorem V_main_arg1 (c : Dev nD) : V m c main_arg1 = m ((c : Thread nD τ).loc main_arg1) := V_of_unwritten m c _ (args_unwritten _ (by decide))
theorem V_main_arg2 (c : Dev nD) : V m c main_arg2 = m ((c : Thread nD τ).loc main_arg2) := V_of_unwritten m c _ (args_unwritten _ (by decide))
theorem V_main_arg3 (c : Dev nD) : V m c main_arg3 = m ((c : Thread nD τ).loc main_arg3) := V_of_unwritten m c _ (args_unwritten _ (by decide))
theorem V_main_arg4 (c : Dev nD) : V m c main_arg4 = m ((c : Thread nD τ).loc main_arg4) := V_of_unwritten m c _ (args_unwritten _ (by decide))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window -/

/-- One staging buffer of the output window, through which its contents are stated (the choice is immaterial once
    the stores cover the block). -/
abbrev VO : View sig .tc .vmem S32x128x512 .f32 := (Memref.whole cc0_stg5_0 : Memref sig .tc .vmem S32x128x512 .f32).view

/-- The current staging memref of each window at point `t`, as the pipeline passes it to the body. -/
abbrev ms0 (t : Fin cfg0.N) : Memref sig .tc .vmem S32x128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x384 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x128x512 .f32 := win0_5.stage (cfg0.slots t 5)
abbrev hs5 (t : Fin cfg0.N) : (ms5 t).IsWhole := hstage0_5 ((cfg0.slots t 5).cast nbuf0_5)

/-- The body's stores at point `t`, over the input blocks there. -/
abbrev storesAt (c : Dev nD) (t : Fin cfg0.N) : List (View.Piece (Elt F) S32x128x512 .f32) :=
  (bodyRun (F := F) c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t) (iblk m c 4 t)).1

/-- The 32 stores, one slab `[i, :, :]` each, tile the block `[32, 128, 512]`; so every index is covered. -/
theorem stores_cover (c : Dev nD) (i : grid0.Coords)
    (a1 : Memref sig .tc .vmem S32x128x512 .f32) (h1 : a1.IsWhole) (a2 : Memref sig .tc .vmem S256x384 .bf16) (h2 : a2.IsWhole)
    (a3 : Memref sig .tc .vmem S256x1 .f32) (h3 : a3.IsWhole) (a4 : Memref sig .tc .vmem S384x256 .bf16) (h4 : a4.IsWhole)
    (a5 : Memref sig .tc .vmem S128x1 .f32) (h5 : a5.IsWhole) (a6 : Memref sig .tc .vmem S32x128x512 .f32) (h6 : a6.IsWhole)
    (x0 : Vec F S32x128x512 .f32) (x1 : Vec F S256x384 .bf16) (x2 : Vec F S256x1 .f32) (x3 : Vec F S384x256 .bf16) (x4 : Vec F S128x1 .f32)
    (y : S32x128x512.Idx) :
    ∃ pc ∈ (bodyRun (F := F) c i a1 h1 a2 h2 a3 h3 a4 h4 a5 h5 a6 h6 x0 x1 x2 x3 x4).1, y ∈ pc.1.set :=
  View.cover_of_tiledL (bodyRun (F := F) c i a1 h1 a2 h2 a3 h3 a4 h4 a5 h5 a6 h6 x0 x1 x2 x3 x4).1 S1x128x512.size (by sl_kernel_rfl) y

/-- What the output window's staging buffer holds after the body at point `t`: the stores read back. -/
def outAt (c : Dev nD) (t : Fin cfg0.N) : Vec F S32x128x512 .f32 :=
  VO.read (Elt F) (VO.writes (Elt F) VO.junk (storesAt m c t))

/-! ## The pipeline's proof data -/

/-- On core `c`: the arrays as the region finds them; after the body at point `t` each input window at its block
    and the output window at the stores read back; the invariant is the buffers the region does not touch; full
    shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- An input window's staging buffer holds the window's block when the body starts, whether the pipeline fetched
    it at this point or kept it from the point before (the small operands' block never moves). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation at a symbolic point -/

set_option maxHeartbeats 2000000 in
theorem body_obligation (c : Dev nD) : BodyObligation (dats (F := F) m 0 c) (defs₀ (F := F)) Variants.none () Set.univ := fun t => by
  rw [bigSep_W0, bigSep_W0]
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold outAt
  iintro ⟨HΦ, Ho, ⟨%d0, H0⟩, ⟨%d1, H1⟩, ⟨%d2, H2⟩, ⟨%d3, H3⟩, ⟨%d4, H4⟩, ⟨%d5, H5⟩⟩
  iapply ((bodyRun (F := F) c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (stores_cover c _ _ _ _ _ _ _ _ _ _ _ _ _ _ _ _ _ _)

/-! ## The run and the frame -/

set_option backward.isDefEq.respectTransparency.types false in
/-- Every weakly fair execution of `@main` from memory `m` with zero counters terminates, and in every final state
    each array of the region holds what the write-backs of the proof data leave, every other unscoped buffer what the
    region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the result array named and the five arguments unchanged. -/
theorem run_named : θ_run defs (onTc (τ := τ) (main (F := F))) ⟨m, fun _ => 0, ρ⟩ (fun r => ∀ c : Dev nD,
      r.2.mem ((c.tc : Thread nD τ).loc main_v18) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The frame: the program runs and its five arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.Kernel.Hand

end
-- ==== Proof.KIBody.lean ====
/-
  The body of the convolution kernel, run once on symbolic staging buffers.

  One grid point handles 32 samples.  The body reads its five input windows (the block of 32 samples, the
  two weight matrices, the two bias columns), reads and then overwrites each of the 32 slabs
  `[i, :, :]` of its output window, and touches nothing else.  What it leaves in the output window is a
  list of 32 stores, one slab each, whose values are pure functions of the input windows' contents; the
  list is the witness below, found while the body is stepped through.
-/
import proofs.«164273_g2000305763469021_pallasbulk_548_28_alg».proof.Proof.Gen.KernelIdeal.Launch
import proofs.«164273_g2000305763469021_pallasbulk_548_28_alg».proof.Proof.Gen.KernelIdeal.Skeleton
import proofs.«164273_g2000305763469021_pallasbulk_548_28_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in its output window, last first, as values over the input windows'
    contents `x0 … x4`, together with the fact that from the six staging buffers held whole — the inputs
    at `x0 … x4`, the output at anything — the body runs to its return, giving back the inputs as they
    were and the output with exactly those stores written over what it held. -/
noncomputable def bodyRun (c : Dev nD) (i : grid0.Coords)
    (a1 : Memref sig .tc .vmem S32x128x512 .f32) (h1 : a1.IsWhole) (a2 : Memref sig .tc .vmem S256x384 .bf16) (h2 : a2.IsWhole)
    (a3 : Memref sig .tc .vmem S256x1 .f32) (h3 : a3.IsWhole) (a4 : Memref sig .tc .vmem S384x256 .bf16) (h4 : a4.IsWhole)
    (a5 : Memref sig .tc .vmem S128x1 .f32) (h5 : a5.IsWhole) (a6 : Memref sig .tc .vmem S32x128x512 .f32) (h6 : a6.IsWhole)
    (x0 : Vec F S32x128x512 .f32) (x1 : Vec F S256x384 .bf16) (x2 : Vec F S256x1 .f32) (x3 : Vec F S384x256 .bf16) (x4 : Vec F S128x1 .f32) :
    { L : List (View.Piece (Elt F) S32x128x512 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ (∃ d, owns (c : Thread nD τ) a6 fullShare d)
            ∗ (iprop(owns (c : Thread nD τ) a1 fullShare x0 ∗ owns (c : Thread nD τ) a2 fullShare x1 ∗ owns (c : Thread nD τ) a3 fullShare x2
                ∗ owns (c : Thread nD τ) a4 fullShare x3 ∗ owns (c : Thread nD τ) a5 fullShare x4
                ∗ (∃ f, a6.view.loc (c : Thread nD τ) ↦[a6.view.set]{fullShare} a6.view.writes (Elt F) f L)) -∗ K ⟨⟩))
          ⊢ wp frame (wpE (defs₀ (F := F)) Variants.none c none) E (cc0__conv_block_kernel i a1 h1 a2 h2 a3 h3 a4 h4 a5 h5 a6 h6) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h1.eq_unread hf0
    obtain rfl := h2.eq_unread hf1
    obtain rfl := h3.eq_unread hf2
    obtain rfl := h4.eq_unread hf3
    obtain rfl := h5.eq_unread hf4
    sl_exec_parts
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    iexists _; iexact H5

end Cert.KernelIdeal.Hand

end
-- ==== Proof.KIFrame.lean ====
/-
  The frame of the convolution program: it runs to the end, faults nowhere, and leaves its five
  argument arrays as it found them; and, for use by a value claim, every array of the one kernel region
  named after the run.

  `@main` is eighteen host operations (the two weight tensors re-laid as matrices with the three taps side
  by side, the two bias vectors as columns) followed by the kernel region on a grid of 8 points.  At point
  `t` the pipeline stages block `t` (32 samples) of the input, the whole of the four small operands, and block
  `t` of the result; the body (run in the module imported below) leaves the inputs as staged and overwrites
  the whole result block.  So: after the body an input window holds its block, the output window holds the
  body's 32 stores read back (they tile the block, hence cover it, whatever it held before).
-/
import proofs.«164273_g2000305763469021_pallasbulk_548_28_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations that precede the region. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- `@main` is those host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no host operation writes is found as launched. -/
theorem V_of_unwritten (c : Dev nD) (b : Ref sig .tc)
    (h : ∀ op ∈ (hostOps0 : List (HloOp τ sig (Elt F))), (Proc.devRef .tc b : DevRef τ sig) ∉ op.writes) :
    V m c b = m ((c : Thread nD τ).loc b) :=
  StableHlo.after_of_forall_not_mem (b := Proc.devRef .tc b) _ _ h

/-- None of them writes an argument. -/
theorem args_unwritten (b : Ref sig .tc)
    (hb : b ∉ ([main_v0, main_v1, main_v2, main_v3, main_v4, main_v5, main_v6, main_v7, main_v8, main_v9, main_v10, main_v11, main_v12, main_v13, main_v14, main_v15, main_v16, main_v17] : List (Ref sig .tc))) :
    ∀ op ∈ (hostOps0 : List (HloOp τ sig (Elt F))), (Proc.devRef .tc b : DevRef τ sig) ∉ op.writes := by
  simp only [List.mem_cons, List.not_mem_nil, or_false, not_or] at hb
  obtain ⟨h0, h1, h2, h3, h4, h5, h6, h7, h8, h9, h10, h11, h12, h13, h14, h15, h16, h17⟩ := hb
  refine List.forall_iff_forall_mem.mp ?_
  simp only [hostOps0, List.Forall, StableHlo.unary_writes, StableHlo.reshape_writes, StableHlo.nary_writes, Finset.mem_singleton]
  refine ⟨?_, ?_, ?_, ?_, ?_, ?_, ?_, ?_, ?_, ?_, ?_, ?_, ?_, ?_, ?_, ?_, ?_, ?_⟩ <;> exact StableHlo.devRef_ne_of_ne (by assumption)

theorem V_main_arg0 (c : Dev nD) : V m c main_arg0 = m ((c : Thread nD τ).loc main_arg0) := V_of_unwritten m c _ (args_unwritten _ (by decide))
theorem V_main_arg1 (c : Dev nD) : V m c main_arg1 = m ((c : Thread nD τ).loc main_arg1) := V_of_unwritten m c _ (args_unwritten _ (by decide))
theorem V_main_arg2 (c : Dev nD) : V m c main_arg2 = m ((c : Thread nD τ).loc main_arg2) := V_of_unwritten m c _ (args_unwritten _ (by decide))
theorem V_main_arg3 (c : Dev nD) : V m c main_arg3 = m ((c : Thread nD τ).loc main_arg3) := V_of_unwritten m c _ (args_unwritten _ (by decide))
theorem V_main_arg4 (c : Dev nD) : V m c main_arg4 = m ((c : Thread nD τ).loc main_arg4) := V_of_unwritten m c _ (args_unwritten _ (by decide))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window -/

/-- One staging buffer of the output window, through which its contents are stated (the choice is immaterial once
    the stores cover the block). -/
abbrev VO : View sig .tc .vmem S32x128x512 .f32 := (Memref.whole cc0_stg5_0 : Memref sig .tc .vmem S32x128x512 .f32).view

/-- The current staging memref of each window at point `t`, as the pipeline passes it to the body. -/
abbrev ms0 (t : Fin cfg0.N) : Memref sig .tc .vmem S32x128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x384 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S32x128x512 .f32 := win0_5.stage (cfg0.slots t 5)
abbrev hs5 (t : Fin cfg0.N) : (ms5 t).IsWhole := hstage0_5 ((cfg0.slots t 5).cast nbuf0_5)

/-- The body's stores at point `t`, over the input blocks there. -/
abbrev storesAt (c : Dev nD) (t : Fin cfg0.N) : List (View.Piece (Elt F) S32x128x512 .f32) :=
  (bodyRun (F := F) c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t) (iblk m c 4 t)).1

/-- The 32 stores, one slab `[i, :, :]` each, tile the block `[32, 128, 512]`; so every index is covered. -/
theorem stores_cover (c : Dev nD) (i : grid0.Coords)
    (a1 : Memref sig .tc .vmem S32x128x512 .f32) (h1 : a1.IsWhole) (a2 : Memref sig .tc .vmem S256x384 .bf16) (h2 : a2.IsWhole)
    (a3 : Memref sig .tc .vmem S256x1 .f32) (h3 : a3.IsWhole) (a4 : Memref sig .tc .vmem S384x256 .bf16) (h4 : a4.IsWhole)
    (a5 : Memref sig .tc .vmem S128x1 .f32) (h5 : a5.IsWhole) (a6 : Memref sig .tc .vmem S32x128x512 .f32) (h6 : a6.IsWhole)
    (x0 : Vec F S32x128x512 .f32) (x1 : Vec F S256x384 .bf16) (x2 : Vec F S256x1 .f32) (x3 : Vec F S384x256 .bf16) (x4 : Vec F S128x1 .f32)
    (y : S32x128x512.Idx) :
    ∃ pc ∈ (bodyRun (F := F) c i a1 h1 a2 h2 a3 h3 a4 h4 a5 h5 a6 h6 x0 x1 x2 x3 x4).1, y ∈ pc.1.set :=
  View.cover_of_tiledL (bodyRun (F := F) c i a1 h1 a2 h2 a3 h3 a4 h4 a5 h5 a6 h6 x0 x1 x2 x3 x4).1 S1x128x512.size (by sl_kernel_rfl) y

/-- What the output window's staging buffer holds after the body at point `t`: the stores read back. -/
def outAt (c : Dev nD) (t : Fin cfg0.N) : Vec F S32x128x512 .f32 :=
  VO.read (Elt F) (VO.writes (Elt F) VO.junk (storesAt m c t))

/-! ## The pipeline's proof data -/

/-- On core `c`: the arrays as the region finds them; after the body at point `t` each input window at its block
    and the output window at the stores read back; the invariant is the buffers the region does not touch; full
    shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- An input window's staging buffer holds the window's block when the body starts, whether the pipeline fetched
    it at this point or kept it from the point before (the small operands' block never moves). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation at a symbolic point -/

set_option maxHeartbeats 2000000 in
theorem body_obligation (c : Dev nD) : BodyObligation (dats (F := F) m 0 c) (defs₀ (F := F)) Variants.none () Set.univ := fun t => by
  rw [bigSep_W0, bigSep_W0]
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold outAt
  iintro ⟨HΦ, Ho, ⟨%d0, H0⟩, ⟨%d1, H1⟩, ⟨%d2, H2⟩, ⟨%d3, H3⟩, ⟨%d4, H4⟩, ⟨%d5, H5⟩⟩
  iapply ((bodyRun (F := F) c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (stores_cover c _ _ _ _ _ _ _ _ _ _ _ _ _ _ _ _ _ _)

/-! ## The run and the frame -/

set_option backward.isDefEq.respectTransparency.types false in
/-- Every weakly fair execution of `@main` from memory `m` with zero counters terminates, and in every final state
    each array of the region holds what the write-backs of the proof data leave, every other unscoped buffer what the
    region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the result array named and the five arguments unchanged. -/
theorem run_named : θ_run defs (onTc (τ := τ) (main (F := F))) ⟨m, fun _ => 0, ρ⟩ (fun r => ∀ c : Dev nD,
      r.2.mem ((c.tc : Thread nD τ).loc main_v18) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The frame: the program runs and its five arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.KernelIdeal.Hand

end
-- ==== Proof.KIStores.lean ====
/-
  The 32 stores the kernel body leaves in its output window are one function of a sample, applied to the
  32 samples of the input block.

  The body is the same straight-line computation repeated for the samples `i = 0 … 31`: two stacked
  three-tap convolutions with bias and rectification of the slab `x[i, :, :]`, stored into the slab
  `[i, :, :]` of the output window.  `sampleOut` below is that computation for one slab, in the spelling of
  sample 0; every other sample's stored value is the same term at its own slab.
-/
import proofs.«164273_g2000305763469021_pallasbulk_548_28_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- One sample through the two layers: `w1` the layer-1 weights with the three taps side by side along the contracted
    axis, `b1` its bias column, `w2` the layer-2 weights with the three taps stacked along the output rows, `b2` its bias
    column, `x` the sample `[1, 128, 512]`. -/
def sampleOut (w1 : Vec F S256x384 .bf16) (b1 : Vec F S256x1 .f32) (w2 : Vec F S384x256 .bf16) (b2 : Vec F S128x1 .f32)
    (x : Vec F S1x128x512 .f32) : FVec F S1x128x512 .f32 :=
  k0_pay56 (k0_pay3 w2) (k0_pay5 b2) (k0_pay6 w1 b1 x)

/-- The slab `[k, :, :]` of the block `[32, 128, 512]`. -/
abbrev slab (k : Fin 32) : Rect S32x128x512 :=
  Rect.unit (s := S32x128x512) ![k.val, 0, 0] S1x128x512.size (fun a => by
    have := k.isLt
    match a with
    | ⟨0, _⟩ => show k.val + 1 ≤ 32; omega
    | ⟨1, _⟩ => show 0 + 128 ≤ 128; omega
    | ⟨2, _⟩ => show 0 + 512 ≤ 512; omega)

/-- The store of sample `k`: its slab, and the sample function at the slab of the input block. -/
abbrev pc (W1 : Vec F S256x384 .bf16) (B1 : Vec F S256x1 .f32) (W2 : Vec F S384x256 .bf16) (B2 : Vec F S128x1 .f32)
    (x0 : Vec F S32x128x512 .f32) (k : Fin 32) : View.Piece (Elt F) S32x128x512 .f32 :=
  ⟨slab k, sampleOut W1 B1 W2 B2 (View.ld x0 (slab k))⟩

/-- The whole-window rectangles the body loads the four small operands through. -/
abbrev rW1 : Rect S256x384 := Rect.unit (s := S256x384) ![0, 0] S256x384.size inb_S256x384_S256x384_0_0
abbrev rB1 : Rect S256x1 := Rect.unit (s := S256x1) ![0, 0] S256x1.size inb_S256x1_S256x1_0_0
abbrev rW2 : Rect S384x256 := Rect.unit (s := S384x256) ![0, 0] S384x256.size inb_S384x256_S384x256_0_0
abbrev rB2 : Rect S128x1 := Rect.unit (s := S128x1) ![0, 0] S128x1.size inb_S128x1_S128x1_0_0

set_option maxHeartbeats 4000000 in
/-- The stores the run found are the 32 samples' stores, last sample first. -/
theorem stores_eq (c : Dev nD) (i : grid0.Coords)
    (a1 : Memref sig .tc .vmem S32x128x512 .f32) (h1 : a1.IsWhole) (a2 : Memref sig .tc .vmem S256x384 .bf16) (h2 : a2.IsWhole)
    (a3 : Memref sig .tc .vmem S256x1 .f32) (h3 : a3.IsWhole) (a4 : Memref sig .tc .vmem S384x256 .bf16) (h4 : a4.IsWhole)
    (a5 : Memref sig .tc .vmem S128x1 .f32) (h5 : a5.IsWhole) (a6 : Memref sig .tc .vmem S32x128x512 .f32) (h6 : a6.IsWhole)
    (x0 : Vec F S32x128x512 .f32) (x1 : Vec F S256x384 .bf16) (x2 : Vec F S256x1 .f32) (x3 : Vec F S384x256 .bf16) (x4 : Vec F S128x1 .f32) :
    (bodyRun (F := F) c i a1 h1 a2 h2 a3 h3 a4 h4 a5 h5 a6 h6 x0 x1 x2 x3 x4).1
      = (fun (W1 : Vec F S256x384 .bf16) (B1 : Vec F S256x1 .f32) (W2 : Vec F S384x256 .bf16) (B2 : Vec F S128x1 .f32) =>
          [pc W1 B1 W2 B2 x0 31, pc W1 B1 W2 B2 x0 30, pc W1 B1 W2 B2 x0 29, pc W1 B1 W2 B2 x0 28, pc W1 B1 W2 B2 x0 27, pc W1 B1 W2 B2 x0 26, pc W1 B1 W2 B2 x0 25, pc W1 B1 W2 B2 x0 24, pc W1 B1 W2 B2 x0 23, pc W1 B1 W2 B2 x0 22, pc W1 B1 W2 B2 x0 21, pc W1 B1 W2 B2 x0 20, pc W1 B1 W2 B2 x0 19, pc W1 B1 W2 B2 x0 18, pc W1 B1 W2 B2 x0 17, pc W1 B1 W2 B2 x0 16, pc W1 B1 W2 B2 x0 15, pc W1 B1 W2 B2 x0 14, pc W1 B1 W2 B2 x0 13, pc W1 B1 W2 B2 x0 12, pc W1 B1 W2 B2 x0 11, pc W1 B1 W2 B2 x0 10, pc W1 B1 W2 B2 x0 9, pc W1 B1 W2 B2 x0 8, pc W1 B1 W2 B2 x0 7, pc W1 B1 W2 B2 x0 6, pc W1 B1 W2 B2 x0 5, pc W1 B1 W2 B2 x0 4, pc W1 B1 W2 B2 x0 3, pc W1 B1 W2 B2 x0 2, pc W1 B1 W2 B2 x0 1, pc W1 B1 W2 B2 x0 0])
        (View.ld x1 rW1) (View.ld x2 rB1) (View.ld x3 rW2) (View.ld x4 rB2) := by
  unfold bodyRun
  dsimp only
  sl_unfold_run_names
  simp only [View.readAt_eq_ld, Memref.IsWhole.read_unread]
  rfl

end Cert.KernelIdeal.Hand

end
-- ==== Proof.KIValue.lean ====
/-
  The kernel's result array after the run, as one function of the argument arrays.

  At grid point `t` the output window's buffer ends holding, at `(k, co, l)`, the sample function of slab `k` of the
  input block read at `(co, l)`: all 32 stores carry blocks of that one function and together cover the window.  The
  input block at point `t` is samples `32 t … 32 t + 31` of the input array and the four small operands are staged
  whole, so what point `t` writes back is block `t` of ONE whole-array function: entry `(n, co, l)` is the sample
  function of sample `n` at `(co, l)`.  The 8 blocks cover the array.
-/
import proofs.«164273_g2000305763469021_pallasbulk_548_28_alg».proof.Proof.KIFrame
import proofs.«164273_g2000305763469021_pallasbulk_548_28_alg».proof.Proof.KIStores
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## Inside one block -/

/-- What the output window holds after the body, as one function of the block index: the sample function of the slab
    the index lies in. -/
def blockFn (W1 : Vec F S256x384 .bf16) (B1 : Vec F S256x1 .f32) (W2 : Vec F S384x256 .bf16) (B2 : Vec F S128x1 .f32)
    (x0 : Vec F S32x128x512 .f32) : S32x128x512.Idx → Elt F .f32 :=
  fun j => sampleOut W1 B1 W2 B2 (View.ld x0 (slab (j 0))) (ix3 (0 : Fin 1) (j 1) (j 2))

/-- The store of sample `k` carries the block of `blockFn` its slab names. -/
theorem pc_carries (W1 : Vec F S256x384 .bf16) (B1 : Vec F S256x1 .f32) (W2 : Vec F S384x256 .bf16) (B2 : Vec F S128x1 .f32)
    (x0 : Vec F S32x128x512 .f32) (k : Fin 32) (x : (slab k).shape.Idx) :
    (pc W1 B1 W2 B2 x0 k).2 x = blockFn W1 B1 W2 B2 x0 ((slab k).emb x) := by
  have hx0 : (x 0).val < 1 := (x 0).isLt
  have e0 : ((slab k).emb x) 0 = k := Fin.ext (by
    show ((slab k).emb x (0 : Fin 3) : Nat) = k.val
    rw [Rect.emb_apply]; simp only [Rect.off_unit, Rect.stride_unit, Nat.one_mul]
    show k.val + (x 0).val = k.val; omega)
  have hx : x = ix3 (0 : Fin 1) (((slab k).emb x) 1) (((slab k).emb x) 2) := by
    funext a
    match a with
    | ⟨0, _⟩ => exact Fin.ext (by show (x 0).val = 0; omega)
    | ⟨1, _⟩ => exact Fin.ext (by
        show (x 1).val = ((slab k).emb x (1 : Fin 3) : Nat)
        rw [Rect.emb_apply]; simp only [Rect.off_unit, Rect.stride_unit, Nat.one_mul]
        show (x 1).val = 0 + (x 1).val; omega)
    | ⟨2, _⟩ => exact Fin.ext (by
        show (x 2).val = ((slab k).emb x (2 : Fin 3) : Nat)
        rw [Rect.emb_apply]; simp only [Rect.off_unit, Rect.stride_unit, Nat.one_mul]
        show (x 2).val = 0 + (x 2).val; omega)
  show sampleOut W1 B1 W2 B2 (View.ld x0 (slab k)) x
    = sampleOut W1 B1 W2 B2 (View.ld x0 (slab (((slab k).emb x) 0))) (ix3 (0 : Fin 1) (((slab k).emb x) 1) (((slab k).emb x) 2))
  rw [e0]
  exact congrArg (sampleOut W1 B1 W2 B2 (View.ld x0 (slab k))) hx

/-- Every store of the list carries its block of `blockFn`. -/
theorem stores_carry (W1 : Vec F S256x384 .bf16) (B1 : Vec F S256x1 .f32) (W2 : Vec F S384x256 .bf16) (B2 : Vec F S128x1 .f32)
    (x0 : Vec F S32x128x512 .f32) :
    ∀ p ∈ ([pc W1 B1 W2 B2 x0 31, pc W1 B1 W2 B2 x0 30, pc W1 B1 W2 B2 x0 29, pc W1 B1 W2 B2 x0 28, pc W1 B1 W2 B2 x0 27, pc W1 B1 W2 B2 x0 26, pc W1 B1 W2 B2 x0 25, pc W1 B1 W2 B2 x0 24, pc W1 B1 W2 B2 x0 23, pc W1 B1 W2 B2 x0 22, pc W1 B1 W2 B2 x0 21, pc W1 B1 W2 B2 x0 20, pc W1 B1 W2 B2 x0 19, pc W1 B1 W2 B2 x0 18, pc W1 B1 W2 B2 x0 17, pc W1 B1 W2 B2 x0 16, pc W1 B1 W2 B2 x0 15, pc W1 B1 W2 B2 x0 14, pc W1 B1 W2 B2 x0 13, pc W1 B1 W2 B2 x0 12, pc W1 B1 W2 B2 x0 11, pc W1 B1 W2 B2 x0 10, pc W1 B1 W2 B2 x0 9, pc W1 B1 W2 B2 x0 8, pc W1 B1 W2 B2 x0 7, pc W1 B1 W2 B2 x0 6, pc W1 B1 W2 B2 x0 5, pc W1 B1 W2 B2 x0 4, pc W1 B1 W2 B2 x0 3, pc W1 B1 W2 B2 x0 2, pc W1 B1 W2 B2 x0 1, pc W1 B1 W2 B2 x0 0] : List (View.Piece (Elt F) S32x128x512 .f32)),
      ∀ x : p.1.shape.Idx, p.2 x = blockFn W1 B1 W2 B2 x0 (p.1.emb x) := by
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact pc_carries W1 B1 W2 B2 x0 _

variable (m : (ℓ : Loc nD τ sig) → Buf (Elt F) ℓ)

/-- The output window after the body at point `t`, at a block index. -/
theorem outAt_apply (c : Dev nD) (t : Fin cfg0.N) (j : S32x128x512.Idx) :
    outAt m c t j = blockFn (View.ld (iblk m c 1 t) rW1) (View.ld (iblk m c 2 t) rB1) (View.ld (iblk m c 3 t) rW2) (View.ld (iblk m c 4 t) rB2)
      (iblk m c 0 t) j := by
  unfold outAt
  rw [View.read_writes_junk_eq_canon]
  have hc := stores_cover (F := F) c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t) (iblk m c 4 t) j
  unfold storesAt
  rw [stores_eq] at hc ⊢
  exact View.canon_apply_of_pieces _ _ (stores_carry _ _ _ _ _) j hc

end Cert.KernelIdeal.Hand

end
-- ==== Proof.KIArray.lean ====
/-
  From blocks to the array: the kernel's result array after the run is one function of the argument arrays.

  Entry `(n, co, l)` of the result is the sample function of sample `n` of the input array, read at `(co, l)`, with the
  four small operands as the region finds them.  Grid point `t` stages samples `32 t … 32 t + 31` (block index `t` on the
  sample axis, block extent 32; the other two axes whole) and the small operands whole (block index 0 on both axes), and
  writes back block `t` of the result; the 8 blocks tile the 256 samples.
-/
import proofs.«164273_g2000305763469021_pallasbulk_548_28_alg».proof.Proof.KIValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- Sample `n` of an array `[256, 128, 512]`, as a vector `[1, 128, 512]`. -/
def sampleOf (X : S256x128x512.Idx → Elt F .f32) (n : Fin 256) : Vec F S1x128x512 .f32 :=
  fun y => X (ix3 n (y 1) (y 2))

/-- The result array as one function of the input array and the four small operands. -/
def resultFn (X : S256x128x512.Idx → Elt F .f32) (W1 : Vec F S256x384 .bf16) (B1 : Vec F S256x1 .f32) (W2 : Vec F S384x256 .bf16)
    (B2 : Vec F S128x1 .f32) : S256x128x512.Idx → Elt F .f32 :=
  fun i => sampleOut W1 B1 W2 B2 (sampleOf X (i 0)) (ix3 (0 : Fin 1) (i 1) (i 2))

/-- The printed index maps, decided over the grid: the input and the result move along the sample axis with the
    point; every other block index is 0. -/
theorem idx_facts : ∀ t : Fin cfg0.N, win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (m : (ℓ : Loc nD τ sig) → Buf (Elt F) ℓ)

/-- A small operand's window is its whole array at every point. -/
theorem whole_1 (c : Dev nD) (t : Fin cfg0.N) : View.ld (iblk m c 1 t) rW1 = V m c main_v7 := by
  obtain ⟨-, -, -, -, -, -, e0, e1, -⟩ := idx_facts t
  funext z
  show V m c main_v7 (((cfg0.win 1).blk t).view.emb (rW1.idx z)) = V m c main_v7 z
  refine congrArg (V m c main_v7) ?_
  funext a; apply Fin.ext
  match a with
  | ⟨0, _⟩ => show win0_1.index t (0 : Fin 2) * 256 + 1 * (0 + 1 * (z 0).val) = (z 0).val; omega
  | ⟨1, _⟩ => show win0_1.index t (1 : Fin 2) * 384 + 1 * (0 + 1 * (z 1).val) = (z 1).val; omega
theorem whole_2 (c : Dev nD) (t : Fin cfg0.N) : View.ld (iblk m c 2 t) rB1 = V m c main_v16 := by
  obtain ⟨-, -, -, -, -, -, -, -, e0, e1, -⟩ := idx_facts t
  funext z
  show V m c main_v16 (((cfg0.win 2).blk t).view.emb (rB1.idx z)) = V m c main_v16 z
  refine congrArg (V m c main_v16) ?_
  funext a; apply Fin.ext
  match a with
  | ⟨0, _⟩ => show win0_2.index t (0 : Fin 2) * 256 + 1 * (0 + 1 * (z 0).val) = (z 0).val; omega
  | ⟨1, _⟩ => show win0_2.index t (1 : Fin 2) * 1 + 1 * (0 + 1 * (z 1).val) = (z 1).val; omega
theorem whole_3 (c : Dev nD) (t : Fin cfg0.N) : View.ld (iblk m c 3 t) rW2 = V m c main_v15 := by
  obtain ⟨-, -, -, -, -, -, -, -, -, -, e0, e1, -⟩ := idx_facts t
  funext z
  show V m c main_v15 (((cfg0.win 3).blk t).view.emb (rW2.idx z)) = V m c main_v15 z
  refine congrArg (V m c main_v15) ?_
  funext a; apply Fin.ext
  match a with
  | ⟨0, _⟩ => show win0_3.index t (0 : Fin 2) * 384 + 1 * (0 + 1 * (z 0).val) = (z 0).val; omega
  | ⟨1, _⟩ => show win0_3.index t (1 : Fin 2) * 256 + 1 * (0 + 1 * (z 1).val) = (z 1).val; omega
theorem whole_4 (c : Dev nD) (t : Fin cfg0.N) : View.ld (iblk m c 4 t) rB2 = V m c main_v17 := by
  obtain ⟨-, -, -, -, -, -, -, -, -, -, -, -, e0, e1⟩ := idx_facts t
  funext z
  show V m c main_v17 (((cfg0.win 4).blk t).view.emb (rB2.idx z)) = V m c main_v17 z
  refine congrArg (V m c main_v17) ?_
  funext a; apply Fin.ext
  match a with
  | ⟨0, _⟩ => show win0_4.index t (0 : Fin 2) * 128 + 1 * (0 + 1 * (z 0).val) = (z 0).val; omega
  | ⟨1, _⟩ => show win0_4.index t (1 : Fin 2) * 1 + 1 * (0 + 1 * (z 1).val) = (z 1).val; omega

/-- Slab `k` of the input block at point `t` is the sample of the input array that the result's block index names. -/
theorem slab_eq (c : Dev nD) (t : Fin cfg0.N) (j : S32x128x512.Idx) :
    View.ld (iblk m c 0 t) (slab (j 0)) = sampleOf (V m c main_arg0) ((((cfg0.win 5).blk t).view.emb j) 0) := by
  obtain ⟨e0, e1, e2, f0, -⟩ := idx_facts t
  funext z
  have hz0 : (z 0).val < 1 := (z 0).isLt
  show V m c main_arg0 (((cfg0.win 0).blk t).view.emb ((slab (j 0)).idx z))
    = V m c main_arg0 (ix3 ((((cfg0.win 5).blk t).view.emb j) 0) (z 1) (z 2))
  refine congrArg (V m c main_arg0) ?_
  funext a; apply Fin.ext
  match a with
  | ⟨0, _⟩ =>
    show win0_0.index t (0 : Fin 3) * 32 + 1 * ((j 0).val + 1 * (z 0).val) = win0_5.index t (0 : Fin 3) * 32 + 1 * (j 0).val
    omega
  | ⟨1, _⟩ => show win0_0.index t (1 : Fin 3) * 128 + 1 * (0 + 1 * (z 1).val) = (z 1).val; omega
  | ⟨2, _⟩ => show win0_0.index t (2 : Fin 3) * 512 + 1 * (0 + 1 * (z 2).val) = (z 2).val; omega

/-- WHAT POINT `t` WRITES BACK is block `t` of the result function of the arrays as the region finds them. -/
theorem flushed_eq (c : Dev nD) (t : Fin cfg0.N) :
    (dats m 0 c).flushed 5 t = ((cfg0.win 5).blk t).view.read (Elt F)
      (resultFn (V m c main_arg0) (V m c main_v7) (V m c main_v16) (V m c main_v15) (V m c main_v17)) := by
  show (cfg0.win 5).cut (grid0.coords t) ((dats m 0 c).after 5 t) = _
  rw [after_5]
  obtain ⟨-, -, -, f0, f1, f2, -⟩ := idx_facts t
  funext j
  show outAt m c t j = resultFn (V m c main_arg0) (V m c main_v7) (V m c main_v16) (V m c main_v15) (V m c main_v17) (((cfg0.win 5).blk t).view.emb j)
  rw [outAt_apply]
  unfold blockFn resultFn
  rw [whole_1, whole_2, whole_3, whole_4, slab_eq]
  refine congrArg (sampleOut (V m c main_v7) (V m c main_v16) (V m c main_v15) (V m c main_v17)
    (sampleOf (V m c main_arg0) ((((cfg0.win 5).blk t).view.emb j) 0))) ?_
  funext a; apply Fin.ext
  match a with
  | ⟨0, _⟩ => rfl
  | ⟨1, _⟩ => show (j 1).val = win0_5.index t (1 : Fin 3) * 128 + 1 * (j 1).val; omega
  | ⟨2, _⟩ => show (j 2).val = win0_5.index t (2 : Fin 3) * 512 + 1 * (j 2).val; omega

/-- An index of the result array lies in point `t`'s block iff each coordinate lies in the block's range on its axis. -/
theorem mem_blk (t : Fin cfg0.N) (i : S256x128x512.Idx) :
    i ∈ ((cfg0.win 5).blk t).view.set ↔ ∀ a : Fin 3, win0_5.index t a * S32x128x512.size a ≤ (i a).val ∧ (i a).val < win0_5.index t a * S32x128x512.size a + S32x128x512.size a := by
  show i ∈ ((View.whole main_v18).slice (win0_5.rect t)).set ↔ _
  rw [View.set_slice_whole, Rect.mem_set_unit]
  exact Iff.rfl

/-- Every index of the result array lies in the block of the point its sample coordinate names. -/
theorem cover (i : S256x128x512.Idx) : ∃ t : Fin cfg0.N, (cfg0.win 5).flush t = true ∧ i ∈ ((cfg0.win 5).blk t).view.set := by
  have hi0 : (i 0).val < 256 := (i 0).isLt
  have hi1 : (i 1).val < 128 := (i 1).isLt
  have hi2 : (i 2).val < 512 := (i 2).isLt
  have hN : cfg0.N = 8 := N_0
  let t : Fin cfg0.N := ⟨(i 0).val / 32, by rw [hN]; omega⟩
  obtain ⟨-, -, -, f0, f1, f2, -⟩ := idx_facts t
  refine ⟨t, flush0_5 t, ?_⟩
  rw [mem_blk]
  have ht : t.val = (i 0).val / 32 := rfl
  intro a
  match a with
  | ⟨0, _⟩ => show win0_5.index t (0 : Fin 3) * 32 ≤ (i 0).val ∧ (i 0).val < win0_5.index t (0 : Fin 3) * 32 + 32; omega
  | ⟨1, _⟩ => show win0_5.index t (1 : Fin 3) * 128 ≤ (i 1).val ∧ (i 1).val < win0_5.index t (1 : Fin 3) * 128 + 128; omega
  | ⟨2, _⟩ => show win0_5.index t (2 : Fin 3) * 512 ≤ (i 2).val ∧ (i 2).val < win0_5.index t (2 : Fin 3) * 512 + 512; omega

/-- THE RESULT ARRAY after the run. -/
theorem final (c : Dev nD) : (dats m 0 c).arrAt 5 cfg0.N
    = resultFn (V m c main_arg0) (V m c main_v7) (V m c main_v16) (V m c main_v15) (V m c main_v17) :=
  (dats m 0 c).arrAt_eq_of_cover 5 _ (fun t _ => flushed_eq m c t) cover

end Cert.KernelIdeal.Hand

end
-- ==== Proof.RefBody.lean ====
/-
  The two kernel bodies of the idealized reference program, each as a separation-logic triple over its staging
  memrefs, and what each leaves in its output window's staging buffer as a closed term.

  Region 0's body (no grid) loads its one buffer, drops the value, and stores a rotated iota over the whole buffer.
  Region 1's body (one grid point) loads its five input buffers whole, loads its output buffer and drops the value,
  and stores one payload, a function of the five loaded values, over the whole output buffer. A store through the
  whole-shape rectangle at zero offsets leaves exactly its payload, and a load through it reads the contents, so the
  closed terms reduce to the payloads themselves (`out0_0_eq`, `out1_5_eq`).
-/
import proofs.«164273_g2000305763469021_pallasbulk_548_28_alg».proof.Proof.Gen.ReferenceIdeal.Launch
import proofs.«164273_g2000305763469021_pallasbulk_548_28_alg».proof.Proof.Gen.ReferenceIdeal.Skeleton
import proofs.«164273_g2000305763469021_pallasbulk_548_28_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the gridless kernel that stores a rotated iota -/

/-- The rectangle of region 0's one store: the whole staging buffer. -/
abbrev rect0 : Rect S2x8x128 := Rect.unit (s := S2x8x128) ![0, 0, 0] S2x8x128.size inb_S2x8x128_S2x8x128_0_0_0

/-- What region 0's body leaves in its output window's staging buffer: the one stored payload over the whole buffer. -/
def out0_0 : Vec F S2x8x128 .f32 := View.canon [⟨rect0, k0_pay1 (F := F)⟩]

/-- The one store covers the buffer. -/
theorem cover0 (p : Vec F S2x8x128 .f32) (y : S2x8x128.Idx) :
    ∃ pc ∈ ([⟨rect0, p⟩] : List (View.Piece (Elt F) S2x8x128 .f32)), y ∈ pc.1.set :=
  View.cover_of_tiled [⟨rect0, p⟩] S2x8x128.size (by rfl) y

set_option maxHeartbeats 1000000 in
/-- Region 0's body on a whole staging memref holding anything: it loads the buffer (the value is dropped) and stores
    the payload over all of it, so the buffer ends at `out0_0`. -/
theorem kernel0_triple (c : Dev nD) (E : Set ℕ) (arg0 : Memref sig .tc .vmem S2x8x128 .f32) (harg0 : arg0.IsWhole)
    (K : PUnit → sProp 𝕄) :
    iprop((∃ d, owns (c : Thread nD τ) arg0 fullShare d)
        ∗ (owns (c : Thread nD τ) arg0 fullShare (out0_0 (F := F)) -∗ K ⟨⟩))
      ⊢ wp frame (wpE (defs₀ (F := F)) Variants.none c none) E (cc0__kernel arg0 harg0) K := by
  simp only [cc0__kernel_eq_skeleton]; unfold cc0__kernel_skel
  unfold owns
  iintro ⟨⟨%d0, %f0, -, H0⟩, Hk⟩
  sl_exec
  sl_step
  iapply Hk
  iexists _
  isplitr
  on_goal 2 => iexact H0
  ipureintro
  exact View.read_writes_eq_canon _ _ _ (cover0 _)

/-! ## Region 1: the convolution block kernel over a grid of 256 points -/

/-- The whole-buffer rectangles of the body's loads and of its one store. -/
abbrev rect1 : Rect S1x128x512 := Rect.unit (s := S1x128x512) ![0, 0, 0] S1x128x512.size inb_S1x128x512_S1x128x512_0_0_0
abbrev rectW1 : Rect S256x384 := Rect.unit (s := S256x384) ![0, 0] S256x384.size inb_S256x384_S256x384_0_0
abbrev rectB1 : Rect S256x1 := Rect.unit (s := S256x1) ![0, 0] S256x1.size inb_S256x1_S256x1_0_0
abbrev rectW2 : Rect S128x768 := Rect.unit (s := S128x768) ![0, 0] S128x768.size inb_S128x768_S128x768_0_0
abbrev rectB2 : Rect S128x1 := Rect.unit (s := S128x1) ![0, 0] S128x1.size inb_S128x1_S128x1_0_0

/-- What region 1's body leaves in its output window's staging buffer, as a function of what its five input buffers
    read: the one stored payload (the second layer's value over the first layer's) laid over the whole buffer. -/
def out1_5 (x0 : Vec F S1x128x512 .f32) (x1 : Vec F S256x384 .f32) (x2 : Vec F S256x1 .f32) (x3 : Vec F S128x768 .f32)
    (x4 : Vec F S128x1 .f32) : Vec F S1x128x512 .f32 :=
  View.canon [⟨rect1, k1_pay1 (k1_pay2 (View.ld x0 rect1) (View.ld x1 rectW1) (View.ld x2 rectB1)) (View.ld x3 rectW2) (View.ld x4 rectB2)⟩]

/-- The one store covers the buffer. -/
theorem cover1 (p : Vec F S1x128x512 .f32) (y : S1x128x512.Idx) :
    ∃ pc ∈ ([⟨rect1, p⟩] : List (View.Piece (Elt F) S1x128x512 .f32)), y ∈ pc.1.set :=
  View.cover_of_tiled [⟨rect1, p⟩] S1x128x512.size (by rfl) y

set_option maxHeartbeats 1000000 in
/-- Region 1's body on whole staging memrefs, the five inputs' reading `x0 … x4` and the output's holding anything:
    it loads the inputs whole, loads the output buffer (the value is dropped) and stores one payload over all of it; the
    inputs' buffers are left as found and the output's ends at `out1_5` of what the inputs read. -/
theorem kernel1_triple (c : Dev nD) (E : Set ℕ) (i : grid1.Coords)
    (arg1 : Memref sig .tc .vmem S1x128x512 .f32) (harg1 : arg1.IsWhole) (arg2 : Memref sig .tc .vmem S256x384 .f32) (harg2 : arg2.IsWhole)
    (arg3 : Memref sig .tc .vmem S256x1 .f32) (harg3 : arg3.IsWhole) (arg4 : Memref sig .tc .vmem S128x768 .f32) (harg4 : arg4.IsWhole)
    (arg5 : Memref sig .tc .vmem S128x1 .f32) (harg5 : arg5.IsWhole) (arg6 : Memref sig .tc .vmem S1x128x512 .f32) (harg6 : arg6.IsWhole)
    (x0 : Vec F S1x128x512 .f32) (x1 : Vec F S256x384 .f32) (x2 : Vec F S256x1 .f32) (x3 : Vec F S128x768 .f32) (x4 : Vec F S128x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1_conv_block_kernel i arg1 harg1 arg2 harg2 arg3 harg3 arg4 harg4 arg5 harg5 arg6 harg6) K := by
  simp only [cc1_conv_block_kernel_eq_skeleton]; unfold cc1_conv_block_kernel_skel
  simp only [k1_part1_eq_skeleton]
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _
  isplitr
  on_goal 2 => iexact H5
  ipureintro
  exact View.read_writes_eq_canon _ _ _ (cover1 _)

/-! ## The closed terms, reduced: a whole-buffer store leaves its payload, a whole-buffer load reads the contents -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- Region 0 leaves its payload. -/
theorem out0_0_eq : out0_0 (F := F) = k0_pay1 (F := F) := by
  unfold out0_0
  rw [View.canon_unit_zero zeros3]

/-- Region 1 leaves the second layer's payload of the first layer's, of the five input buffers' contents. -/
theorem out1_5_eq (x0 : Vec F S1x128x512 .f32) (x1 : Vec F S256x384 .f32) (x2 : Vec F S256x1 .f32) (x3 : Vec F S128x768 .f32)
    (x4 : Vec F S128x1 .f32) : out1_5 x0 x1 x2 x3 x4 = k1_pay1 (k1_pay2 x0 x1 x2) x3 x4 := by
  unfold out1_5
  rw [View.canon_unit_zero zeros3]
  simp only [View.ld_unit_zero (S := S1x128x512) zeros3, View.ld_unit_zero (S := S256x384) zeros2,
    View.ld_unit_zero (S := S256x1) zeros2, View.ld_unit_zero (S := S128x768) zeros2, View.ld_unit_zero (S := S128x1) zeros2]

end Cert.ReferenceIdeal.HandRun

end
-- ==== Proof.RefRun.lean ====
/-
  The run of the idealized reference program with its result array named.

  @main is four items: sixteen host operations, kernel region 0 (no grid; it fills `main_v16`), two host operations
  on `main_v16`, kernel region 1 (256 points; five operands staged block by block or whole, the result `main_v19`
  written back block by block). Each region's body is run by its triple; each region's proof data name the arrays as the
  region finds them, what the body leaves in every staging buffer at every point, and an invariant that is the scoped
  rest and the generator register. Between items the thread state is "every unscoped buffer at a valuation": the
  launch contents, then after each host stretch its operations applied, then after each region its result array
  replaced by what the pipeline's write-backs leave. The several-regions launch composes the four items, and the last
  valuation read against the final memory names the result and returns the five arguments as launched.
-/
import proofs.«164273_g2000305763469021_pallasbulk_548_28_alg».proof.Proof.RefBody
import proofs.«164273_g2000305763469021_pallasbulk_548_28_alg».proof.Proof.Gen.ReferenceIdeal.Launch
import proofs.«164273_g2000305763469021_pallasbulk_548_28_alg».proof.Proof.Gen.ReferenceIdeal.Skeleton
import proofs.«164273_g2000305763469021_pallasbulk_548_28_alg».proof.Proof.Gen.ReferenceIdeal.Points
import proofs.«164273_g2000305763469021_pallasbulk_548_28_alg».proof.Proof.Gen.ReferenceIdeal.Regions
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Small entailments both regions use

Stated over arbitrary assertions, so that each region's record is these applied to the library's lemmas at that region. -/

/-- A core that owes nothing owes nothing within any bound holding every pair; -/
theorem dues_in (c : Dev nD) (B : Set (SemLoc sig × Unit)) (hB : ∀ x, x ∈ B) :
    iprop(∃ W, owes (c : Thread nD τ) (0 : CellTallies nD τ sig Unit) W)
      ⊢ (Pipeline.owesWithin c (0 : CellTallies nD τ sig Unit) B : sProp 𝕄) := by
  iintro ⟨%W, H⟩
  iexists W
  isplitr
  · ipureintro; exact fun x _ => hB x
  iexact H

/-- and a bound may be forgotten. -/
theorem dues_out (c : Dev nD) (B : Set (SemLoc sig × Unit)) :
    (Pipeline.owesWithin c (0 : CellTallies nD τ sig Unit) B : sProp 𝕄)
      ⊢ iprop(∃ W, owes (c : Thread nD τ) (0 : CellTallies nD τ sig Unit) W) := by
  iintro ⟨%W, -, H⟩
  iexists W; iexact H

/-- A triple in continuation form runs under two assertions its program does not touch. -/
theorem under_frame {c : Dev nD} {E : Set ℕ} {e : Prog (TpuEff nD τ sig (Elt F) Λ₀ .tc) PUnit} {Fr₁ Fr₂ Pre Post : sProp 𝕄}
    (h : ∀ K : PUnit → sProp 𝕄, iprop(Pre ∗ (Post -∗ K ⟨⟩)) ⊢ wp frame (wpE (defs₀ (F := F)) Variants.none c none) E e K) :
    iprop(Fr₁ ∗ Fr₂ ∗ Pre) ⊢ wp frame (wpE (defs₀ (F := F)) Variants.none c none) E e (fun _ => iprop(Fr₁ ∗ Fr₂ ∗ Post)) := by
  iintro ⟨H1, H2, HP⟩
  iapply h
  isplitl [HP]; · iexact HP
  iintro HQ
  isplitl [H1]; · iexact H1
  isplitl [H2]; · iexact H2
  iexact HQ

/-- ENTRY, as a shape: the held buffers `H` split into the arrays `A` and a rest `Zr`; no table (`Pf` from nothing); the
    dues restated; the generator register `Rg` passed on; what the entry offers besides (`Os`, `Lv`) let go. -/
theorem entry_shape {H A Zr Rg Du Du' Pf Os Lv : sProp 𝕄} (hs : H ⊢ iprop(A ∗ Zr)) (hp : (BI.emp : sProp 𝕄) ⊢ Pf) (hd : Du ⊢ Du') :
    iprop((H ∗ Rg ∗ Du) ∗ Os ∗ Lv) ⊢ (|={Set.univ}=> iprop(A ∗ Pf ∗ Du' ∗ Rg ∗ Zr) : sProp 𝕄) := by
  iintro ⟨⟨HH, HR, HD⟩, -, -⟩
  ihave HAZ := hs $$ HH
  icases HAZ with ⟨HA, HZ⟩
  ihave HD' := hd $$ HD
  imodintro
  isplitl [HA]; · iexact HA
  isplitr
  · iapply hp; iempintro
  isplitl [HD']; · iexact HD'
  isplitl [HR]; · iexact HR
  iexact HZ

/-- EXIT, as a shape: the arrays and the rest joined back into the held buffers `H'`, the dues restated. -/
theorem exit_shape {A Zr H' Rg Du Du' : sProp 𝕄} (hj : iprop(A ∗ Zr) ⊢ H') (hd : Du' ⊢ Du) :
    iprop(A ∗ Du' ∗ Rg ∗ Zr) ⊢ (|={Set.univ}=> iprop(H' ∗ Rg ∗ Du) : sProp 𝕄) := by
  iintro ⟨HA, HD', HR, HZ⟩
  ihave HH := hj $$ [HA HZ]
  · isplitl [HA]; · iexact HA
    iexact HZ
  ihave HD := hd $$ HD'
  imodintro
  isplitl [HH]; · iexact HH
  isplitl [HR]; · iexact HR
  iexact HD

/-- The invariant at the first point: the scoped rest beside the generator register, the (absent) tables let go; -/
theorem inv_enter {Rg Pf Sc : sProp 𝕄} : iprop(Rg ∗ Pf ∗ Sc) ⊢ (iprop(Sc ∗ Rg) : sProp 𝕄) := by
  iintro ⟨HR, -, HS⟩
  isplitl [HS]; · iexact HS
  iexact HR

/-- and at the last point, taken apart again (no semaphore of the kernel's own to give back). -/
theorem inv_leave {Rg Sc : sProp 𝕄} : iprop(Sc ∗ Rg) ⊢ (iprop(Rg ∗ BI.emp ∗ Sc) : sProp 𝕄) := by
  iintro ⟨HS, HR⟩
  isplitl [HR]; · iexact HR
  isplitr; · iempintro
  iexact HS

/-- Three assertions regrouped. -/
theorem regroup {a b d : sProp 𝕄} : iprop(a ∗ b ∗ d) ⊢ (iprop((a ∗ b) ∗ d) : sProp 𝕄) := by
  iintro ⟨Ha, Hb, Hd⟩
  isplitr [Hd]
  · isplitl [Ha]; · iexact Ha
    iexact Hb
  iexact Hd

variable (m : (ℓ : Loc nD τ sig) → Buf (Elt F) ℓ)

/-! ## Region 0 (no grid; one output window over `main_v16`)

It is entered after the sixteen host operations, at the contents `V1 m c`. -/

/-- Region 0's proof data on core `c`: the array as the region finds it; after the body the staging buffer at the
    stored payload; the invariant the scoped rest and the generator register; nothing owed. -/
def dat0 (c : Dev nD) : Dat τ (Elt F) Unit ℕ (UR sig nD τ) ℕ cfg0 c where
  A w := V1 m c (Pipeline.arrRef spec0 w)
  after w _ := match w with
    | ⟨0, _⟩ => out0_0
  Φ _ := Pipeline.ΦA spec0 c
  q _ := fullShare
  owed _ := 0

theorem A0_eq (c : Dev nD) (w : Fin cfg0.W) : (dat0 m c).A w = V1 m c (Pipeline.arrRef spec0 w) := by
  dsimp only [dat0]
theorem after0_0 (c : Dev nD) (t : Fin cfg0.N) : (dat0 m c).after 0 t = out0_0 := by dsimp only [dat0]

/-- The body at region 0's one point: the output buffer holds something, the triple applies, the invariant and the
    core's dues pass through. -/
theorem body0_at (c : Dev nD) (t : Fin cfg0.N) :
    iprop((dat0 m c).Φ t.castSucc ∗ (dat0 m c).owesAt () t.castSucc
        ∗ (∃ d, owns (c : Thread nD τ) (st0_0 t) fullShare ((dat0 m c).before 0 t d)))
      ⊢ wp frame (wpE (defs₀ (F := F)) Variants.none c none) Set.univ (bodyAt0 t) (fun _ =>
          iprop((dat0 m c).Φ t.succ ∗ (dat0 m c).owesAt () t.succ
            ∗ owns (c : Thread nD τ) (st0_0 t) fullShare ((dat0 m c).after 0 t))) := by
  rw [show (dat0 m c).Φ t.succ = (dat0 m c).Φ t.castSucc from rfl,
    show (dat0 m c).owesAt () t.succ = (dat0 m c).owesAt () t.castSucc from rfl, after0_0]
  refine under_frame fun K => ?_
  iintro ⟨⟨%d, Hbuf⟩, HK⟩
  iapply (kernel0_triple c Set.univ _ _ K)
  isplitl [Hbuf]
  · iexists _; iexact Hbuf
  iexact HK

theorem body_obligation0 (c : Dev nD) : BodyObligation (dat0 (F := F) m c) (defs₀ (F := F)) Variants.none () Set.univ := fun t => by
  rw [bigSep_W0, bigSep_W0]
  exact body0_at m c t

/-! ## The contents after region 0 and after the two host operations that follow -/

/-- What region 0 leaves in `main_v16`. -/
def o16 (c : Dev nD) : Buf (Elt F) ((c : Thread nD τ).loc main_v16) := (dat0 m c).arrAt 0 cfg0.N

/-- Core `c`'s unscoped buffers after region 0: `main_v16` at what the region leaves, the others untouched. -/
def U2 (c : Dev nD) : Valuation τ sig (Elt F) := Function.update (V1 m c) main_v16 (o16 m c)

/-- … and after the two host operations on `main_v16`: region 1's entry contents. -/
def U3 (c : Dev nD) : Valuation τ sig (Elt F) := StableHlo.after hostOps1 (U2 m c)

theorem U2_self (c : Dev nD) : U2 m c main_v16 = o16 m c := by
  unfold U2; exact Function.update_self _ _ _
theorem U2_of (c : Dev nD) (r : Ref sig .tc) (h : r ≠ main_v16) : U2 m c r = V1 m c r := by
  unfold U2; exact Function.update_of_ne (StableHlo.devRef_ne_of_ne h) _ _
theorem U3_of (c : Dev nD) (r : Ref sig .tc) (h : r ∉ hostOps1_W) : U3 m c r = U2 m c r :=
  StableHlo.after_of_writes_sub hostOps1 _ hostOps1_writes h

/-! ## Region 1 (256 points; five input windows, one output window over `main_v19`) -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (U3 m c (Pipeline.arrRef spec1 w))

/-- Region 1's proof data on core `c`: the arrays as the region finds them; after the body at point `t` each input's
    buffer still at its block and the output's at `out1_5` of the five input blocks; the invariant the scoped rest and
    the generator register; nothing owed. -/
def dat1 (c : Dev nD) : Dat τ (Elt F) Unit ℕ (UR sig nD τ) ℕ cfg1 c where
  A w := U3 m c (Pipeline.arrRef spec1 w)
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => out1_5 (iblk1 m c 0 t) (iblk1 m c 1 t) (iblk1 m c 2 t) (iblk1 m c 3 t) (iblk1 m c 4 t)
  Φ _ := Pipeline.ΦA spec1 c
  q _ := fullShare
  owed _ := 0

theorem A1_eq (c : Dev nD) (w : Fin cfg1.W) : (dat1 m c).A w = U3 m c (Pipeline.arrRef spec1 w) := by
  dsimp only [dat1]

/-- A block is the window's view of the proof data's array. -/
theorem iblk1_eq (c : Dev nD) (w : Fin cfg1.W) (t : Fin cfg1.N) :
    iblk1 m c w t = ((cfg1.win w).blk t).view.read (Elt F) ((dat1 m c).A w) := by
  unfold iblk1; rw [A1_eq]

theorem after1_0 (c : Dev nD) (t : Fin cfg1.N) : (dat1 m c).after 0 t = iblk1 m c 0 t := by dsimp only [dat1]
theorem after1_1 (c : Dev nD) (t : Fin cfg1.N) : (dat1 m c).after 1 t = iblk1 m c 1 t := by dsimp only [dat1]
theorem after1_2 (c : Dev nD) (t : Fin cfg1.N) : (dat1 m c).after 2 t = iblk1 m c 2 t := by dsimp only [dat1]
theorem after1_3 (c : Dev nD) (t : Fin cfg1.N) : (dat1 m c).after 3 t = iblk1 m c 3 t := by dsimp only [dat1]
theorem after1_4 (c : Dev nD) (t : Fin cfg1.N) : (dat1 m c).after 4 t = iblk1 m c 4 t := by dsimp only [dat1]
/-- What the body leaves in the output window's buffer at point `t`: `out1_5` of the five input blocks there. -/
theorem after1_5 (c : Dev nD) (t : Fin cfg1.N) :
    (dat1 m c).after 5 t = out1_5 (iblk1 m c 0 t) (iblk1 m c 1 t) (iblk1 m c 2 t) (iblk1 m c 3 t) (iblk1 m c 4 t) := by
  dsimp only [dat1]

/-! An input window's current buffer holds its block at every point, fetched there or not: where it is not fetched the
    block index has not moved and the body left the block in place. -/

theorem before1_0 (c : Dev nD) (t : Fin cfg1.N) (d) : (dat1 m c).before 0 t d = iblk1 m c 0 t := by
  rw [(dat1 m c).before_in_eq_fetched 0 rfl (fun _ => rfl) (fun _ _ _ => rfl)
    (fun t => by rw [after1_0, iblk1_eq]; rfl) t d, iblk1_eq]
  rfl
theorem before1_1 (c : Dev nD) (t : Fin cfg1.N) (d) : (dat1 m c).before 1 t d = iblk1 m c 1 t := by
  rw [(dat1 m c).before_in_eq_fetched 1 rfl (fun _ => rfl) (fun _ _ _ => rfl)
    (fun t => by rw [after1_1, iblk1_eq]; rfl) t d, iblk1_eq]
  rfl
theorem before1_2 (c : Dev nD) (t : Fin cfg1.N) (d) : (dat1 m c).before 2 t d = iblk1 m c 2 t := by
  rw [(dat1 m c).before_in_eq_fetched 2 rfl (fun _ => rfl) (fun _ _ _ => rfl)
    (fun t => by rw [after1_2, iblk1_eq]; rfl) t d, iblk1_eq]
  rfl
theorem before1_3 (c : Dev nD) (t : Fin cfg1.N) (d) : (dat1 m c).before 3 t d = iblk1 m c 3 t := by
  rw [(dat1 m c).before_in_eq_fetched 3 rfl (fun _ => rfl) (fun _ _ _ => rfl)
    (fun t => by rw [after1_3, iblk1_eq]; rfl) t d, iblk1_eq]
  rfl
theorem before1_4 (c : Dev nD) (t : Fin cfg1.N) (d) : (dat1 m c).before 4 t d = iblk1 m c 4 t := by
  rw [(dat1 m c).before_in_eq_fetched 4 rfl (fun _ => rfl) (fun _ _ _ => rfl)
    (fun t => by rw [after1_4, iblk1_eq]; rfl) t d, iblk1_eq]
  rfl

/-- The body at any point of region 1: the five input buffers hold their blocks, the output buffer something; the
    triple applies; the invariant and the core's dues pass through. -/
theorem body1_at (c : Dev nD) (t : Fin cfg1.N) :
    iprop((dat1 m c).Φ t.castSucc ∗ (dat1 m c).owesAt () t.castSucc
        ∗ (∃ d, owns (c : Thread nD τ) (st1_0 t) fullShare ((dat1 m c).before 0 t d))
        ∗ (∃ d, owns (c : Thread nD τ) (st1_1 t) fullShare ((dat1 m c).before 1 t d))
        ∗ (∃ d, owns (c : Thread nD τ) (st1_2 t) fullShare ((dat1 m c).before 2 t d))
        ∗ (∃ d, owns (c : Thread nD τ) (st1_3 t) fullShare ((dat1 m c).before 3 t d))
        ∗ (∃ d, owns (c : Thread nD τ) (st1_4 t) fullShare ((dat1 m c).before 4 t d))
        ∗ (∃ d, owns (c : Thread nD τ) (st1_5 t) fullShare ((dat1 m c).before 5 t d)))
      ⊢ wp frame (wpE (defs₀ (F := F)) Variants.none c none) Set.univ (bodyAt1 t) (fun _ =>
          iprop((dat1 m c).Φ t.succ ∗ (dat1 m c).owesAt () t.succ
            ∗ owns (c : Thread nD τ) (st1_0 t) fullShare ((dat1 m c).after 0 t)
            ∗ owns (c : Thread nD τ) (st1_1 t) fullShare ((dat1 m c).after 1 t)
            ∗ owns (c : Thread nD τ) (st1_2 t) fullShare ((dat1 m c).after 2 t)
            ∗ owns (c : Thread nD τ) (st1_3 t) fullShare ((dat1 m c).after 3 t)
            ∗ owns (c : Thread nD τ) (st1_4 t) fullShare ((dat1 m c).after 4 t)
            ∗ owns (c : Thread nD τ) (st1_5 t) fullShare ((dat1 m c).after 5 t))) := by
  simp only [before1_0, before1_1, before1_2, before1_3, before1_4]
  rw [show (dat1 m c).Φ t.succ = (dat1 m c).Φ t.castSucc from rfl,
    show (dat1 m c).owesAt () t.succ = (dat1 m c).owesAt () t.castSucc from rfl,
    after1_0, after1_1, after1_2, after1_3, after1_4, after1_5]
  refine under_frame fun K => ?_
  iintro ⟨⟨⟨%d0, H0⟩, ⟨%d1, H1⟩, ⟨%d2, H2⟩, ⟨%d3, H3⟩, ⟨%d4, H4⟩, ⟨%d5, H5⟩⟩, HK⟩
  iapply (kernel1_triple c Set.univ _ _ _ _ _ _ _ _ _ _ _ _ _
    (iblk1 m c 0 t) (iblk1 m c 1 t) (iblk1 m c 2 t) (iblk1 m c 3 t) (iblk1 m c 4 t) K)
  isplitl [H0]; · iexact H0
  isplitl [H1]; · iexact H1
  isplitl [H2]; · iexact H2
  isplitl [H3]; · iexact H3
  isplitl [H4]; · iexact H4
  isplitl [H5]
  · iexists _; iexact H5
  iexact HK

theorem body_obligation1 (c : Dev nD) : BodyObligation (dat1 (F := F) m c) (defs₀ (F := F)) Variants.none () Set.univ := fun t => by
  rw [bigSep_W1, bigSep_W1]
  exact body1_at m c t

/-! ## The contents after region 1 -/

/-- What region 1 leaves in `main_v19`: the result array after the 256 write-backs. -/
def o19 (c : Dev nD) : Buf (Elt F) ((c : Thread nD τ).loc main_v19) := (dat1 m c).arrAt 5 cfg1.N

/-- Core `c`'s unscoped buffers at the return: `main_v19` at what region 1 leaves, the others as region 1 found them. -/
def U4 (c : Dev nD) : Valuation τ sig (Elt F) := Function.update (U3 m c) main_v19 (o19 m c)

theorem U4_self (c : Dev nD) : U4 m c main_v19 = o19 m c := by
  unfold U4; exact Function.update_self _ _ _
theorem U4_of (c : Dev nD) (r : Ref sig .tc) (h : r ≠ main_v19) : U4 m c r = U3 m c r := by
  unfold U4; exact Function.update_of_ne (StableHlo.devRef_ne_of_ne h) _ _

/-- A reference that neither host stretch writes and that is no region's result reaches the return as launched. -/
theorem U4_launch (c : Dev nD) (r : Ref sig .tc) (h4 : r ≠ main_v19) (h3 : r ∉ hostOps1_W) (h2 : r ≠ main_v16) (h1 : r ∉ hostOps0_W) :
    U4 m c r = m ((c : Thread nD τ).loc r) :=
  (U4_of m c r h4).trans <| (U3_of m c r h3).trans <| (U2_of m c r h2).trans <| (V1_of m c r h1).trans rfl

/-! ### Region 1's arrays in terms of the launch memory -/

/-- The first operand is the first argument, as launched. -/
theorem A1_0 (c : Dev nD) : (dat1 m c).A 0 = m ((c : Thread nD τ).loc main_arg0) :=
  (A1_eq m c 0).trans <| (U3_of m c main_arg0 (by decide)).trans <| (U2_of m c main_arg0 (by decide)).trans <|
    (V1_of m c main_arg0 (by decide)).trans rfl
/-- The other four operands are results of the first host stretch: region 0 and the second stretch leave them alone. -/
theorem A1_1 (c : Dev nD) : (dat1 m c).A 1 = V1 m c main_v6 :=
  (A1_eq m c 1).trans <| (U3_of m c main_v6 (by decide)).trans (U2_of m c main_v6 (by decide))
theorem A1_2 (c : Dev nD) : (dat1 m c).A 2 = V1 m c main_v14 :=
  (A1_eq m c 2).trans <| (U3_of m c main_v14 (by decide)).trans (U2_of m c main_v14 (by decide))
theorem A1_3 (c : Dev nD) : (dat1 m c).A 3 = V1 m c main_v13 :=
  (A1_eq m c 3).trans <| (U3_of m c main_v13 (by decide)).trans (U2_of m c main_v13 (by decide))
theorem A1_4 (c : Dev nD) : (dat1 m c).A 4 = V1 m c main_v15 :=
  (A1_eq m c 4).trans <| (U3_of m c main_v15 (by decide)).trans (U2_of m c main_v15 (by decide))

/-! ## Both pipelines' proof data, the thread state, and @main's four items as segments -/

/-- The proof data of the two pipelines, each at its region's entry contents. -/
def dats : (p : Fin 2) → (c : Dev nD) → Dat τ (Elt F) Unit ℕ (UR sig nD τ) ℕ (Pipeline.pin (pcfgs (F := F)) adm p) c
  | ⟨0, _⟩ => fun c => dat0 m c
  | ⟨1, _⟩ => fun c => dat1 m c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and the core owing nothing. -/
abbrev Side (c : Dev nD) : sProp 𝕄 :=
  iprop((∃ r, prngReg c r) ∗ ∃ W, owes (c : Thread nD τ) (0 : CellTallies nD τ sig Unit) W)

/-- The thread state between two items: every unscoped buffer of the core at the valuation `W`, beside `Side`. -/
abbrev St (W : Valuation τ sig (Elt F)) (c : Dev nD) : sProp 𝕄 :=
  iprop(StableHlo.held (c : Thread nD τ) (Pipeline.ucRefs τ sig) W ∗ Side c)

/-- Item 0: the sixteen host operations, from the launch contents. -/
def host0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Side

/-- Item 2: the two host operations on region 0's result, from the contents region 0 leaves. -/
def host1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) Side

/-! ### Each region's arrays at its exit, against the valuation after it -/

theorem exitArr0 (c : Dev nD) : ∀ w : Fin cfg0.W, (dat0 m c).arrAt w cfg0.N = U2 m c (Pipeline.arrRef spec0 w)
  | ⟨0, _⟩ => (U2_self m c).symm
theorem exitRest0 (c : Dev nD) (b : Ref sig .tc) (hb : b ∉ Finset.univ.image (Pipeline.arrRef spec0)) : U2 m c b = V1 m c b :=
  U2_of m c b fun e => hb (Finset.mem_image.mpr ⟨0, Finset.mem_univ _, e.symm⟩)

theorem exitArr1 (c : Dev nD) : ∀ w : Fin cfg1.W, (dat1 m c).arrAt w cfg1.N = U4 m c (Pipeline.arrRef spec1 w)
  | ⟨0, _⟩ => ((dat1 m c).arrAt_in 0 rfl _).trans ((A1_eq m c 0).trans (U4_of m c main_arg0 (by decide)).symm)
  | ⟨1, _⟩ => ((dat1 m c).arrAt_in 1 rfl _).trans ((A1_eq m c 1).trans (U4_of m c main_v6 (by decide)).symm)
  | ⟨2, _⟩ => ((dat1 m c).arrAt_in 2 rfl _).trans ((A1_eq m c 2).trans (U4_of m c main_v14 (by decide)).symm)
  | ⟨3, _⟩ => ((dat1 m c).arrAt_in 3 rfl _).trans ((A1_eq m c 3).trans (U4_of m c main_v13 (by decide)).symm)
  | ⟨4, _⟩ => ((dat1 m c).arrAt_in 4 rfl _).trans ((A1_eq m c 4).trans (U4_of m c main_v15 (by decide)).symm)
  | ⟨5, _⟩ => (U4_self m c).symm
theorem exitRest1 (c : Dev nD) (b : Ref sig .tc) (hb : b ∉ Finset.univ.image (Pipeline.arrRef spec1)) : U4 m c b = U3 m c b :=
  U4_of m c b fun e => hb (Finset.mem_image.mpr ⟨5, Finset.mem_univ _, e.symm⟩)

/-! ### Each region's arrays out of the held buffers at its entry, and back into them at its exit -/

set_option backward.isDefEq.respectTransparency.types false in
theorem split0 (c : Dev nD) :
    StableHlo.held (c : Thread nD τ) (Pipeline.ucRefs τ sig) (V1 m c)
      ⊢ (iprop((dats m 0 c).arrays ((dats m 0 c).arrAt · 0)
          ∗ Pipeline.unscopedRest (Ix := Unit) (Name := ℕ) (U := UR sig nD τ) (Lvl := ℕ) spec0 c (fun b => V1 m c b)) : sProp 𝕄) := by
  rw [← Pipeline.unscopedBufs_held]
  exact Pipeline.arrays_of_unscopedBufs (p := 0) (pcfgs (F := F)) adm (dats m) launch0.win launch0.arr_whole c
    ((dats m 0 c).share_full fun _ => rfl) (fun b => V1 m c b) fun _ => rfl

set_option backward.isDefEq.respectTransparency.types false in
theorem join0 (c : Dev nD) :
    iprop((dats m 0 c).arrays ((dats m 0 c).arrAt · cfg0.N)
        ∗ Pipeline.unscopedRest (Ix := Unit) (Name := ℕ) (U := UR sig nD τ) (Lvl := ℕ) spec0 c (fun b => V1 m c b))
      ⊢ (StableHlo.held (c : Thread nD τ) (Pipeline.ucRefs τ sig) (U2 m c) : sProp 𝕄) := by
  rw [← Pipeline.unscopedBufs_held]
  exact Pipeline.unscopedBufs_of_arrays (p := 0) (pcfgs (F := F)) adm (Ix := Unit) (Name := ℕ) (U := UR sig nD τ) (Lvl := ℕ)
    launch0.win launch0.arr_whole c (dats m) ((dats m 0 c).share_full fun _ => rfl)
    (fun b => V1 m c b) (fun b => U2 m c b) ((dats m 0 c).arrAt · cfg0.N) (exitArr0 m c) (exitRest0 m c)

set_option backward.isDefEq.respectTransparency.types false in
theorem split1 (c : Dev nD) :
    StableHlo.held (c : Thread nD τ) (Pipeline.ucRefs τ sig) (U3 m c)
      ⊢ (iprop((dats m 1 c).arrays ((dats m 1 c).arrAt · 0)
          ∗ Pipeline.unscopedRest (Ix := Unit) (Name := ℕ) (U := UR sig nD τ) (Lvl := ℕ) spec1 c (fun b => U3 m c b)) : sProp 𝕄) := by
  rw [← Pipeline.unscopedBufs_held]
  exact Pipeline.arrays_of_unscopedBufs (p := 1) (pcfgs (F := F)) adm (dats m) launch1.win launch1.arr_whole c
    ((dats m 1 c).share_full fun _ => rfl) (fun b => U3 m c b) fun _ => rfl

set_option backward.isDefEq.respectTransparency.types false in
theorem join1 (c : Dev nD) :
    iprop((dats m 1 c).arrays ((dats m 1 c).arrAt · cfg1.N)
        ∗ Pipeline.unscopedRest (Ix := Unit) (Name := ℕ) (U := UR sig nD τ) (Lvl := ℕ) spec1 c (fun b => U3 m c b))
      ⊢ (StableHlo.held (c : Thread nD τ) (Pipeline.ucRefs τ sig) (U4 m c) : sProp 𝕄) := by
  rw [← Pipeline.unscopedBufs_held]
  exact Pipeline.unscopedBufs_of_arrays (p := 1) (pcfgs (F := F)) adm (Ix := Unit) (Name := ℕ) (U := UR sig nD τ) (Lvl := ℕ)
    launch1.win launch1.arr_whole c (dats m) ((dats m 1 c).share_full fun _ => rfl)
    (fun b => U3 m c b) (fun b => U4 m c b) ((dats m 1 c).arrAt · cfg1.N) (exitArr1 m c) (exitRest1 m c)

/-! ### The regions -/

set_option backward.isDefEq.respectTransparency.types false in
/-- Item 1, region 0: entered at `V1`, left at `U2`. Its one array goes into the pipeline and comes back at what the
    write-back leaves; the generator register goes into the invariant and comes back; the other unscoped buffers
    bypass the region; the kernel has no semaphore of its own and the core owes nothing. -/
def reg0 : Pipeline.RegionSeg (pcfgs (F := F)) adm (dats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 m c).loose
  hwaits := Pipeline.hwaits_of_owed_zero _ _ _ _ L lv 0 fun _ _ => rfl
  pre c := St (V1 m c) c
  post c := St (U2 m c) c
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c :=
    entry_shape (split0 m c)
      (by unfold Pipeline.prefHeld; rw [Finset.univ_eq_empty, BI.bigSep_empty])
      (dues_in c _ fun _ => Or.inl trivial)
  hin c := inv_enter
  hout c := by
    rw [Pipeline.ownSems0_none]
    exact inv_leave
  hexit c := exit_shape (join0 m c) (dues_out c _)

set_option backward.isDefEq.respectTransparency.types false in
/-- Item 3, region 1: entered at `U3`, left at `U4`, in the same way; its six arrays go into the pipeline, the five
    operands come back as they went and the result at what the 256 write-backs leave. -/
def reg1 : Pipeline.RegionSeg (pcfgs (F := F)) adm (dats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 m c).loose
  hwaits := Pipeline.hwaits_of_owed_zero _ _ _ _ L lv 1 fun _ _ => rfl
  pre c := St (U3 m c) c
  post c := St (U4 m c) c
  X c := iprop(∃ r, prngReg c r)
  Y c := iprop(∃ r, prngReg c r)
  Z c := Pipeline.unscopedRest (Ix := Unit) (Name := ℕ) (U := UR sig nD τ) (Lvl := ℕ) spec1 c (fun b => U3 m c b)
  hentry c :=
    entry_shape (split1 m c)
      (by unfold Pipeline.prefHeld; rw [Finset.univ_eq_empty, BI.bigSep_empty])
      (dues_in c _ fun _ => Or.inl trivial)
  hin c := inv_enter
  hout c := by
    rw [Pipeline.ownSems0_none]
    exact inv_leave
  hexit c := exit_shape (join1 m c) (dues_out c _)

/-- @main's four items, in order. -/
abbrev segs : List (Pipeline.Seg (pcfgs (F := F)) adm (dats m) () defs₀ 𝒱₀ L lv) :=
  [.host (host0 m), .region (reg0 m), .host (host1 m), .region (reg1 m)]

/-- @main is the run of the four items. -/
theorem main_run (c : Dev nD) : main (F := F) c = Pipeline.Seg.run (segs m) :=
  main_segs adm (dats m) () 𝒱₀ L lv (host0 m) (host1 m) (reg0 m) (reg1 m) rfl rfl c

/-- An unscoped TensorCore reference is among those the thread state holds. -/
theorem mem_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The run -/

set_option backward.isDefEq.respectTransparency.types false in
/-- THE RUN of the idealized reference, its result NAMED: at the compiled mesh, from any memory with every semaphore
    counter at zero, every weakly fair execution of @main on the TensorCores terminates, and every final memory holds,
    on every core, the result array `main_v19` at what region 1's 256 write-backs leave of the proof data's array
    (`(dat1 m c).arrAt 5 cfg1.N`) and the five argument arrays as launched. -/
theorem run (ρ : Dev nD → PrngReg) :
    θ_run defs (onTc (τ := τ) (main (F := F))) ⟨m, fun _ => 0, ρ⟩ (fun r => ∀ c : Dev nD,
      r.2.mem ((c.tc : Thread nD τ).loc main_v19) = (dat1 m c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hemp : (BI.emp : sProp 𝕄) ⊢ bigSep Finset.univ (fun _ : Dev nD => (BI.emp : sProp 𝕄)) := by
        rw [BI.bigSep_emp_const]
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hu
      imodintro
      isplitl [Hu]
      · iapply hown; iexact Hu
      iapply hemp; iempintro)
    (T₀ := fun c => St (V0 m c) c) (Tₙ := fun c => iprop(StableHlo.held (c : Thread nD τ) (Pipeline.ucRefs τ sig) (U4 m c) ∗ ∃ r, prngReg c r))
    (hch := ⟨fun _ => .rfl, fun _ => .rfl, fun _ => .rfl, fun _ => .rfl, fun _ => regroup⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hheld, -, Hdue, -, Hreg, -⟩, -⟩
      imodintro
      isplitl [Hheld]; · iexact Hheld
      isplitl [Hreg]
      · iexists _; iexact Hreg
      iexists ∅; iexact Hdue)
    (QY := fun c s => ∀ b ∈ Pipeline.ucRefs τ sig, s.mem ((c : Thread nD τ).1, b) = U4 m c b)
    (hfin := fun c s' => by
      unfold StableHlo.held
      iintro ⟨⟨Hheld, -⟩, HSI⟩
      imodintro
      iapply (pointsTo_read_all (Pipeline.ucRefs τ sig) (fun b => ((c : Thread nD τ).1, b)) (U4 m c) s')
      isplitl [Hheld]; · iexact Hheld
      iexact HSI)
    (hQ := fun s h c =>
      ⟨(h c _ (mem_held main_v19 (by decide))).trans (U4_self m c),
       (h c _ (mem_held main_arg0 (by decide))).trans (U4_launch m c main_arg0 (by decide) (by decide) (by decide) (by decide)),
       (h c _ (mem_held main_arg1 (by decide))).trans (U4_launch m c main_arg1 (by decide) (by decide) (by decide) (by decide)),
       (h c _ (mem_held main_arg2 (by decide))).trans (U4_launch m c main_arg2 (by decide) (by decide) (by decide) (by decide)),
       (h c _ (mem_held main_arg3 (by decide))).trans (U4_launch m c main_arg3 (by decide) (by decide) (by decide) (by decide)),
       (h c _ (mem_held main_arg4 (by decide))).trans (U4_launch m c main_arg4 (by decide) (by decide) (by decide) (by decide))⟩)

/-- info: 'Cert.ReferenceIdeal.HandRun.run' depends on axioms: [propext, Classical.choice, Quot.sound] -/
#guard_msgs in #print axioms run

end Cert.ReferenceIdeal.HandRun

end
-- ==== Proof.RArray.lean ====
/-
  From blocks to the array, for the reference program: its result array after the run is one function of the
  argument arrays.

  The reference handles one sample per grid point: point `t` stages sample `t` of the input (block index `t` on the sample
  axis, block extent 1) and the four small operands whole, and writes back block `t` of the result, the stored value of
  the body at that sample.  The 256 blocks tile the array.
-/
import proofs.«164273_g2000305763469021_pallasbulk_548_28_alg».proof.Proof.RefRun
import Idealize.ShloMosaic.Lib.Pipeline.Value
import Idealize.ShloMosaic.Lib.ValueIdx

set_option maxRecDepth 16384

noncomputable section

namespace Cert.ReferenceIdeal.HandRun

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- Sample `n` of an array `[256, 128, 512]`, as a vector `[1, 128, 512]`. -/
def sampleOfR (X : S256x128x512.Idx → Elt F .f32) (n : Fin 256) : Vec F S1x128x512 .f32 :=
  fun y => X (ix3 n (y 1) (y 2))

/-- The reference's result array as one function of the input array and the four small operands. -/
def resultFnR (X : S256x128x512.Idx → Elt F .f32) (W1 : Vec F S256x384 .f32) (B1 : Vec F S256x1 .f32) (W2 : Vec F S128x768 .f32)
    (B2 : Vec F S128x1 .f32) : S256x128x512.Idx → Elt F .f32 :=
  fun i => k1_pay1 (k1_pay2 (sampleOfR X (i 0)) W1 B1) W2 B2 (ix3 (0 : Fin 1) (i 1) (i 2))

/-- The printed index maps, decided over the grid: the input and the result move along the sample axis with the
    point; every other block index is 0. -/
theorem idx_factsR : ∀ t : Fin cfg1.N, win1_0.index t (0 : Fin 3) = t.val ∧ win1_0.index t (1 : Fin 3) = 0 ∧ win1_0.index t (2 : Fin 3) = 0
    ∧ win1_5.index t (0 : Fin 3) = t.val ∧ win1_5.index t (1 : Fin 3) = 0 ∧ win1_5.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (m : (ℓ : Loc nD τ sig) → Buf (Elt F) ℓ)

/-- A small operand's window is its whole array at every point. -/
theorem wholeR_1 (c : Dev nD) (t : Fin cfg1.N) : iblk1 m c 1 t = V1 m c main_v6 := by
  obtain ⟨-, -, -, -, -, -, e0, e1, -⟩ := idx_factsR t
  rw [iblk1_eq, A1_1]
  funext z
  show V1 m c main_v6 (((cfg1.win 1).blk t).view.emb z) = V1 m c main_v6 z
  refine congrArg (V1 m c main_v6) ?_
  funext a; apply Fin.ext
  match a with
  | ⟨0, _⟩ => show win1_1.index t (0 : Fin 2) * 256 + 1 * (z 0).val = (z 0).val; omega
  | ⟨1, _⟩ => show win1_1.index t (1 : Fin 2) * 384 + 1 * (z 1).val = (z 1).val; omega
theorem wholeR_2 (c : Dev nD) (t : Fin cfg1.N) : iblk1 m c 2 t = V1 m c main_v14 := by
  obtain ⟨-, -, -, -, -, -, -, -, e0, e1, -⟩ := idx_factsR t
  rw [iblk1_eq, A1_2]
  funext z
  show V1 m c main_v14 (((cfg1.win 2).blk t).view.emb z) = V1 m c main_v14 z
  refine congrArg (V1 m c main_v14) ?_
  funext a; apply Fin.ext
  match a with
  | ⟨0, _⟩ => show win1_2.index t (0 : Fin 2) * 256 + 1 * (z 0).val = (z 0).val; omega
  | ⟨1, _⟩ => show win1_2.index t (1 : Fin 2) * 1 + 1 * (z 1).val = (z 1).val; omega
theorem wholeR_3 (c : Dev nD) (t : Fin cfg1.N) : iblk1 m c 3 t = V1 m c main_v13 := by
  obtain ⟨-, -, -, -, -, -, -, -, -, -, e0, e1, -⟩ := idx_factsR t
  rw [iblk1_eq, A1_3]
  funext z
  show V1 m c main_v13 (((cfg1.win 3).blk t).view.emb z) = V1 m c main_v13 z
  refine congrArg (V1 m c main_v13) ?_
  funext a; apply Fin.ext
  match a with
  | ⟨0, _⟩ => show win1_3.index t (0 : Fin 2) * 128 + 1 * (z 0).val = (z 0).val; omega
  | ⟨1, _⟩ => show win1_3.index t (1 : Fin 2) * 768 + 1 * (z 1).val = (z 1).val; omega
theorem wholeR_4 (c : Dev nD) (t : Fin cfg1.N) : iblk1 m c 4 t = V1 m c main_v15 := by
  obtain ⟨-, -, -, -, -, -, -, -, -, -, -, -, e0, e1⟩ := idx_factsR t
  rw [iblk1_eq, A1_4]
  funext z
  show V1 m c main_v15 (((cfg1.win 4).blk t).view.emb z) = V1 m c main_v15 z
  refine congrArg (V1 m c main_v15) ?_
  funext a; apply Fin.ext
  match a with
  | ⟨0, _⟩ => show win1_4.index t (0 : Fin 2) * 128 + 1 * (z 0).val = (z 0).val; omega
  | ⟨1, _⟩ => show win1_4.index t (1 : Fin 2) * 1 + 1 * (z 1).val = (z 1).val; omega

/-- The input block at point `t` is the sample of the input array that the result's block index names. -/
theorem sampleR_eq (c : Dev nD) (t : Fin cfg1.N) (j : S1x128x512.Idx) :
    iblk1 m c 0 t = sampleOfR (m ((c : Thread nD τ).loc main_arg0)) ((((cfg1.win 5).blk t).view.emb j) 0) := by
  obtain ⟨e0, e1, e2, f0, -⟩ := idx_factsR t
  rw [iblk1_eq, A1_0]
  funext z
  have hz0 : (z 0).val < 1 := (z 0).isLt
  have hj0 : (j 0).val < 1 := (j 0).isLt
  show m ((c : Thread nD τ).loc main_arg0) (((cfg1.win 0).blk t).view.emb z)
    = m ((c : Thread nD τ).loc main_arg0) (ix3 ((((cfg1.win 5).blk t).view.emb j) 0) (z 1) (z 2))
  refine congrArg (m ((c : Thread nD τ).loc main_arg0)) ?_
  funext a; apply Fin.ext
  match a with
  | ⟨0, _⟩ =>
    show win1_0.index t (0 : Fin 3) * 1 + 1 * (z 0).val = win1_5.index t (0 : Fin 3) * 1 + 1 * (j 0).val
    omega
  | ⟨1, _⟩ => show win1_0.index t (1 : Fin 3) * 128 + 1 * (z 1).val = (z 1).val; omega
  | ⟨2, _⟩ => show win1_0.index t (2 : Fin 3) * 512 + 1 * (z 2).val = (z 2).val; omega

/-- WHAT POINT `t` WRITES BACK is block `t` of the result function of the arrays as the region finds them. -/
theorem flushedR_eq (c : Dev nD) (t : Fin cfg1.N) :
    (dat1 m c).flushed 5 t = ((cfg1.win 5).blk t).view.read (Elt F)
      (resultFnR (m ((c : Thread nD τ).loc main_arg0)) (V1 m c main_v6) (V1 m c main_v14) (V1 m c main_v13) (V1 m c main_v15)) := by
  show (cfg1.win 5).cut (grid1.coords t) ((dat1 m c).after 5 t) = _
  rw [after1_5, out1_5_eq]
  obtain ⟨-, -, -, f0, f1, f2, -⟩ := idx_factsR t
  funext j
  have hj0 : (j 0).val < 1 := (j 0).isLt
  show k1_pay1 (k1_pay2 (iblk1 m c 0 t) (iblk1 m c 1 t) (iblk1 m c 2 t)) (iblk1 m c 3 t) (iblk1 m c 4 t) j
    = resultFnR (m ((c : Thread nD τ).loc main_arg0)) (V1 m c main_v6) (V1 m c main_v14) (V1 m c main_v13) (V1 m c main_v15) (((cfg1.win 5).blk t).view.emb j)
  unfold resultFnR
  rw [wholeR_1, wholeR_2, wholeR_3, wholeR_4, sampleR_eq m c t j]
  refine congrArg (k1_pay1 (k1_pay2 (sampleOfR (m ((c : Thread nD τ).loc main_arg0)) ((((cfg1.win 5).blk t).view.emb j) 0)) (V1 m c main_v6) (V1 m c main_v14))
    (V1 m c main_v13) (V1 m c main_v15)) ?_
  funext a; apply Fin.ext
  match a with
  | ⟨0, _⟩ => show (j 0).val = 0; omega
  | ⟨1, _⟩ => show (j 1).val = win1_5.index t (1 : Fin 3) * 128 + 1 * (j 1).val; omega
  | ⟨2, _⟩ => show (j 2).val = win1_5.index t (2 : Fin 3) * 512 + 1 * (j 2).val; omega

/-- An index of the result array lies in point `t`'s block iff each coordinate lies in the block's range on its axis. -/
theorem mem_blkR (t : Fin cfg1.N) (i : S256x128x512.Idx) :
    i ∈ ((cfg1.win 5).blk t).view.set ↔ ∀ a : Fin 3, win1_5.index t a * S1x128x512.size a ≤ (i a).val ∧ (i a).val < win1_5.index t a * S1x128x512.size a + S1x128x512.size a := by
  show i ∈ ((View.whole main_v19).slice (win1_5.rect t)).set ↔ _
  rw [View.set_slice_whole, Rect.mem_set_unit]
  exact Iff.rfl

/-- Every index of the result array lies in the block of the point its sample coordinate names. -/
theorem coverR (i : S256x128x512.Idx) : ∃ t : Fin cfg1.N, (cfg1.win 5).flush t = true ∧ i ∈ ((cfg1.win 5).blk t).view.set := by
  have hi0 : (i 0).val < 256 := (i 0).isLt
  have hi1 : (i 1).val < 128 := (i 1).isLt
  have hi2 : (i 2).val < 512 := (i 2).isLt
  have hN : cfg1.N = 256 := N_1
  let t : Fin cfg1.N := ⟨(i 0).val, by rw [hN]; omega⟩
  obtain ⟨-, -, -, f0, f1, f2, -⟩ := idx_factsR t
  refine ⟨t, flush1_5 t, ?_⟩
  rw [mem_blkR]
  have ht : t.val = (i 0).val := rfl
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 128 ≤ (i 1).val ∧ (i 1).val < win1_5.index t (1 : Fin 3) * 128 + 128; omega
  | ⟨2, _⟩ => show win1_5.index t (2 : Fin 3) * 512 ≤ (i 2).val ∧ (i 2).val < win1_5.index t (2 : Fin 3) * 512 + 512; omega

/-- THE RESULT ARRAY after the run. -/
theorem finalR (c : Dev nD) : (dat1 m c).arrAt 5 cfg1.N
    = resultFnR (m ((c : Thread nD τ).loc main_arg0)) (V1 m c main_v6) (V1 m c main_v14) (V1 m c main_v13) (V1 m c main_v15) :=
  (dat1 m c).arrAt_eq_of_cover 5 _ (fun t _ => flushedR_eq m c t) coverR

end Cert.ReferenceIdeal.HandRun

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«164273_g2000305763469021_pallasbulk_548_28_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.LibConvTaps.lean ====
/-
  A three-tap convolution along a line with zero padding, on the extended reals, and the two ways a program stacks its
  taps.

  For a line `f : Fin L → α` the zero-filled shifts are `shiftR f l = f (l - 1)` (zero at `l = 0`) and
  `shiftL f l = f (l + 1)` (zero at `l = L - 1`). One output entry of the convolution of `C` input lines `a c` with the
  tap weights `w0 w1 w2 : Fin C → EReal`, a bias `b` and a clamp below at zero is

    conv3 w0 w1 w2 b a l = max ((∑ c, w0 c * shiftR (a c) l + ∑ c, w1 c * a c l + ∑ c, w2 c * shiftL (a c) l) + b) 0.

  * `mask_mul`: a zero-filled entry times a 0/1 mask that is 0 exactly where the entry was filled is the entry (on the
    extended reals `0 * 0 = 0` and `v * 1 = v`, whatever `v` is).
  * `shiftR_sum`, `shiftL_sum`: shifting a line of sums of products is the sum of the products with the shifted lines
    (at the filled place every product is `w * 0 = 0`).
  * `conv3_of_stackedContraction`: the taps stacked on the contracted axis — one sum over `C + C + C` places of the
    weights times the stacked lines (shifted right, unshifted, shifted left) — is `conv3`.
  * `conv3_of_stackedOutput`: the taps stacked on the output rows — three sums over `C`, the outer two shifted after the
    sum, the bias added to the middle one first — is `conv3`; only commutativity and associativity of `+` are used.
  No finiteness hypothesis is needed anywhere.
-/
import Mathlib.Tactic
import Mathlib.Algebra.BigOperators.Fin
import Mathlib.Data.EReal.Operations

open scoped BigOperators

namespace Cert.ConvTaps

/-! ### Zero-filled shifts of a line -/

section Shift
variable {α : Type*} [Zero α] {L : ℕ}

/-- The line shifted right by one place: entry `l` is `f (l - 1)`, and zero at `l = 0`. -/
def shiftR (f : Fin L → α) (l : Fin L) : α :=
  if l.val = 0 then 0 else f ⟨l.val - 1, by have := l.isLt; omega⟩

/-- The line shifted left by one place: entry `l` is `f (l + 1)`, and zero at the last place. -/
def shiftL (f : Fin L → α) (l : Fin L) : α :=
  if h : l.val + 1 < L then f ⟨l.val + 1, h⟩ else 0

theorem shiftR_of_eq_zero (f : Fin L → α) {l : Fin L} (h : l.val = 0) : shiftR f l = 0 := if_pos h

theorem shiftR_of_ne_zero (f : Fin L → α) {l : Fin L} (h : l.val ≠ 0) :
    shiftR f l = f ⟨l.val - 1, by have := l.isLt; omega⟩ := if_neg h

theorem shiftL_of_lt (f : Fin L → α) {l : Fin L} (h : l.val + 1 < L) : shiftL f l = f ⟨l.val + 1, h⟩ := dif_pos h

theorem shiftL_of_not_lt (f : Fin L → α) {l : Fin L} (h : ¬ l.val + 1 < L) : shiftL f l = 0 := dif_neg h

end Shift

/-! ### The scalar facts on the extended reals -/

/-- A zero-filled entry times the 0/1 mask that vanishes exactly where the entry was filled is the entry. -/
theorem mask_mul (c : Prop) [Decidable c] (v : EReal) :
    (if c then 0 else v) * (if c then (0 : EReal) else 1) = if c then 0 else v := by
  by_cases h : c
  · simp [h]
  · simp [h]

/-- Shifting right a line of sums of products is the sum of the products with the lines shifted right. -/
theorem shiftR_sum {C L : ℕ} (w : Fin C → EReal) (a : Fin C → Fin L → EReal) (l : Fin L) :
    shiftR (fun l' => ∑ c, w c * a c l') l = ∑ c, w c * shiftR (a c) l := by
  by_cases h : l.val = 0
  · rw [shiftR_of_eq_zero _ h]
    exact (Finset.sum_eq_zero fun c _ => by rw [shiftR_of_eq_zero _ h, mul_zero]).symm
  · rw [shiftR_of_ne_zero _ h]
    exact Finset.sum_congr rfl fun c _ => by rw [shiftR_of_ne_zero _ h]

/-- Shifting left a line of sums of products is the sum of the products with the lines shifted left. -/
theorem shiftL_sum {C L : ℕ} (w : Fin C → EReal) (a : Fin C → Fin L → EReal) (l : Fin L) :
    shiftL (fun l' => ∑ c, w c * a c l') l = ∑ c, w c * shiftL (a c) l := by
  by_cases h : l.val + 1 < L
  · rw [shiftL_of_lt _ h]
    exact Finset.sum_congr rfl fun c _ => by rw [shiftL_of_lt _ h]
  · rw [shiftL_of_not_lt _ h]
    exact (Finset.sum_eq_zero fun c _ => by rw [shiftL_of_not_lt _ h, mul_zero]).symm

/-! ### One output entry of the convolution -/

/-- One entry of the three-tap convolution of the lines `a c` with zero padding, plus a bias, clamped below at zero. -/
noncomputable def conv3 {C L : ℕ} (w0 w1 w2 : Fin C → EReal) (b : EReal) (a : Fin C → Fin L → EReal) (l : Fin L) : EReal :=
  max (((∑ c, w0 c * shiftR (a c) l) + (∑ c, w1 c * a c l) + (∑ c, w2 c * shiftL (a c) l)) + b) 0

/-- The entry depends on the weights, the bias and the lines only through their values. -/
theorem conv3_congr {C L : ℕ} {w0 w1 w2 w0' w1' w2' : Fin C → EReal} {b b' : EReal} {a a' : Fin C → Fin L → EReal}
    (h0 : ∀ c, w0 c = w0' c) (h1 : ∀ c, w1 c = w1' c) (h2 : ∀ c, w2 c = w2' c) (hb : b = b')
    (ha : ∀ c l, a c l = a' c l) (l : Fin L) : conv3 w0 w1 w2 b a l = conv3 w0' w1' w2' b' a' l := by
  have e0 : w0 = w0' := funext h0
  have e1 : w1 = w1' := funext h1
  have e2 : w2 = w2' := funext h2
  have ea : a = a' := funext fun c => funext fun l => ha c l
  rw [e0, e1, e2, hb, ea]

theorem lt_first {C : ℕ} (c : Fin C) : (c : ℕ) < C + C + C := by have := c.isLt; omega
theorem lt_second {C : ℕ} (c : Fin C) : C + (c : ℕ) < C + C + C := by have := c.isLt; omega
theorem lt_third {C : ℕ} (c : Fin C) : C + C + (c : ℕ) < C + C + C := by have := c.isLt; omega

/-- A sum over `C + C + C` consecutive places is the sum of the sums over its three blocks of `C`. -/
theorem sum_three_blocks {M : Type*} [AddCommMonoid M] (C : ℕ) (f : Fin (C + C + C) → M) :
    ∑ j, f j = (∑ c : Fin C, f ⟨c, lt_first c⟩) + (∑ c : Fin C, f ⟨C + c, lt_second c⟩)
      + (∑ c : Fin C, f ⟨C + C + c, lt_third c⟩) := by
  rw [Fin.sum_univ_add, Fin.sum_univ_add]
  rfl

/-- TAPS STACKED ON THE CONTRACTED AXIS: one sum over `C + C + C` places of the weights times the stacked lines, the
    first block the lines shifted right, the second the lines, the third the lines shifted left. -/
theorem conv3_of_stackedContraction {C L : ℕ} (w xcat : Fin (C + C + C) → EReal) (b : EReal)
    (a : Fin C → Fin L → EReal) (l : Fin L)
    (h0 : ∀ c : Fin C, xcat ⟨c, lt_first c⟩ = shiftR (a c) l)
    (h1 : ∀ c : Fin C, xcat ⟨C + c, lt_second c⟩ = a c l)
    (h2 : ∀ c : Fin C, xcat ⟨C + C + c, lt_third c⟩ = shiftL (a c) l) :
    max ((∑ j, w j * xcat j) + b) 0
      = conv3 (fun c => w ⟨c, lt_first c⟩) (fun c => w ⟨C + c, lt_second c⟩) (fun c => w ⟨C + C + c, lt_third c⟩) b a l := by
  unfold conv3
  rw [sum_three_blocks C fun j => w j * xcat j]
  simp only [h0, h1, h2]

/-- TAPS STACKED ON THE OUTPUT ROWS: three sums over `C`; the bias joins the middle one, then the first one shifted
    right and the last one shifted left are added. -/
theorem conv3_of_stackedOutput {C L : ℕ} (w0 w1 w2 : Fin C → EReal) (b : EReal) (a : Fin C → Fin L → EReal) (l : Fin L) :
    max ((((∑ c, w1 c * a c l) + b) + shiftR (fun l' => ∑ c, w0 c * a c l') l)
        + shiftL (fun l' => ∑ c, w2 c * a c l') l) 0 = conv3 w0 w1 w2 b a l := by
  unfold conv3
  rw [shiftR_sum, shiftL_sum]
  congr 1
  ac_rfl

end Cert.ConvTaps
-- ==== Proof.KernelSample.lean ====
/-
  One sample of the kernel's grid point, read at an index at the ideal values.

  The kernel handles a sample in two steps. Layer 1 stacks the sample's 128 lines three times along the rows — shifted
  right by one place with a zero filled in, unshifted, shifted left — into a [384, 512] operand, multiplies the
  [256, 384] weights (tap `k` in columns `128 k … 128 k + 127`) into it, adds the bias column and clamps below at
  zero. Layer 2 multiplies the [384, 256] weights (tap `k` in rows `128 k … 128 k + 127`) into the [256, 512] layer-1
  result, adds the bias column to the middle band of 128 rows, then adds the first band shifted right and the last
  band shifted left (zeros filled in), and clamps below at zero. At the ideal values each is, entry by entry, the
  three-tap convolution with zero padding `Cert.ConvTaps.conv3`:
  * `layer1_apply`: layer 1 at (cm, l);
  * `layer2_apply`: layer 2 at (0, co, l), over any layer-1 result;
  * `sample_apply`: the two composed.
  The first section reads the layout operations met on the way (unit-axis shape casts, a broadcast column, row windows,
  the two zero-filled column shifts, a stack of three matrices along the rows) at an index, for any extents.
-/
import proofs.«164273_g2000305763469021_pallasbulk_548_28_alg».proof.Proof.Gen.KernelIdeal.Skeleton
import Idealize.ShloMosaic.Lib.Pipeline.Value
import Idealize.ShloMosaic.Lib.ValueIdx
import Idealize.ShloMosaic.PureOps.Ideal.Laws
import proofs.«164273_g2000305763469021_pallasbulk_548_28_alg».proof.Proof.LibPlainMatmul
import proofs.«164273_g2000305763469021_pallasbulk_548_28_alg».proof.Proof.LibConvTaps

noncomputable section

namespace Cert.KernelSample

open Idealize.ShloMosaic Idealize.ShloMosaic.ValueIdx Cert.KernelIdeal Cert.KernelIdeal.Gen Cert.ConvTaps

theorem dot1_eq : dot_S256x384_S384x512_S256x512_1_0_0_1_n_n = DotDims.plain 256 384 512 := rfl
theorem dot2_eq : dot_S384x256_S256x512_S384x512_1_0_0_1_n_n = DotDims.plain 384 256 512 := rfl

theorem ofBits_zero_bf16 : Ideal.ofBits .bf16 0x0000#16 = 0 := by simp [Ideal.ofBits, Ideal.ieee]

section Layout
variable {α : Type}

/-- A shape cast that drops a leading unit axis of a rank-3 vector reads, at (p, q), the operand at (0, p, q). -/
theorem squeeze_lead {a b : Nat} (x : (⟨3, ![1, a, b]⟩ : Shape).Idx → α)
    (h : (⟨3, ![1, a, b]⟩ : Shape).ShapeCasts (⟨2, ![a, b]⟩ : Shape)) (p : Fin a) (q : Fin b) :
    shapeCast (⟨2, ![a, b]⟩ : Shape) x h (ix2 p q) = x (ix3 (0 : Fin 1) p q) := by
  refine shapeCast_apply x h (ix2 p q) (ix3 (0 : Fin 1) p q) ?_
  rw [Shape.rowMajor_val_two, Shape.rowMajor_val_three]
  show (0 * a + p.val) * b + q.val = p.val * b + q.val
  rw [Nat.zero_mul, Nat.zero_add]

/-- A shape cast that adds a leading unit axis to a matrix reads, at (0, p, q), the operand at (p, q). -/
theorem unsqueeze_lead {a b : Nat} (x : (⟨2, ![a, b]⟩ : Shape).Idx → α)
    (h : (⟨2, ![a, b]⟩ : Shape).ShapeCasts (⟨3, ![1, a, b]⟩ : Shape)) (p : Fin a) (q : Fin b) :
    shapeCast (⟨3, ![1, a, b]⟩ : Shape) x h (ix3 (0 : Fin 1) p q) = x (ix2 p q) := by
  refine shapeCast_apply x h (ix3 (0 : Fin 1) p q) (ix2 p q) ?_
  rw [Shape.rowMajor_val_two, Shape.rowMajor_val_three]
  show p.val * b + q.val = (0 * a + p.val) * b + q.val
  rw [Nat.zero_mul, Nat.zero_add]

/-- A column broadcast along the rows' places reads, at (p, q), the column at (p, 0). -/
theorem bcast_col {a b : Nat} (x : (⟨2, ![a, 1]⟩ : Shape).Idx → α)
    (h : (⟨2, ![a, 1]⟩ : Shape).Broadcasts (⟨2, ![a, b]⟩ : Shape)) (p : Fin a) (q : Fin b) :
    broadcastTo (⟨2, ![a, b]⟩ : Shape) x h (ix2 p q) = x (ix2 p (0 : Fin 1)) := by
  refine broadcastTo_apply x h (ix2 p q) (ix2 p (0 : Fin 1)) ?_
  intro d
  match d with
  | ⟨0, _⟩ =>
    show p.val = if a = 1 then 0 else p.val
    split
    · have := p.isLt; omega
    · rfl
  | ⟨1, _⟩ => exact (if_pos rfl).symm

/-- A window of `m` rows starting at row `o` reads, at (p, q), the operand at row `r = o + p`. -/
theorem slice_rows {a n m o : Nat} (x : (⟨2, ![n, a]⟩ : Shape).Idx → α)
    (h : (⟨2, ![n, a]⟩ : Shape).Slices ![o, 0] (⟨2, ![m, a]⟩ : Shape)) (p : Fin m) (q : Fin a) (r : Fin n)
    (hr : r.val = o + p.val) :
    extractStridedSlice (⟨2, ![m, a]⟩ : Shape) ![o, 0] x h (ix2 p q) = x (ix2 r q) := by
  refine extractStridedSlice_apply ![o, 0] x h (ix2 p q) (ix2 r q) ?_
  intro d
  match d with
  | ⟨0, _⟩ => exact hr
  | ⟨1, _⟩ => exact (Nat.zero_add _).symm

/-- A zero column followed by all but the last column: the matrix shifted right by one column, `z` filled in. -/
theorem shiftRight_apply {a n m : Nat} (hn : n = 1 + m) (z : α) (x : (⟨2, ![a, n]⟩ : Shape).Idx → α)
    (hs : (⟨2, ![a, n]⟩ : Shape).Slices ![0, 0] (⟨2, ![a, m]⟩ : Shape))
    (hc : Shape.Concatenates [(⟨2, ![a, 1]⟩ : Shape), (⟨2, ![a, m]⟩ : Shape)] (⟨2, ![a, n]⟩ : Shape) 1)
    (p : Fin a) (l : Fin n) :
    concatenate (⟨2, ![a, n]⟩ : Shape) 1
        [⟨(⟨2, ![a, 1]⟩ : Shape), broadcast (⟨2, ![a, 1]⟩ : Shape) z⟩,
          ⟨(⟨2, ![a, m]⟩ : Shape), extractStridedSlice (⟨2, ![a, m]⟩ : Shape) ![0, 0] x hs⟩] hc (ix2 p l)
      = if l.val = 0 then z else x (ix2 p ⟨l.val - 1, by have := l.isLt; omega⟩) := by
  by_cases h : l.val = 0
  · rw [if_pos h]
    refine concatenate_pair_apply_left 1 _ _ hc (ix2 p l) rfl (ix2 p (0 : Fin 1)) ?_
    intro d
    match d with
    | ⟨0, _⟩ => rfl
    | ⟨1, _⟩ => exact h.symm
  · rw [if_neg h]
    have hl := l.isLt
    refine (concatenate_pair_apply_right 1 _ _ hc (ix2 p l) rfl rfl (ix2 p (⟨l.val - 1, by omega⟩ : Fin m)) ?_ ?_).trans ?_
    · intro d hd
      match d, hd with
      | ⟨0, _⟩, _ => rfl
      | ⟨1, _⟩, hd => exact absurd rfl hd
    · show l.val - 1 + 1 = l.val
      omega
    · refine extractStridedSlice_apply ![0, 0] x hs _ _ ?_
      intro d
      match d with
      | ⟨0, _⟩ => exact (Nat.zero_add _).symm
      | ⟨1, _⟩ => exact (Nat.zero_add _).symm

/-- All but the first column followed by a zero column: the matrix shifted left by one column, `z` filled in. -/
theorem shiftLeft_apply {a n m : Nat} (hn : n = m + 1) (z : α) (x : (⟨2, ![a, n]⟩ : Shape).Idx → α)
    (hs : (⟨2, ![a, n]⟩ : Shape).Slices ![0, 1] (⟨2, ![a, m]⟩ : Shape))
    (hc : Shape.Concatenates [(⟨2, ![a, m]⟩ : Shape), (⟨2, ![a, 1]⟩ : Shape)] (⟨2, ![a, n]⟩ : Shape) 1)
    (p : Fin a) (l : Fin n) :
    concatenate (⟨2, ![a, n]⟩ : Shape) 1
        [⟨(⟨2, ![a, m]⟩ : Shape), extractStridedSlice (⟨2, ![a, m]⟩ : Shape) ![0, 1] x hs⟩,
          ⟨(⟨2, ![a, 1]⟩ : Shape), broadcast (⟨2, ![a, 1]⟩ : Shape) z⟩] hc (ix2 p l)
      = if h : l.val + 1 < n then x (ix2 p ⟨l.val + 1, h⟩) else z := by
  by_cases h : l.val + 1 < n
  · rw [dif_pos h]
    refine (concatenate_pair_apply_left 1 _ _ hc (ix2 p l) rfl (ix2 p (⟨l.val, by omega⟩ : Fin m)) ?_).trans ?_
    · intro d
      match d with
      | ⟨0, _⟩ => rfl
      | ⟨1, _⟩ => rfl
    · refine extractStridedSlice_apply ![0, 1] x hs _ _ ?_
      intro d
      match d with
      | ⟨0, _⟩ => exact (Nat.zero_add _).symm
      | ⟨1, _⟩ => exact Nat.add_comm _ _
  · rw [dif_neg h]
    have hl := l.isLt
    refine concatenate_pair_apply_right 1 _ _ hc (ix2 p l) rfl rfl (ix2 p (0 : Fin 1)) ?_ ?_
    · intro d hd
      match d, hd with
      | ⟨0, _⟩, _ => rfl
      | ⟨1, _⟩, hd => exact absurd rfl hd
    · show 0 + m = l.val
      omega

/-- Three matrices of `a` rows stacked along the rows: row `c` of the stack is row `c` of the first. -/
theorem stack3_first {a b n : Nat} (x y z : (⟨2, ![a, b]⟩ : Shape).Idx → α)
    (hc : Shape.Concatenates [(⟨2, ![a, b]⟩ : Shape), (⟨2, ![a, b]⟩ : Shape), (⟨2, ![a, b]⟩ : Shape)] (⟨2, ![n, b]⟩ : Shape) 0)
    (c : Fin a) (q : Fin b) (hcn : c.val < n) :
    concatenate (⟨2, ![n, b]⟩ : Shape) 0
        [⟨(⟨2, ![a, b]⟩ : Shape), x⟩, ⟨(⟨2, ![a, b]⟩ : Shape), y⟩, ⟨(⟨2, ![a, b]⟩ : Shape), z⟩] hc (ix2 ⟨c.val, hcn⟩ q)
      = x (ix2 c q) :=
  concatenate_apply_piece (t := (⟨2, ![n, b]⟩ : Shape)) 0
    [⟨(⟨2, ![a, b]⟩ : Shape), x⟩, ⟨(⟨2, ![a, b]⟩ : Shape), y⟩, ⟨(⟨2, ![a, b]⟩ : Shape), z⟩] hc (ix2 ⟨c.val, hcn⟩ q)
    0 (by simp) _ x rfl rfl 0 rfl (ix2 c q)
    (fun d hd => match d, hd with
      | ⟨0, _⟩, hd => absurd rfl hd
      | ⟨1, _⟩, _ => rfl)
    (Nat.zero_add _)

/-- … row `a + c` of the stack is row `c` of the second … -/
theorem stack3_second {a b n : Nat} (x y z : (⟨2, ![a, b]⟩ : Shape).Idx → α)
    (hc : Shape.Concatenates [(⟨2, ![a, b]⟩ : Shape), (⟨2, ![a, b]⟩ : Shape), (⟨2, ![a, b]⟩ : Shape)] (⟨2, ![n, b]⟩ : Shape) 0)
    (c : Fin a) (q : Fin b) (hcn : a + c.val < n) :
    concatenate (⟨2, ![n, b]⟩ : Shape) 0
        [⟨(⟨2, ![a, b]⟩ : Shape), x⟩, ⟨(⟨2, ![a, b]⟩ : Shape), y⟩, ⟨(⟨2, ![a, b]⟩ : Shape), z⟩] hc (ix2 ⟨a + c.val, hcn⟩ q)
      = y (ix2 c q) :=
  concatenate_apply_piece (t := (⟨2, ![n, b]⟩ : Shape)) 0
    [⟨(⟨2, ![a, b]⟩ : Shape), x⟩, ⟨(⟨2, ![a, b]⟩ : Shape), y⟩, ⟨(⟨2, ![a, b]⟩ : Shape), z⟩] hc (ix2 ⟨a + c.val, hcn⟩ q)
    1 (by simp) _ y rfl rfl a (by simp) (ix2 c q)
    (fun d hd => match d, hd with
      | ⟨0, _⟩, hd => absurd rfl hd
      | ⟨1, _⟩, _ => rfl)
    rfl

/-- … and row `a + a + c` of the stack is row `c` of the third. -/
theorem stack3_third {a b n : Nat} (x y z : (⟨2, ![a, b]⟩ : Shape).Idx → α)
    (hc : Shape.Concatenates [(⟨2, ![a, b]⟩ : Shape), (⟨2, ![a, b]⟩ : Shape), (⟨2, ![a, b]⟩ : Shape)] (⟨2, ![n, b]⟩ : Shape) 0)
    (c : Fin a) (q : Fin b) (hcn : a + a + c.val < n) :
    concatenate (⟨2, ![n, b]⟩ : Shape) 0
        [⟨(⟨2, ![a, b]⟩ : Shape), x⟩, ⟨(⟨2, ![a, b]⟩ : Shape), y⟩, ⟨(⟨2, ![a, b]⟩ : Shape), z⟩] hc (ix2 ⟨a + a + c.val, hcn⟩ q)
      = z (ix2 c q) :=
  concatenate_apply_piece (t := (⟨2, ![n, b]⟩ : Shape)) 0
    [⟨(⟨2, ![a, b]⟩ : Shape), x⟩, ⟨(⟨2, ![a, b]⟩ : Shape), y⟩, ⟨(⟨2, ![a, b]⟩ : Shape), z⟩] hc (ix2 ⟨a + a + c.val, hcn⟩ q)
    2 (by simp) _ z rfl rfl (a + a) (by simp) (ix2 c q)
    (fun d hd => match d, hd with
      | ⟨0, _⟩, hd => absurd rfl hd
      | ⟨1, _⟩, _ => rfl)
    rfl

end Layout

/-- LAYER 1 of one sample, read at (cm, l): the three-tap convolution of the sample's 128 lines with the weights of
    row `cm` (tap `k` in columns `128 k … 128 k + 127`), plus the bias, clamped below at zero. -/
theorem layer1_apply (w1c : Vec Ideal S256x384 .bf16) (b1 : Vec Ideal S256x1 .f32) (x : Vec Ideal S1x128x512 .f32)
    (cm : Fin 256) (l : Fin 512) :
    k0_pay6 (F := Ideal) w1c b1 x (ix2 cm l)
      = conv3 (fun c : Fin 128 => w1c (ix2 cm ⟨c, lt_first c⟩)) (fun c : Fin 128 => w1c (ix2 cm ⟨128 + c, lt_second c⟩))
          (fun c : Fin 128 => w1c (ix2 cm ⟨128 + 128 + c, lt_third c⟩)) (b1 (ix2 cm (0 : Fin 1)))
          (fun c l' => x (ix3 (0 : Fin 1) c l')) l := by
  unfold k0_pay6 k0_pay2 k0_pay4
  dsimp only
  rw [shapeCast_self w1c, shapeCast_self b1]
  show max (FloatOps.matmul (F := Ideal) (φ₁ := .bf16) (φ₂ := .bf16) (DotDims.plain 256 384 512) none w1c _ (constant S256x512 .f32 0x00000000#32) (ix2 cm l)
        + broadcastTo S256x512 b1 broadcasts_S256x1_S256x512 (ix2 cm l)) (Ideal.ofBits .f32 0x00000000#32) = _
  rw [PlainMatmul.plain_matmul_zero_apply, bcast_col, Ideal.ofBits_zero_f32]
  refine conv3_of_stackedContraction (C := 128) (fun j : Fin 384 => w1c (ix2 cm j)) _ _ _ l ?_ ?_ ?_
  · intro c
    refine (stack3_first _ _ _ _ c l _).trans ?_
    refine (shiftRight_apply (n := 512) (m := 511) rfl _ _ _ _ c l).trans ?_
    unfold shiftR
    by_cases h : l.val = 0
    · rw [if_pos h, if_pos h]; exact ofBits_zero_bf16
    · rw [if_neg h, if_neg h]; exact squeeze_lead x _ c _
  · intro c
    refine (stack3_second _ _ _ _ c l _).trans ?_
    exact squeeze_lead x _ c l
  · intro c
    refine (stack3_third _ _ _ _ c l _).trans ?_
    refine (shiftLeft_apply (n := 512) (m := 511) rfl _ _ _ _ c l).trans ?_
    unfold shiftL
    by_cases h : l.val + 1 < 512
    · rw [dif_pos h, dif_pos h]; exact squeeze_lead x _ c _
    · rw [dif_neg h, dif_neg h]; exact ofBits_zero_bf16

/-- LAYER 2 of one sample, read at (0, co, l), over any layer-1 result `h`: the three-tap convolution of the 256 lines
    of `h` with the weights of rows `co`, `128 + co`, `256 + co` (one row per tap), plus the bias, clamped below at
    zero. -/
theorem layer2_apply (w2s : FVec Ideal S384x256 .bf16) (b2 : FVec Ideal S128x1 .f32) (h : FVec Ideal S256x512 .bf16)
    (co : Fin 128) (l : Fin 512) :
    k0_pay56 (F := Ideal) w2s b2 h (ix3 (0 : Fin 1) co l)
      = conv3 (fun c : Fin 256 => w2s (ix2 ⟨co, lt_first co⟩ c)) (fun c : Fin 256 => w2s (ix2 ⟨128 + co, lt_second co⟩ c))
          (fun c : Fin 256 => w2s (ix2 ⟨128 + 128 + co, lt_third co⟩ c)) (b2 (ix2 co (0 : Fin 1)))
          (fun c l' => h (ix2 c l')) l := by
  unfold k0_pay56
  refine (unsqueeze_lead _ _ co l).trans ?_
  have hY : ∀ (r : Fin 384) (q : Fin 512),
      matmul dot_S384x256_S256x512_S384x512_1_0_0_1_n_n none w2s h (constant S384x512 .f32 0x00000000#32) (ix2 r q)
        = ∑ c : Fin 256, w2s (ix2 r c) * h (ix2 c q) :=
    fun r q => PlainMatmul.plain_matmul_zero_apply 384 256 512 none w2s h r q
  generalize matmul dot_S384x256_S256x512_S384x512_1_0_0_1_n_n none w2s h (constant S384x512 .f32 0x00000000#32) = Y
    at hY ⊢
  show max (((_ + _) + _) + _) _ = _
  refine Eq.trans ?_ (conv3_of_stackedOutput _ _ _ _ _ l)
  refine congrArg₂ max (congrArg₂ (· + ·) (congrArg₂ (· + ·) (congrArg₂ (· + ·) ?_ ?_) ?_) ?_) ?_
  · exact (slice_rows Y _ co l ⟨128 + co, lt_second co⟩ rfl).trans (hY _ _)
  · exact bcast_col b2 _ co l
  · refine (shiftRight_apply (n := 512) (m := 511) rfl _ _ _ _ co l).trans ?_
    unfold shiftR
    by_cases h0 : l.val = 0
    · rw [if_pos h0, if_pos h0]; exact Ideal.ofBits_zero_f32
    · rw [if_neg h0, if_neg h0]
      exact (slice_rows Y _ co _ ⟨co, lt_first co⟩ (Nat.zero_add _).symm).trans (hY _ _)
  · refine (shiftLeft_apply (n := 512) (m := 511) rfl _ _ _ _ co l).trans ?_
    unfold shiftL
    by_cases h1 : l.val + 1 < 512
    · rw [dif_pos h1, dif_pos h1]
      exact (slice_rows Y _ co _ ⟨128 + 128 + co, lt_third co⟩ rfl).trans (hY _ _)
    · rw [dif_neg h1, dif_neg h1]; exact Ideal.ofBits_zero_f32
  · exact Ideal.ofBits_zero_f32

/-- ONE SAMPLE of the kernel: layer 2 over layer 1, read at (0, co, l). -/
theorem sample_apply (w1c : Vec Ideal S256x384 .bf16) (b1 : Vec Ideal S256x1 .f32) (w2s : FVec Ideal S384x256 .bf16)
    (b2 : FVec Ideal S128x1 .f32) (x : Vec Ideal S1x128x512 .f32) (co : Fin 128) (l : Fin 512) :
    k0_pay56 (F := Ideal) w2s b2 (k0_pay6 w1c b1 x) (ix3 (0 : Fin 1) co l)
      = conv3 (fun c : Fin 256 => w2s (ix2 ⟨co, lt_first co⟩ c)) (fun c : Fin 256 => w2s (ix2 ⟨128 + co, lt_second co⟩ c))
          (fun c : Fin 256 => w2s (ix2 ⟨128 + 128 + co, lt_third co⟩ c)) (b2 (ix2 co (0 : Fin 1)))
          (fun cm l' => conv3 (fun c : Fin 128 => w1c (ix2 cm ⟨c, lt_first c⟩))
            (fun c : Fin 128 => w1c (ix2 cm ⟨128 + c, lt_second c⟩))
            (fun c : Fin 128 => w1c (ix2 cm ⟨128 + 128 + c, lt_third c⟩)) (b1 (ix2 cm (0 : Fin 1)))
            (fun c l'' => x (ix3 (0 : Fin 1) c l'')) l') l := by
  rw [layer2_apply]
  exact conv3_congr (fun _ => rfl) (fun _ => rfl) (fun _ => rfl) rfl (fun cm l' => layer1_apply w1c b1 x cm l') l

end Cert.KernelSample
-- ==== Proof.RefSample.lean ====
/-
  One sample of the reference's grid point, read at an index at the ideal values.

  The reference handles one sample per grid point, in two layers of the same form: from the layer's input lines it
  builds the lines shifted right by one place (a zero column joined in front of all but the last column, then multiplied
  by the 0/1 mask of the lanes other than the first) and the lines shifted left (all but the first column followed by a
  zero column, multiplied by the mask of the lanes other than the last), stacks [shifted right, unshifted, shifted left]
  along the middle axis, multiplies the weights (tap `k` in the `k`-th third of the columns) into the stack by one
  batched product over a batch axis of extent 1, adds the bias column and clamps below at zero. The first payload ends
  with layer 2's stacked operand [1, 768, 512]; the second is layer 2's product, bias and clamp. At the ideal values:
  * `mid_apply`: the middle block of the stacked operand is layer 1, `Cert.ConvTaps.conv3` of the sample's lines;
  * `first_apply`, `third_apply`: its first and third blocks are the middle block shifted right and left;
  * `outer_apply`: layer 2 over any stacked operand is a sum over the 768 stacked places, plus the bias, clamped;
  * `sample_apply`: the stored value at (0, co, l) is `conv3` over `conv3`.
  A zero-filled entry times the mask is the entry (`0 * 0 = 0`, `v * 1 = v` on the extended reals, whatever `v`): no
  finiteness is needed. The first sections read the layout operations, the two batched products and the lane masks at
  an index.
-/
import proofs.«164273_g2000305763469021_pallasbulk_548_28_alg».proof.Proof.Gen.ReferenceIdeal.Skeleton
import Idealize.ShloMosaic.Lib.Pipeline.Value
import Idealize.ShloMosaic.Lib.ValueIdx
import Idealize.ShloMosaic.PureOps.Ideal.Laws
import Idealize.ShloMosaic.Lib.Affine
import proofs.«164273_g2000305763469021_pallasbulk_548_28_alg».proof.Proof.LibMatmulSum
import proofs.«164273_g2000305763469021_pallasbulk_548_28_alg».proof.Proof.LibConvTaps

noncomputable section

namespace Cert.RefSample

open Idealize.ShloMosaic Idealize.ShloMosaic.ValueIdx Cert.ReferenceIdeal Cert.ReferenceIdeal.Gen Cert.ConvTaps

section Layout
variable {α : Type}

/-- A shape cast that adds a leading unit axis to a matrix reads, at (0, p, q), the operand at (p, q). -/
theorem unsqueeze_lead {a b : Nat} (x : (⟨2, ![a, b]⟩ : Shape).Idx → α)
    (h : (⟨2, ![a, b]⟩ : Shape).ShapeCasts (⟨3, ![1, a, b]⟩ : Shape)) (p : Fin a) (q : Fin b) :
    shapeCast (⟨3, ![1, a, b]⟩ : Shape) x h (ix3 (0 : Fin 1) p q) = x (ix2 p q) := by
  refine shapeCast_apply x h (ix3 (0 : Fin 1) p q) (ix2 p q) ?_
  rw [Shape.rowMajor_val_two, Shape.rowMajor_val_three]
  show p.val * b + q.val = (0 * a + p.val) * b + q.val
  rw [Nat.zero_mul, Nat.zero_add]

/-- A [1, a, 1] column broadcast along the last axis reads, at (0, p, q), the column at (0, p, 0). -/
theorem bcast_col3 {a b : Nat} (x : (⟨3, ![1, a, 1]⟩ : Shape).Idx → α)
    (h : (⟨3, ![1, a, 1]⟩ : Shape).Broadcasts (⟨3, ![1, a, b]⟩ : Shape)) (p : Fin a) (q : Fin b) :
    broadcastTo (⟨3, ![1, a, b]⟩ : Shape) x h (ix3 (0 : Fin 1) p q) = x (ix3 (0 : Fin 1) p (0 : Fin 1)) := by
  refine broadcastTo_apply x h (ix3 (0 : Fin 1) p q) (ix3 (0 : Fin 1) p (0 : Fin 1)) ?_
  intro d
  match d with
  | ⟨0, _⟩ => exact (if_pos rfl).symm
  | ⟨1, _⟩ =>
    show p.val = if a = 1 then 0 else p.val
    split
    · have := p.isLt; omega
    · rfl
  | ⟨2, _⟩ => exact (if_pos rfl).symm

/-- A [1, 1, b] line broadcast along the middle axis reads, at (0, p, q), the line at (0, 0, q). -/
theorem bcast_lane3 {a b : Nat} (x : (⟨3, ![1, 1, b]⟩ : Shape).Idx → α)
    (h : (⟨3, ![1, 1, b]⟩ : Shape).Broadcasts (⟨3, ![1, a, b]⟩ : Shape)) (p : Fin a) (q : Fin b) :
    broadcastTo (⟨3, ![1, a, b]⟩ : Shape) x h (ix3 (0 : Fin 1) p q) = x (ix3 (0 : Fin 1) (0 : Fin 1) q) := by
  refine broadcastTo_apply x h (ix3 (0 : Fin 1) p q) (ix3 (0 : Fin 1) (0 : Fin 1) q) ?_
  intro d
  match d with
  | ⟨0, _⟩ => exact (if_pos rfl).symm
  | ⟨1, _⟩ => exact (if_pos rfl).symm
  | ⟨2, _⟩ =>
    show q.val = if b = 1 then 0 else q.val
    split
    · have := q.isLt; omega
    · rfl

/-- A zero column followed by all but the last column, along the last axis of a [1, a, n] vector: the lines shifted
    right by one place, `z` filled in. -/
theorem shiftRight3_apply {a n m : Nat} (hn : n = 1 + m) (z : α) (x : (⟨3, ![1, a, n]⟩ : Shape).Idx → α)
    (hs : (⟨3, ![1, a, n]⟩ : Shape).Slices ![0, 0, 0] (⟨3, ![1, a, m]⟩ : Shape))
    (hc : Shape.Concatenates [(⟨3, ![1, a, 1]⟩ : Shape), (⟨3, ![1, a, m]⟩ : Shape)] (⟨3, ![1, a, n]⟩ : Shape) 2)
    (p : Fin a) (l : Fin n) :
    concatenate (⟨3, ![1, a, n]⟩ : Shape) 2
        [⟨(⟨3, ![1, a, 1]⟩ : Shape), broadcast (⟨3, ![1, a, 1]⟩ : Shape) z⟩,
          ⟨(⟨3, ![1, a, m]⟩ : Shape), extractStridedSlice (⟨3, ![1, a, m]⟩ : Shape) ![0, 0, 0] x hs⟩] hc
        (ix3 (0 : Fin 1) p l)
      = if l.val = 0 then z else x (ix3 (0 : Fin 1) p ⟨l.val - 1, by have := l.isLt; omega⟩) := by
  by_cases h : l.val = 0
  · rw [if_pos h]
    refine concatenate_pair_apply_left 2 _ _ hc (ix3 (0 : Fin 1) p l) rfl (ix3 (0 : Fin 1) p (0 : Fin 1)) ?_
    intro d
    match d with
    | ⟨0, _⟩ => rfl
    | ⟨1, _⟩ => rfl
    | ⟨2, _⟩ => exact h.symm
  · rw [if_neg h]
    have hl := l.isLt
    refine (concatenate_pair_apply_right 2 _ _ hc (ix3 (0 : Fin 1) p l) rfl rfl
      (ix3 (0 : Fin 1) p (⟨l.val - 1, by omega⟩ : Fin m)) ?_ ?_).trans ?_
    · intro d hd
      match d, hd with
      | ⟨0, _⟩, _ => rfl
      | ⟨1, _⟩, _ => rfl
      | ⟨2, _⟩, hd => exact absurd rfl hd
    · show l.val - 1 + 1 = l.val
      omega
    · refine extractStridedSlice_apply ![0, 0, 0] x hs _ _ ?_
      intro d
      match d with
      | ⟨0, _⟩ => exact (Nat.zero_add _).symm
      | ⟨1, _⟩ => exact (Nat.zero_add _).symm
      | ⟨2, _⟩ => exact (Nat.zero_add _).symm

/-- All but the first column followed by a zero column, along the last axis of a [1, a, n] vector: the lines shifted
    left by one place, `z` filled in. -/
theorem shiftLeft3_apply {a n m : Nat} (hn : n = m + 1) (z : α) (x : (⟨3, ![1, a, n]⟩ : Shape).Idx → α)
    (hs : (⟨3, ![1, a, n]⟩ : Shape).Slices ![0, 0, 1] (⟨3, ![1, a, m]⟩ : Shape))
    (hc : Shape.Concatenates [(⟨3, ![1, a, m]⟩ : Shape), (⟨3, ![1, a, 1]⟩ : Shape)] (⟨3, ![1, a, n]⟩ : Shape) 2)
    (p : Fin a) (l : Fin n) :
    concatenate (⟨3, ![1, a, n]⟩ : Shape) 2
        [⟨(⟨3, ![1, a, m]⟩ : Shape), extractStridedSlice (⟨3, ![1, a, m]⟩ : Shape) ![0, 0, 1] x hs⟩,
          ⟨(⟨3, ![1, a, 1]⟩ : Shape), broadcast (⟨3, ![1, a, 1]⟩ : Shape) z⟩] hc (ix3 (0 : Fin 1) p l)
      = if h : l.val + 1 < n then x (ix3 (0 : Fin 1) p ⟨l.val + 1, h⟩) else z := by
  by_cases h : l.val + 1 < n
  · rw [dif_pos h]
    refine (concatenate_pair_apply_left 2 _ _ hc (ix3 (0 : Fin 1) p l) rfl
      (ix3 (0 : Fin 1) p (⟨l.val, by omega⟩ : Fin m)) ?_).trans ?_
    · intro d
      match d with
      | ⟨0, _⟩ => rfl
      | ⟨1, _⟩ => rfl
      | ⟨2, _⟩ => rfl
    · refine extractStridedSlice_apply ![0, 0, 1] x hs _ _ ?_
      intro d
      match d with
      | ⟨0, _⟩ => exact (Nat.zero_add _).symm
      | ⟨1, _⟩ => exact (Nat.zero_add _).symm
      | ⟨2, _⟩ => exact Nat.add_comm _ _
  · rw [dif_neg h]
    have hl := l.isLt
    refine concatenate_pair_apply_right 2 _ _ hc (ix3 (0 : Fin 1) p l) rfl rfl (ix3 (0 : Fin 1) p (0 : Fin 1)) ?_ ?_
    · intro d hd
      match d, hd with
      | ⟨0, _⟩, _ => rfl
      | ⟨1, _⟩, _ => rfl
      | ⟨2, _⟩, hd => exact absurd rfl hd
    · show 0 + m = l.val
      omega

/-- Three [1, a, b] vectors stacked along the middle axis: line `c` of the stack is line `c` of the first. -/
theorem stack3m_first {a b n : Nat} (x y z : (⟨3, ![1, a, b]⟩ : Shape).Idx → α)
    (hc : Shape.Concatenates [(⟨3, ![1, a, b]⟩ : Shape), (⟨3, ![1, a, b]⟩ : Shape), (⟨3, ![1, a, b]⟩ : Shape)]
      (⟨3, ![1, n, b]⟩ : Shape) 1)
    (c : Fin a) (q : Fin b) (hcn : c.val < n) :
    concatenate (⟨3, ![1, n, b]⟩ : Shape) 1
        [⟨(⟨3, ![1, a, b]⟩ : Shape), x⟩, ⟨(⟨3, ![1, a, b]⟩ : Shape), y⟩, ⟨(⟨3, ![1, a, b]⟩ : Shape), z⟩] hc
        (ix3 (0 : Fin 1) ⟨c.val, hcn⟩ q)
      = x (ix3 (0 : Fin 1) c q) :=
  concatenate_apply_piece (t := (⟨3, ![1, n, b]⟩ : Shape)) 1
    [⟨(⟨3, ![1, a, b]⟩ : Shape), x⟩, ⟨(⟨3, ![1, a, b]⟩ : Shape), y⟩, ⟨(⟨3, ![1, a, b]⟩ : Shape), z⟩] hc
    (ix3 (0 : Fin 1) ⟨c.val, hcn⟩ q) 0 (by simp) _ x rfl rfl 0 rfl (ix3 (0 : Fin 1) c q)
    (fun d hd => match d, hd with
      | ⟨0, _⟩, _ => rfl
      | ⟨1, _⟩, hd => absurd rfl hd
      | ⟨2, _⟩, _ => rfl)
    (Nat.zero_add _)

/-- … line `a + c` of the stack is line `c` of the second … -/
theorem stack3m_second {a b n : Nat} (x y z : (⟨3, ![1, a, b]⟩ : Shape).Idx → α)
    (hc : Shape.Concatenates [(⟨3, ![1, a, b]⟩ : Shape), (⟨3, ![1, a, b]⟩ : Shape), (⟨3, ![1, a, b]⟩ : Shape)]
      (⟨3, ![1, n, b]⟩ : Shape) 1)
    (c : Fin a) (q : Fin b) (hcn : a + c.val < n) :
    concatenate (⟨3, ![1, n, b]⟩ : Shape) 1
        [⟨(⟨3, ![1, a, b]⟩ : Shape), x⟩, ⟨(⟨3, ![1, a, b]⟩ : Shape), y⟩, ⟨(⟨3, ![1, a, b]⟩ : Shape), z⟩] hc
        (ix3 (0 : Fin 1) ⟨a + c.val, hcn⟩ q)
      = y (ix3 (0 : Fin 1) c q) :=
  concatenate_apply_piece (t := (⟨3, ![1, n, b]⟩ : Shape)) 1
    [⟨(⟨3, ![1, a, b]⟩ : Shape), x⟩, ⟨(⟨3, ![1, a, b]⟩ : Shape), y⟩, ⟨(⟨3, ![1, a, b]⟩ : Shape), z⟩] hc
    (ix3 (0 : Fin 1) ⟨a + c.val, hcn⟩ q) 1 (by simp) _ y rfl rfl a (by simp) (ix3 (0 : Fin 1) c q)
    (fun d hd => match d, hd with
      | ⟨0, _⟩, _ => rfl
      | ⟨1, _⟩, hd => absurd rfl hd
      | ⟨2, _⟩, _ => rfl)
    rfl

/-- … and line `a + a + c` of the stack is line `c` of the third. -/
theorem stack3m_third {a b n : Nat} (x y z : (⟨3, ![1, a, b]⟩ : Shape).Idx → α)
    (hc : Shape.Concatenates [(⟨3, ![1, a, b]⟩ : Shape), (⟨3, ![1, a, b]⟩ : Shape), (⟨3, ![1, a, b]⟩ : Shape)]
      (⟨3, ![1, n, b]⟩ : Shape) 1)
    (c : Fin a) (q : Fin b) (hcn : a + a + c.val < n) :
    concatenate (⟨3, ![1, n, b]⟩ : Shape) 1
        [⟨(⟨3, ![1, a, b]⟩ : Shape), x⟩, ⟨(⟨3, ![1, a, b]⟩ : Shape), y⟩, ⟨(⟨3, ![1, a, b]⟩ : Shape), z⟩] hc
        (ix3 (0 : Fin 1) ⟨a + a + c.val, hcn⟩ q)
      = z (ix3 (0 : Fin 1) c q) :=
  concatenate_apply_piece (t := (⟨3, ![1, n, b]⟩ : Shape)) 1
    [⟨(⟨3, ![1, a, b]⟩ : Shape), x⟩, ⟨(⟨3, ![1, a, b]⟩ : Shape), y⟩, ⟨(⟨3, ![1, a, b]⟩ : Shape), z⟩] hc
    (ix3 (0 : Fin 1) ⟨a + a + c.val, hcn⟩ q) 2 (by simp) _ z rfl rfl (a + a) (by simp) (ix3 (0 : Fin 1) c q)
    (fun d hd => match d, hd with
      | ⟨0, _⟩, _ => rfl
      | ⟨1, _⟩, hd => absurd rfl hd
      | ⟨2, _⟩, _ => rfl)
    rfl

end Layout

/-! ### The two batched matrix products (one batch axis of extent 1), read at an index -/

section Dots

/-- Layer 1's dimension numbers, axis by axis: the left operand's batch axis reads the output's … -/
theorem dot1_lhs_0 (j : S1x256x512.Idx) (c : dot_S1x256x384_S1x384x512_S1x256x512_2_1_1_2_0_0.contr.Idx) : (dot_S1x256x384_S1x384x512_S1x256x512_2_1_1_2_0_0.lhsIdx j c 0).val = (j 0).val := by
  unfold DotDims.lhsIdx
  rw [dif_pos (show (0 : Fin S1x256x384.rank) ∈ dot_S1x256x384_S1x384x512_S1x256x512_2_1_1_2_0_0.lhsBatch from List.mem_singleton.mpr rfl)]
  rfl

/-- … its free axis reads the output's middle coordinate … -/
theorem dot1_lhs_1 (j : S1x256x512.Idx) (c : dot_S1x256x384_S1x384x512_S1x256x512_2_1_1_2_0_0.contr.Idx) : (dot_S1x256x384_S1x384x512_S1x256x512_2_1_1_2_0_0.lhsIdx j c 1).val = (j 1).val := by
  unfold DotDims.lhsIdx
  rw [dif_neg (show ¬(1 : Fin S1x256x384.rank) ∈ dot_S1x256x384_S1x384x512_S1x256x512_2_1_1_2_0_0.lhsBatch from by decide),
    dif_pos (show (1 : Fin S1x256x384.rank) ∈ dot_S1x256x384_S1x384x512_S1x256x512_2_1_1_2_0_0.lhsNonContracting from List.mem_singleton.mpr rfl)]
  rfl

/-- … the right operand's batch axis reads the output's … -/
theorem dot1_rhs_0 (j : S1x256x512.Idx) (c : dot_S1x256x384_S1x384x512_S1x256x512_2_1_1_2_0_0.contr.Idx) : (dot_S1x256x384_S1x384x512_S1x256x512_2_1_1_2_0_0.rhsIdx j c 0).val = (j 0).val := by
  unfold DotDims.rhsIdx
  rw [dif_pos (show (0 : Fin S1x384x512.rank) ∈ dot_S1x256x384_S1x384x512_S1x256x512_2_1_1_2_0_0.rhsBatch from List.mem_singleton.mpr rfl)]
  rfl

/-- … and its free axis reads the output's last coordinate. -/
theorem dot1_rhs_2 (j : S1x256x512.Idx) (c : dot_S1x256x384_S1x384x512_S1x256x512_2_1_1_2_0_0.contr.Idx) : (dot_S1x256x384_S1x384x512_S1x256x512_2_1_1_2_0_0.rhsIdx j c 2).val = (j 2).val := by
  unfold DotDims.rhsIdx
  rw [dif_neg (show ¬(2 : Fin S1x384x512.rank) ∈ dot_S1x256x384_S1x384x512_S1x256x512_2_1_1_2_0_0.rhsBatch from by decide),
    dif_pos (show (2 : Fin S1x384x512.rank) ∈ dot_S1x256x384_S1x384x512_S1x256x512_2_1_1_2_0_0.rhsNonContracting from List.mem_singleton.mpr rfl)]
  rfl

/-- The left operand's index at output (0, p, q) and contraction place k is (0, p, k). -/
theorem dot1_lhsIdx (p : Fin 256) (q : Fin 512) (k : Fin 384) :
    dot_S1x256x384_S1x384x512_S1x256x512_2_1_1_2_0_0.lhsIdx (ix3 (0 : Fin 1) p q) ((contrEquiv1 dot_S1x256x384_S1x384x512_S1x256x512_2_1_1_2_0_0 384 rfl rfl).symm k) = ix3 (0 : Fin 1) p k :=
  funext fun a => Fin.ext (by
    match a with
    | ⟨0, _⟩ => exact dot1_lhs_0 _ _
    | ⟨1, _⟩ => exact dot1_lhs_1 _ _
    | ⟨2, _⟩ =>
      exact (dot_S1x256x384_S1x384x512_S1x256x512_2_1_1_2_0_0.lhsIdx_val_of_single (cl := 2) rfl _ _).trans (contrEquiv1_symm_val dot_S1x256x384_S1x384x512_S1x256x512_2_1_1_2_0_0 384 rfl rfl k))

/-- The right operand's index at output (0, p, q) and contraction place k is (0, k, q). -/
theorem dot1_rhsIdx (p : Fin 256) (q : Fin 512) (k : Fin 384) :
    dot_S1x256x384_S1x384x512_S1x256x512_2_1_1_2_0_0.rhsIdx (ix3 (0 : Fin 1) p q) ((contrEquiv1 dot_S1x256x384_S1x384x512_S1x256x512_2_1_1_2_0_0 384 rfl rfl).symm k) = ix3 (0 : Fin 1) k q :=
  funext fun a => Fin.ext (by
    match a with
    | ⟨0, _⟩ => exact dot1_rhs_0 _ _
    | ⟨1, _⟩ =>
      exact (dot_S1x256x384_S1x384x512_S1x256x512_2_1_1_2_0_0.rhsIdx_val_of_single (cr := 1) rfl _ _).trans (contrEquiv1_symm_val dot_S1x256x384_S1x384x512_S1x256x512_2_1_1_2_0_0 384 rfl rfl k)
    | ⟨2, _⟩ => exact dot1_rhs_2 _ _)

/-- Layer 1's product into the zero accumulator, at (0, p, q): the sum over k of lhs (0, p, k) * rhs (0, k, q). -/
theorem dot1_apply {φ₁ φ₂ : FTy} (prec : Option ContractPrecision) (lhs : FVec Ideal S1x256x384 φ₁)
    (rhs : FVec Ideal S1x384x512 φ₂) (p : Fin 256) (q : Fin 512) :
    FloatOps.matmul dot_S1x256x384_S1x384x512_S1x256x512_2_1_1_2_0_0 prec lhs rhs (constant S1x256x512 .f32 0x00000000#32) (ix3 (0 : Fin 1) p q)
      = ∑ k : Fin 384, lhs (ix3 (0 : Fin 1) p k) * rhs (ix3 (0 : Fin 1) k q) :=
  MatmulSum.matmul_zero_apply_single dot_S1x256x384_S1x384x512_S1x256x512_2_1_1_2_0_0 prec 384 rfl rfl lhs rhs (ix3 (0 : Fin 1) p q)
    (fun k => ix3 (0 : Fin 1) p k) (fun k => ix3 (0 : Fin 1) k q) (dot1_lhsIdx p q) (dot1_rhsIdx p q)

/-- Layer 2's dimension numbers, axis by axis: the left operand's batch axis reads the output's … -/
theorem dot2_lhs_0 (j : S1x128x512.Idx) (c : dot_S1x128x768_S1x768x512_S1x128x512_2_1_1_2_0_0.contr.Idx) : (dot_S1x128x768_S1x768x512_S1x128x512_2_1_1_2_0_0.lhsIdx j c 0).val = (j 0).val := by
  unfold DotDims.lhsIdx
  rw [dif_pos (show (0 : Fin S1x128x768.rank) ∈ dot_S1x128x768_S1x768x512_S1x128x512_2_1_1_2_0_0.lhsBatch from List.mem_singleton.mpr rfl)]
  rfl

/-- … its free axis reads the output's middle coordinate … -/
theorem dot2_lhs_1 (j : S1x128x512.Idx) (c : dot_S1x128x768_S1x768x512_S1x128x512_2_1_1_2_0_0.contr.Idx) : (dot_S1x128x768_S1x768x512_S1x128x512_2_1_1_2_0_0.lhsIdx j c 1).val = (j 1).val := by
  unfold DotDims.lhsIdx
  rw [dif_neg (show ¬(1 : Fin S1x128x768.rank) ∈ dot_S1x128x768_S1x768x512_S1x128x512_2_1_1_2_0_0.lhsBatch from by decide),
    dif_pos (show (1 : Fin S1x128x768.rank) ∈ dot_S1x128x768_S1x768x512_S1x128x512_2_1_1_2_0_0.lhsNonContracting from List.mem_singleton.mpr rfl)]
  rfl

/-- … the right operand's batch axis reads the output's … -/
theorem dot2_rhs_0 (j : S1x128x512.Idx) (c : dot_S1x128x768_S1x768x512_S1x128x512_2_1_1_2_0_0.contr.Idx) : (dot_S1x128x768_S1x768x512_S1x128x512_2_1_1_2_0_0.rhsIdx j c 0).val = (j 0).val := by
  unfold DotDims.rhsIdx
  rw [dif_pos (show (0 : Fin S1x768x512.rank) ∈ dot_S1x128x768_S1x768x512_S1x128x512_2_1_1_2_0_0.rhsBatch from List.mem_singleton.mpr rfl)]
  rfl

/-- … and its free axis reads the output's last coordinate. -/
theorem dot2_rhs_2 (j : S1x128x512.Idx) (c : dot_S1x128x768_S1x768x512_S1x128x512_2_1_1_2_0_0.contr.Idx) : (dot_S1x128x768_S1x768x512_S1x128x512_2_1_1_2_0_0.rhsIdx j c 2).val = (j 2).val := by
  unfold DotDims.rhsIdx
  rw [dif_neg (show ¬(2 : Fin S1x768x512.rank) ∈ dot_S1x128x768_S1x768x512_S1x128x512_2_1_1_2_0_0.rhsBatch from by decide),
    dif_pos (show (2 : Fin S1x768x512.rank) ∈ dot_S1x128x768_S1x768x512_S1x128x512_2_1_1_2_0_0.rhsNonContracting from List.mem_singleton.mpr rfl)]
  rfl

/-- The left operand's index at output (0, p, q) and contraction place k is (0, p, k). -/
theorem dot2_lhsIdx (p : Fin 128) (q : Fin 512) (k : Fin 768) :
    dot_S1x128x768_S1x768x512_S1x128x512_2_1_1_2_0_0.lhsIdx (ix3 (0 : Fin 1) p q) ((contrEquiv1 dot_S1x128x768_S1x768x512_S1x128x512_2_1_1_2_0_0 768 rfl rfl).symm k) = ix3 (0 : Fin 1) p k :=
  funext fun a => Fin.ext (by
    match a with
    | ⟨0, _⟩ => exact dot2_lhs_0 _ _
    | ⟨1, _⟩ => exact dot2_lhs_1 _ _
    | ⟨2, _⟩ =>
      exact (dot_S1x128x768_S1x768x512_S1x128x512_2_1_1_2_0_0.lhsIdx_val_of_single (cl := 2) rfl _ _).trans (contrEquiv1_symm_val dot_S1x128x768_S1x768x512_S1x128x512_2_1_1_2_0_0 768 rfl rfl k))

/-- The right operand's index at output (0, p, q) and contraction place k is (0, k, q). -/
theorem dot2_rhsIdx (p : Fin 128) (q : Fin 512) (k : Fin 768) :
    dot_S1x128x768_S1x768x512_S1x128x512_2_1_1_2_0_0.rhsIdx (ix3 (0 : Fin 1) p q) ((contrEquiv1 dot_S1x128x768_S1x768x512_S1x128x512_2_1_1_2_0_0 768 rfl rfl).symm k) = ix3 (0 : Fin 1) k q :=
  funext fun a => Fin.ext (by
    match a with
    | ⟨0, _⟩ => exact dot2_rhs_0 _ _
    | ⟨1, _⟩ =>
      exact (dot_S1x128x768_S1x768x512_S1x128x512_2_1_1_2_0_0.rhsIdx_val_of_single (cr := 1) rfl _ _).trans (contrEquiv1_symm_val dot_S1x128x768_S1x768x512_S1x128x512_2_1_1_2_0_0 768 rfl rfl k)
    | ⟨2, _⟩ => exact dot2_rhs_2 _ _)

/-- Layer 2's product into the zero accumulator, at (0, p, q): the sum over k of lhs (0, p, k) * rhs (0, k, q). -/
theorem dot2_apply {φ₁ φ₂ : FTy} (prec : Option ContractPrecision) (lhs : FVec Ideal S1x128x768 φ₁)
    (rhs : FVec Ideal S1x768x512 φ₂) (p : Fin 128) (q : Fin 512) :
    FloatOps.matmul dot_S1x128x768_S1x768x512_S1x128x512_2_1_1_2_0_0 prec lhs rhs (constant S1x128x512 .f32 0x00000000#32) (ix3 (0 : Fin 1) p q)
      = ∑ k : Fin 768, lhs (ix3 (0 : Fin 1) p k) * rhs (ix3 (0 : Fin 1) k q) :=
  MatmulSum.matmul_zero_apply_single dot_S1x128x768_S1x768x512_S1x128x512_2_1_1_2_0_0 prec 768 rfl rfl lhs rhs (ix3 (0 : Fin 1) p q)
    (fun k => ix3 (0 : Fin 1) p k) (fun k => ix3 (0 : Fin 1) k q) (dot2_lhsIdx p q) (dot2_rhsIdx p q)

end Dots

/-! ### The lane masks -/

/-- The 0/1 mask of the lanes other than lane `k`, as the program builds it (the lane number compared with `k`, the
    bit widened and converted): 0 at lane `k`, 1 elsewhere. -/
theorem mask_ne_apply (hi : S1x1x512.Iotas .tc 32 [2]) (k : Nat) (hk : k < 512) (l : Fin 512) :
    (sitofp (F := Ideal) .f32
        (extui 32 (cmpi .ne (iota .tc S1x1x512 32 [2] hi) (broadcast S1x1x512 (BitVec.ofNat 32 k))) natLt_1_32)
      : FVec Ideal S1x1x512 .f32) (ix3 (0 : Fin 1) (0 : Fin 1) l) = if l.val = k then 0 else 1 := by
  show ((((IntOp.cmpi .ne (iota .tc S1x1x512 32 [2] hi (ix3 (0 : Fin 1) (0 : Fin 1) l)) (BitVec.ofNat 32 k)).setWidth 32).toInt : ℝ) : EReal) = _
  rw [iota_single_apply]
  show ((((IntOp.cmpi .ne (BitVec.ofNat 32 l.val) (BitVec.ofNat 32 k)).setWidth 32).toInt : ℝ) : EReal) = _
  have hl := l.isLt
  by_cases hlk : l.val = k
  · have h0 : IntOp.cmpi .ne (BitVec.ofNat 32 l.val) (BitVec.ofNat 32 k) = 0#1 :=
      eq_zero_of_ne_one fun h1 => (IntOp.cmpi_ne.mp h1) (by rw [hlk])
    rw [h0, if_pos hlk]
    simp
  · have h1 : IntOp.cmpi .ne (BitVec.ofNat 32 l.val) (BitVec.ofNat 32 k) = 1#1 :=
      IntOp.cmpi_ne.mpr fun he => hlk (by
        have := congrArg BitVec.toNat he
        simp only [BitVec.toNat_ofNat] at this
        omega)
    rw [h1, if_neg hlk]
    simp

/-! ### The reference's stored value -/

/-- The weights of layer 1 as the product takes them (a unit batch axis added) read the loaded matrix. -/
theorem lhs1_apply (w1 : Vec Ideal S256x384 .f32) (h1 : S256x384.ShapeCasts S256x384) (h2 : S256x384.ShapeCasts S1x256x384)
    (cm : Fin 256) (k : Fin 384) :
    shapeCast S1x256x384 (shapeCast S256x384 w1 h1) h2 (ix3 (0 : Fin 1) cm k) = w1 (ix2 cm k) := by
  rw [unsqueeze_lead, shapeCast_self]

/-- The bias of layer 1 as it is broadcast (a unit batch axis added) reads the loaded column. -/
theorem bias1_apply (b1 : Vec Ideal S256x1 .f32) (h1 : S256x1.ShapeCasts S256x1) (h2 : S256x1.ShapeCasts S1x256x1)
    (cm : Fin 256) :
    shapeCast S1x256x1 (shapeCast S256x1 b1 h1) h2 (ix3 (0 : Fin 1) cm (0 : Fin 1)) = b1 (ix2 cm (0 : Fin 1)) := by
  rw [unsqueeze_lead, shapeCast_self]

/-- The weights of layer 2 as the product takes them read the loaded matrix. -/
theorem lhs2_apply (w2 : Vec Ideal S128x768 .f32) (h1 : S128x768.ShapeCasts S128x768) (h2 : S128x768.ShapeCasts S1x128x768)
    (co : Fin 128) (k : Fin 768) :
    shapeCast S1x128x768 (shapeCast S128x768 w2 h1) h2 (ix3 (0 : Fin 1) co k) = w2 (ix2 co k) := by
  rw [unsqueeze_lead, shapeCast_self]

/-- The bias of layer 2 as it is broadcast reads the loaded column. -/
theorem bias2_apply (b2 : Vec Ideal S128x1 .f32) (h1 : S128x1.ShapeCasts S128x1) (h2 : S128x1.ShapeCasts S1x128x1)
    (co : Fin 128) :
    shapeCast S1x128x1 (shapeCast S128x1 b2 h1) h2 (ix3 (0 : Fin 1) co (0 : Fin 1)) = b2 (ix2 co (0 : Fin 1)) := by
  rw [unsqueeze_lead, shapeCast_self]

/-- THE MIDDLE BLOCK of the stacked layer-2 operand is LAYER 1: at (0, 256 + cm, l) the three-tap convolution of the
    sample's 128 lines with the weights of row `cm`, plus the bias, clamped below at zero. (The shifted lines come
    multiplied by the lane masks; a zero-filled entry times the mask is the entry.) -/
theorem mid_apply (x : Vec Ideal S1x128x512 .f32) (w1 : Vec Ideal S256x384 .f32) (b1 : Vec Ideal S256x1 .f32)
    (cm : Fin 256) (l : Fin 512) :
    k1_pay2 (F := Ideal) x w1 b1 (ix3 (0 : Fin 1) ⟨256 + cm, lt_second cm⟩ l)
      = conv3 (fun c : Fin 128 => w1 (ix2 cm ⟨c, lt_first c⟩)) (fun c : Fin 128 => w1 (ix2 cm ⟨128 + c, lt_second c⟩))
          (fun c : Fin 128 => w1 (ix2 cm ⟨128 + 128 + c, lt_third c⟩)) (b1 (ix2 cm (0 : Fin 1)))
          (fun c l' => x (ix3 (0 : Fin 1) c l')) l := by
  unfold k1_pay2
  refine (stack3m_second _ _ _ _ cm l _).trans ?_
  show max (_ + _) _ = _
  refine Eq.trans (congrArg₂ max (congrArg₂ (· + ·)
    ((dot1_apply _ _ _ cm l).trans (Finset.sum_congr rfl fun k _ => congrArg (· * _) (lhs1_apply w1 _ _ cm k)))
    ((bcast_col3 _ _ cm l).trans (bias1_apply b1 _ _ cm))) Ideal.ofBits_zero_f32) ?_
  refine conv3_of_stackedContraction (C := 128) (fun j : Fin 384 => w1 (ix2 cm j)) _ _ _ l ?_ ?_ ?_
  · intro c
    refine (stack3m_first _ _ _ _ c l _).trans ?_
    show _ * _ = _
    refine (congrArg₂ (· * ·) (shiftRight3_apply (n := 512) (m := 511) rfl _ _ _ _ c l)
      ((bcast_lane3 _ _ c l).trans (mask_ne_apply _ 0 (by norm_num) l))).trans ?_
    unfold shiftR
    by_cases h0 : l.val = 0
    · simp only [if_pos h0]; exact mul_zero _
    · simp only [if_neg h0]; exact mul_one _
  · intro c
    exact stack3m_second _ _ _ _ c l _
  · intro c
    refine (stack3m_third _ _ _ _ c l _).trans ?_
    show _ * _ = _
    refine (congrArg₂ (· * ·) (shiftLeft3_apply (n := 512) (m := 511) rfl _ _ _ _ c l)
      ((bcast_lane3 _ _ c l).trans (mask_ne_apply _ 511 (by norm_num) l))).trans ?_
    unfold shiftL
    by_cases h1 : l.val + 1 < 512
    · have h2 : ¬l.val = 511 := by omega
      simp only [dif_pos h1, if_neg h2]; exact mul_one _
    · have h2 : l.val = 511 := by have := l.isLt; omega
      simp only [dif_neg h1, if_pos h2]; exact mul_zero _

/-- THE FIRST BLOCK of the stacked layer-2 operand is the middle block shifted right: at lane 0 the zero-filled
    entry times the mask 0, elsewhere the middle block one lane to the left times the mask 1. -/
theorem first_apply (x : Vec Ideal S1x128x512 .f32) (w1 : Vec Ideal S256x384 .f32) (b1 : Vec Ideal S256x1 .f32)
    (cm : Fin 256) (l : Fin 512) :
    k1_pay2 (F := Ideal) x w1 b1 (ix3 (0 : Fin 1) ⟨cm, lt_first cm⟩ l)
      = shiftR (fun l' => k1_pay2 (F := Ideal) x w1 b1 (ix3 (0 : Fin 1) ⟨256 + cm, lt_second cm⟩ l')) l := by
  unfold shiftR
  by_cases h0 : l.val = 0
  · rw [if_pos h0]
    unfold k1_pay2
    refine (stack3m_first _ _ _ _ cm l _).trans ?_
    show _ * _ = _
    refine (congrArg₂ (· * ·) rfl ((bcast_lane3 _ _ cm l).trans (mask_ne_apply _ 0 (by norm_num) l))).trans ?_
    rw [if_pos h0]
    exact mul_zero _
  · rw [if_neg h0]
    unfold k1_pay2
    refine (stack3m_first _ _ _ _ cm l _).trans ?_
    refine Eq.trans ?_ (stack3m_second _ _ _ _ cm _ _).symm
    show _ * _ = _
    refine (congrArg₂ (· * ·) (shiftRight3_apply (n := 512) (m := 511) rfl _ _ _ _ cm l)
      ((bcast_lane3 _ _ cm l).trans (mask_ne_apply _ 0 (by norm_num) l))).trans ?_
    rw [if_neg h0, if_neg h0]
    exact mul_one _

/-- THE THIRD BLOCK of the stacked layer-2 operand is the middle block shifted left. -/
theorem third_apply (x : Vec Ideal S1x128x512 .f32) (w1 : Vec Ideal S256x384 .f32) (b1 : Vec Ideal S256x1 .f32)
    (cm : Fin 256) (l : Fin 512) :
    k1_pay2 (F := Ideal) x w1 b1 (ix3 (0 : Fin 1) ⟨256 + 256 + cm, lt_third cm⟩ l)
      = shiftL (fun l' => k1_pay2 (F := Ideal) x w1 b1 (ix3 (0 : Fin 1) ⟨256 + cm, lt_second cm⟩ l')) l := by
  unfold shiftL
  by_cases h1 : l.val + 1 < 512
  · have h2 : ¬l.val = 511 := by omega
    rw [dif_pos h1]
    unfold k1_pay2
    refine (stack3m_third _ _ _ _ cm l _).trans ?_
    refine Eq.trans ?_ (stack3m_second _ _ _ _ cm _ _).symm
    show _ * _ = _
    refine (congrArg₂ (· * ·) (shiftLeft3_apply (n := 512) (m := 511) rfl _ _ _ _ cm l)
      ((bcast_lane3 _ _ cm l).trans (mask_ne_apply _ 511 (by norm_num) l))).trans ?_
    rw [dif_pos h1, if_neg h2]
    exact mul_one _
  · have h2 : l.val = 511 := by have := l.isLt; omega
    rw [dif_neg h1]
    unfold k1_pay2
    refine (stack3m_third _ _ _ _ cm l _).trans ?_
    show _ * _ = _
    refine (congrArg₂ (· * ·) rfl ((bcast_lane3 _ _ cm l).trans (mask_ne_apply _ 511 (by norm_num) l))).trans ?_
    rw [if_pos h2]
    exact mul_zero _

/-- LAYER 2 over any stacked operand, at (0, co, l): the sum over the 768 stacked places of the weights of row `co`
    times the operand, plus the bias, clamped below at zero. -/
theorem outer_apply (v42 : FVec Ideal S1x768x512 .f32) (w2 : Vec Ideal S128x768 .f32) (b2 : Vec Ideal S128x1 .f32)
    (co : Fin 128) (l : Fin 512) :
    k1_pay1 (F := Ideal) v42 w2 b2 (ix3 (0 : Fin 1) co l)
      = max ((∑ j : Fin 768, w2 (ix2 co j) * v42 (ix3 (0 : Fin 1) j l)) + b2 (ix2 co (0 : Fin 1))) 0 := by
  unfold k1_pay1
  show max (_ + _) _ = _
  exact congrArg₂ max (congrArg₂ (· + ·)
    ((dot2_apply _ _ _ co l).trans (Finset.sum_congr rfl fun k _ => congrArg (· * _) (lhs2_apply w2 _ _ co k)))
    ((bcast_col3 _ _ co l).trans (bias2_apply b2 _ _ co))) Ideal.ofBits_zero_f32

/-- ONE SAMPLE of the reference: the stored value at (0, co, l) is layer 2 over layer 1. -/
theorem sample_apply (x : Vec Ideal S1x128x512 .f32) (w1 : Vec Ideal S256x384 .f32) (b1 : Vec Ideal S256x1 .f32)
    (w2 : Vec Ideal S128x768 .f32) (b2 : Vec Ideal S128x1 .f32) (co : Fin 128) (l : Fin 512) :
    k1_pay1 (F := Ideal) (k1_pay2 x w1 b1) w2 b2 (ix3 (0 : Fin 1) co l)
      = conv3 (fun c : Fin 256 => w2 (ix2 co ⟨c, lt_first c⟩)) (fun c : Fin 256 => w2 (ix2 co ⟨256 + c, lt_second c⟩))
          (fun c : Fin 256 => w2 (ix2 co ⟨256 + 256 + c, lt_third c⟩)) (b2 (ix2 co (0 : Fin 1)))
          (fun cm l' => conv3 (fun c : Fin 128 => w1 (ix2 cm ⟨c, lt_first c⟩))
            (fun c : Fin 128 => w1 (ix2 cm ⟨128 + c, lt_second c⟩))
            (fun c : Fin 128 => w1 (ix2 cm ⟨128 + 128 + c, lt_third c⟩)) (b1 (ix2 cm (0 : Fin 1)))
            (fun c l'' => x (ix3 (0 : Fin 1) c l'')) l') l := by
  rw [outer_apply]
  refine (conv3_of_stackedContraction (C := 256) (fun j : Fin 768 => w2 (ix2 co j)) _ _
    (fun cm l' => k1_pay2 (F := Ideal) x w1 b1 (ix3 (0 : Fin 1) ⟨256 + cm, lt_second cm⟩ l')) l ?_ ?_ ?_).trans ?_
  · intro c; exact first_apply x w1 b1 c l
  · intro c; rfl
  · intro c; exact third_apply x w1 b1 c l
  · exact conv3_congr (fun _ => rfl) (fun _ => rfl) (fun _ => rfl) rfl (fun cm l' => mid_apply x w1 b1 cm l') l

end Cert.RefSample
-- ==== Proof.SampleBridge.lean ====
/-
  One sample of the kernel and one sample of the reference are the same extended reals, index by index.

  Both programs compute, for one sample, two stacked three-tap convolutions with zero padding, each followed by a bias
  and a clamp below at zero (`Cert.ConvTaps.conv3`); KernelSample.lean and RefSample.lean read each program's stored
  value at an index as `conv3` over `conv3` of that program's own operands. Here the operands are related entry by
  entry: the layer-1 weights, the two bias columns and the sample are equal, and the layer-2 weights are the same
  numbers laid out differently — the kernel has tap `k` of output channel `co` in ROW `128 k + co`, the reference has
  tap `k` of middle channel `cm` in COLUMN `256 k + cm`. Under these hypotheses the two stored values agree at every
  (0, co, l) (`sample_eq`). The kernel's layer-2 operands reach its payload through casts to their own shape, which
  are the identity (`k0_pay3_eq`, `k0_pay5_eq`); `sample_eq_raw` states the agreement over the loaded vectors, and
  `sample_eq_of_val` takes the layer-2 weight hypothesis in the form "row `128 k + co` against column `256 k + cm`,
  for k < 3". No finiteness hypothesis is needed.
-/
import proofs.«164273_g2000305763469021_pallasbulk_548_28_alg».proof.Proof.KernelSample
import proofs.«164273_g2000305763469021_pallasbulk_548_28_alg».proof.Proof.RefSample
import proofs.«164273_g2000305763469021_pallasbulk_548_28_alg».proof.Proof.LibConvTaps

noncomputable section

namespace Cert.SampleBridge

open Idealize.ShloMosaic Idealize.ShloMosaic.ValueIdx Cert.ConvTaps

/-- The kernel's cast of the layer-2 weights to their own shape is the identity, at every float instance. -/
theorem k0_pay3_eq {F : FTy → Type} [FloatOps F] (v : Vec F Cert.KernelIdeal.S384x256 .bf16) :
    Cert.KernelIdeal.Gen.k0_pay3 v = v :=
  shapeCast_self v _

/-- The kernel's cast of the layer-2 bias to its own shape is the identity, at every float instance. -/
theorem k0_pay5_eq {F : FTy → Type} [FloatOps F] (v : Vec F Cert.KernelIdeal.S128x1 .f32) :
    Cert.KernelIdeal.Gen.k0_pay5 v = v :=
  shapeCast_self v _

section
variable (w1c : Vec Ideal Cert.KernelIdeal.S256x384 .bf16) (b1k : Vec Ideal Cert.KernelIdeal.S256x1 .f32)
  (w2s : FVec Ideal Cert.KernelIdeal.S384x256 .bf16) (b2k : FVec Ideal Cert.KernelIdeal.S128x1 .f32)
  (xk : Vec Ideal Cert.KernelIdeal.S1x128x512 .f32)
  (xr : Vec Ideal Cert.ReferenceIdeal.S1x128x512 .f32) (w1r : Vec Ideal Cert.ReferenceIdeal.S256x384 .f32)
  (b1r : Vec Ideal Cert.ReferenceIdeal.S256x1 .f32) (w2r : Vec Ideal Cert.ReferenceIdeal.S128x768 .f32)
  (b2r : Vec Ideal Cert.ReferenceIdeal.S128x1 .f32)

/-- THE TWO SAMPLES AGREE at every (0, co, l), the operands related entry by entry. -/
theorem sample_eq
    (hw1 : ∀ (cm : Fin 256) (j : Fin 384), w1c (ix2 cm j) = w1r (ix2 cm j))
    (hb1 : ∀ cm : Fin 256, b1k (ix2 cm (0 : Fin 1)) = b1r (ix2 cm (0 : Fin 1)))
    (hw2a : ∀ (co : Fin 128) (cm : Fin 256), w2s (ix2 ⟨co, lt_first co⟩ cm) = w2r (ix2 co ⟨cm, lt_first cm⟩))
    (hw2b : ∀ (co : Fin 128) (cm : Fin 256),
      w2s (ix2 ⟨128 + co, lt_second co⟩ cm) = w2r (ix2 co ⟨256 + cm, lt_second cm⟩))
    (hw2c : ∀ (co : Fin 128) (cm : Fin 256),
      w2s (ix2 ⟨128 + 128 + co, lt_third co⟩ cm) = w2r (ix2 co ⟨256 + 256 + cm, lt_third cm⟩))
    (hb2 : ∀ co : Fin 128, b2k (ix2 co (0 : Fin 1)) = b2r (ix2 co (0 : Fin 1)))
    (hx : ∀ (ci : Fin 128) (l : Fin 512), xk (ix3 (0 : Fin 1) ci l) = xr (ix3 (0 : Fin 1) ci l))
    (co : Fin 128) (l : Fin 512) :
    Cert.KernelIdeal.Gen.k0_pay56 (F := Ideal) w2s b2k (Cert.KernelIdeal.Gen.k0_pay6 w1c b1k xk) (ix3 (0 : Fin 1) co l)
      = Cert.ReferenceIdeal.Gen.k1_pay1 (F := Ideal) (Cert.ReferenceIdeal.Gen.k1_pay2 xr w1r b1r) w2r b2r
          (ix3 (0 : Fin 1) co l) := by
  rw [Cert.KernelSample.sample_apply, Cert.RefSample.sample_apply]
  exact conv3_congr (fun c => hw2a co c) (fun c => hw2b co c) (fun c => hw2c co c) (hb2 co)
    (fun cm l' => conv3_congr (fun _ => hw1 cm _) (fun _ => hw1 cm _) (fun _ => hw1 cm _) (hb1 cm)
      (fun c l'' => hx c l'') l') l

/-- The same with the layer-2 weight hypothesis in one statement: row `128 k + co` of the kernel's matrix against
    column `256 k + cm` of the reference's, for the three taps `k < 3`. -/
theorem sample_eq_of_val
    (hw1 : ∀ (cm : Fin 256) (j : Fin 384), w1c (ix2 cm j) = w1r (ix2 cm j))
    (hb1 : ∀ cm : Fin 256, b1k (ix2 cm (0 : Fin 1)) = b1r (ix2 cm (0 : Fin 1)))
    (hw2 : ∀ (k : Nat) (co : Fin 128) (cm : Fin 256) (r : Fin 384) (j : Fin 768), k < 3 → r.val = 128 * k + co.val →
      j.val = 256 * k + cm.val → w2s (ix2 r cm) = w2r (ix2 co j))
    (hb2 : ∀ co : Fin 128, b2k (ix2 co (0 : Fin 1)) = b2r (ix2 co (0 : Fin 1)))
    (hx : ∀ (ci : Fin 128) (l : Fin 512), xk (ix3 (0 : Fin 1) ci l) = xr (ix3 (0 : Fin 1) ci l))
    (co : Fin 128) (l : Fin 512) :
    Cert.KernelIdeal.Gen.k0_pay56 (F := Ideal) w2s b2k (Cert.KernelIdeal.Gen.k0_pay6 w1c b1k xk) (ix3 (0 : Fin 1) co l)
      = Cert.ReferenceIdeal.Gen.k1_pay1 (F := Ideal) (Cert.ReferenceIdeal.Gen.k1_pay2 xr w1r b1r) w2r b2r
          (ix3 (0 : Fin 1) co l) :=
  sample_eq w1c b1k w2s b2k xk xr w1r b1r w2r b2r hw1 hb1
    (fun co cm => hw2 0 co cm _ _ (by norm_num) (by simp) (by simp))
    (fun co cm => hw2 1 co cm _ _ (by norm_num) (by simp) (by simp))
    (fun co cm => hw2 2 co cm _ _ (by norm_num) (by simp) (by simp))
    hb2 hx co l

end

/-- The agreement over the kernel's LOADED layer-2 operands (its payload takes them through the identity casts). -/
theorem sample_eq_raw
    (w1c : Vec Ideal Cert.KernelIdeal.S256x384 .bf16) (b1k : Vec Ideal Cert.KernelIdeal.S256x1 .f32)
    (w2s : Vec Ideal Cert.KernelIdeal.S384x256 .bf16) (b2k : Vec Ideal Cert.KernelIdeal.S128x1 .f32)
    (xk : Vec Ideal Cert.KernelIdeal.S1x128x512 .f32)
    (xr : Vec Ideal Cert.ReferenceIdeal.S1x128x512 .f32) (w1r : Vec Ideal Cert.ReferenceIdeal.S256x384 .f32)
    (b1r : Vec Ideal Cert.ReferenceIdeal.S256x1 .f32) (w2r : Vec Ideal Cert.ReferenceIdeal.S128x768 .f32)
    (b2r : Vec Ideal Cert.ReferenceIdeal.S128x1 .f32)
    (hw1 : ∀ (cm : Fin 256) (j : Fin 384), w1c (ix2 cm j) = w1r (ix2 cm j))
    (hb1 : ∀ cm : Fin 256, b1k (ix2 cm (0 : Fin 1)) = b1r (ix2 cm (0 : Fin 1)))
    (hw2a : ∀ (co : Fin 128) (cm : Fin 256), w2s (ix2 ⟨co, lt_first co⟩ cm) = w2r (ix2 co ⟨cm, lt_first cm⟩))
    (hw2b : ∀ (co : Fin 128) (cm : Fin 256),
      w2s (ix2 ⟨128 + co, lt_second co⟩ cm) = w2r (ix2 co ⟨256 + cm, lt_second cm⟩))
    (hw2c : ∀ (co : Fin 128) (cm : Fin 256),
      w2s (ix2 ⟨128 + 128 + co, lt_third co⟩ cm) = w2r (ix2 co ⟨256 + 256 + cm, lt_third cm⟩))
    (hb2 : ∀ co : Fin 128, b2k (ix2 co (0 : Fin 1)) = b2r (ix2 co (0 : Fin 1)))
    (hx : ∀ (ci : Fin 128) (l : Fin 512), xk (ix3 (0 : Fin 1) ci l) = xr (ix3 (0 : Fin 1) ci l))
    (co : Fin 128) (l : Fin 512) :
    Cert.KernelIdeal.Gen.k0_pay56 (F := Ideal) (Cert.KernelIdeal.Gen.k0_pay3 w2s) (Cert.KernelIdeal.Gen.k0_pay5 b2k)
        (Cert.KernelIdeal.Gen.k0_pay6 w1c b1k xk) (ix3 (0 : Fin 1) co l)
      = Cert.ReferenceIdeal.Gen.k1_pay1 (F := Ideal) (Cert.ReferenceIdeal.Gen.k1_pay2 xr w1r b1r) w2r b2r
          (ix3 (0 : Fin 1) co l) := by
  rw [k0_pay3_eq, k0_pay5_eq]
  exact sample_eq w1c b1k w2s b2k xk xr w1r b1r w2r b2r hw1 hb1 hw2a hw2b hw2c hb2 hx co l

end Cert.SampleBridge
-- ==== Proof.LibConcat3.lean ====
/-
  Matrices with the same rows joined along their columns, read block by block.

  A concatenation along axis 1 of two or three matrices [a, b1], [a, b2] (, [a, b3]) into [a, n] reads, at row p and a
  column inside the k-th block, the k-th matrix at row p and the column less the widths of the blocks before it. The
  column is given as it comes out of a sum cut into blocks: l, b1 + l, b1 + b2 + l with l below the block's width. All
  extents are variables; each reading is the library's piece-by-piece reading of a concatenation at one piece.
-/
import Idealize.ShloMosaic.Lib.Pipeline.Value
import Idealize.ShloMosaic.Lib.ValueIdx

noncomputable section

namespace Idealize.ShloMosaic.ConcatBlocks

open Idealize.ShloMosaic Idealize.ShloMosaic.ValueIdx

variable {α : Type} {a b1 b2 b3 n : Nat}

/-- Two matrices joined along their columns: a column l of the first block reads the first matrix at (p, l). -/
theorem concat2_first (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, n]⟩ : Shape) 1)
    (p : Fin a) (l : Fin b1) (hl : l.val < n) :
    concatenate (⟨2, ![a, n]⟩ : Shape) 1 [⟨(⟨2, ![a, b1]⟩ : Shape), x⟩, ⟨(⟨2, ![a, b2]⟩ : Shape), y⟩] h (ix2 p ⟨l.val, hl⟩)
      = x (ix2 p l) :=
  concatenate_apply_piece (t := (⟨2, ![a, n]⟩ : Shape)) 1
    [⟨(⟨2, ![a, b1]⟩ : Shape), x⟩, ⟨(⟨2, ![a, b2]⟩ : Shape), y⟩] h (ix2 p ⟨l.val, hl⟩) 0 (by simp) _ x rfl rfl 0 rfl (ix2 p l)
    (fun b hb => match b, hb with
      | ⟨0, _⟩, _ => rfl
      | ⟨1, _⟩, hb => absurd rfl hb)
    (Nat.zero_add _)

/-- Two matrices joined along their columns: column b1 + l reads the second matrix at (p, l). -/
theorem concat2_second (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, n]⟩ : Shape) 1)
    (p : Fin a) (l : Fin b2) (hl : b1 + l.val < n) :
    concatenate (⟨2, ![a, n]⟩ : Shape) 1 [⟨(⟨2, ![a, b1]⟩ : Shape), x⟩, ⟨(⟨2, ![a, b2]⟩ : Shape), y⟩] h (ix2 p ⟨b1 + l.val, hl⟩)
      = y (ix2 p l) :=
  concatenate_apply_piece (t := (⟨2, ![a, n]⟩ : Shape)) 1
    [⟨(⟨2, ![a, b1]⟩ : Shape), x⟩, ⟨(⟨2, ![a, b2]⟩ : Shape), y⟩] h (ix2 p ⟨b1 + l.val, hl⟩) 1 (by simp) _ y rfl rfl b1 (by simp)
    (ix2 p l)
    (fun b hb => match b, hb with
      | ⟨0, _⟩, _ => rfl
      | ⟨1, _⟩, hb => absurd rfl hb)
    rfl

/-- Three matrices joined along their columns: a column l of the first block reads the first matrix at (p, l). -/
theorem concat3_first (x : (⟨2, ![a, b1]⟩ : Shape).Idx → α) (y : (⟨2, ![a, b2]⟩ : Shape).Idx → α)
    (z : (⟨2, ![a, b3]⟩ : Shape).Idx → α)
    (h : Shape.Concatenates [(⟨2, ![a, b1]⟩ : Shape), (⟨2, ![a, b2]⟩ : Shape), (⟨2, ![a, b3]⟩ : Shape)] (⟨2, ![a, n]⟩ : Shape) 1)
    (p : Fin a) (l : Fin b1) (hl : l.val < n) :
    concatenate (⟨2, ![a, n]⟩ : Shape) 1
        [⟨(⟨2, ![a, b1]⟩ : Shape), x⟩, ⟨(⟨2, ![a, b2]⟩ : Shape), y⟩, ⟨(⟨2, ![a, b3]⟩ : Shape), z⟩] h (ix2 p ⟨l.val, hl⟩)
      = x (ix2 p l) :=
  concatenate_apply_piece (t := (⟨2, ![a, n]⟩ : Shape)) 1
    [⟨(⟨2, ![a, b1]⟩ : Shape), x⟩, ⟨(⟨2, ![a, b2]⟩ : Shape), y⟩, ⟨(⟨2, ![a, b3]⟩ : Shape), z⟩] h (ix2 p ⟨l.val, hl⟩) 0 (by simp) _ x rfl rfl 0 rfl (ix2 p l)
    (fun b hb => match b, hb with
      | ⟨0, _⟩, _ => rfl
      | ⟨1, _⟩, hb => absurd rfl hb)
    (Nat.zero_add _)

/-- Three matrices joined along their columns: column b1 + l reads the second matrix at (p, l). -/
theorem concat3_second (x : (⟨2, ![a, b1]⟩ : Shape).Idx → α) (y : (⟨2, ![a, b2]⟩ : Shape).Idx → α)
    (z : (⟨2, ![a, b3]⟩ : Shape).Idx → α)
    (h : Shape.Concatenates [(⟨2, ![a, b1]⟩ : Shape), (⟨2, ![a, b2]⟩ : Shape), (⟨2, ![a, b3]⟩ : Shape)] (⟨2, ![a, n]⟩ : Shape) 1)
    (p : Fin a) (l : Fin b2) (hl : b1 + l.val < n) :
    concatenate (⟨2, ![a, n]⟩ : Shape) 1
        [⟨(⟨2, ![a, b1]⟩ : Shape), x⟩, ⟨(⟨2, ![a, b2]⟩ : Shape), y⟩, ⟨(⟨2, ![a, b3]⟩ : Shape), z⟩] h (ix2 p ⟨b1 + l.val, hl⟩)
      = y (ix2 p l) :=
  concatenate_apply_piece (t := (⟨2, ![a, n]⟩ : Shape)) 1
    [⟨(⟨2, ![a, b1]⟩ : Shape), x⟩, ⟨(⟨2, ![a, b2]⟩ : Shape), y⟩, ⟨(⟨2, ![a, b3]⟩ : Shape), z⟩] h (ix2 p ⟨b1 + l.val, hl⟩) 1 (by simp) _ y rfl rfl b1 (by simp) (ix2 p l)
    (fun b hb => match b, hb with
      | ⟨0, _⟩, _ => rfl
      | ⟨1, _⟩, hb => absurd rfl hb)
    rfl

/-- Three matrices joined along their columns: column b1 + b2 + l reads the third matrix at (p, l). -/
theorem concat3_third (x : (⟨2, ![a, b1]⟩ : Shape).Idx → α) (y : (⟨2, ![a, b2]⟩ : Shape).Idx → α)
    (z : (⟨2, ![a, b3]⟩ : Shape).Idx → α)
    (h : Shape.Concatenates [(⟨2, ![a, b1]⟩ : Shape), (⟨2, ![a, b2]⟩ : Shape), (⟨2, ![a, b3]⟩ : Shape)] (⟨2, ![a, n]⟩ : Shape) 1)
    (p : Fin a) (l : Fin b3) (hl : b1 + b2 + l.val < n) :
    concatenate (⟨2, ![a, n]⟩ : Shape) 1
        [⟨(⟨2, ![a, b1]⟩ : Shape), x⟩, ⟨(⟨2, ![a, b2]⟩ : Shape), y⟩, ⟨(⟨2, ![a, b3]⟩ : Shape), z⟩] h
        (ix2 p ⟨b1 + b2 + l.val, hl⟩)
      = z (ix2 p l) :=
  concatenate_apply_piece (t := (⟨2, ![a, n]⟩ : Shape)) 1
    [⟨(⟨2, ![a, b1]⟩ : Shape), x⟩, ⟨(⟨2, ![a, b2]⟩ : Shape), y⟩, ⟨(⟨2, ![a, b3]⟩ : Shape), z⟩] h (ix2 p ⟨b1 + b2 + l.val, hl⟩) 2 (by simp) _ z rfl rfl (b1 + b2) (by simp) (ix2 p l)
    (fun b hb => match b, hb with
      | ⟨0, _⟩, _ => rfl
      | ⟨1, _⟩, hb => absurd rfl hb)
    rfl

end Idealize.ShloMosaic.ConcatBlocks

end
-- ==== Proof.LibConcatRows.lean ====
/-
  Matrices with the same columns stacked along their rows, read block by block.

  A concatenation along axis 0 of three matrices [a1, b], [a2, b], [a3, b] into [n, b] reads, at a row inside the k-th
  block and at column q, the k-th matrix at the row less the heights of the blocks above it and at column q. The row is
  any row r of the result whose number is l, a1 + l or a1 + a2 + l with l below the block's height (the equation is a
  hypothesis, so a row that comes out of other arithmetic is matched by proving it). All extents are variables; each
  reading is the library's piece-by-piece reading of a concatenation at one piece.
-/
import Idealize.ShloMosaic.Lib.Pipeline.Value
import Idealize.ShloMosaic.Lib.ValueIdx

noncomputable section

namespace Idealize.ShloMosaic.ConcatBlocks

open Idealize.ShloMosaic Idealize.ShloMosaic.ValueIdx

variable {α : Type} {a1 a2 a3 b n : Nat}

/-- Three matrices stacked along their rows: a row of number l, inside the first block, reads the first matrix at (l, q). -/
theorem rows3_first (x : (⟨2, ![a1, b]⟩ : Shape).Idx → α) (y : (⟨2, ![a2, b]⟩ : Shape).Idx → α)
    (z : (⟨2, ![a3, b]⟩ : Shape).Idx → α)
    (h : Shape.Concatenates [(⟨2, ![a1, b]⟩ : Shape), (⟨2, ![a2, b]⟩ : Shape), (⟨2, ![a3, b]⟩ : Shape)] (⟨2, ![n, b]⟩ : Shape) 0)
    (r : Fin n) (l : Fin a1) (q : Fin b) (hr : r.val = l.val) :
    concatenate (⟨2, ![n, b]⟩ : Shape) 0
        [⟨(⟨2, ![a1, b]⟩ : Shape), x⟩, ⟨(⟨2, ![a2, b]⟩ : Shape), y⟩, ⟨(⟨2, ![a3, b]⟩ : Shape), z⟩] h (ix2 r q)
      = x (ix2 l q) :=
  concatenate_apply_piece (t := (⟨2, ![n, b]⟩ : Shape)) 0
    [⟨(⟨2, ![a1, b]⟩ : Shape), x⟩, ⟨(⟨2, ![a2, b]⟩ : Shape), y⟩, ⟨(⟨2, ![a3, b]⟩ : Shape), z⟩] h (ix2 r q) 0 (by simp) _ x rfl rfl 0 rfl
    (ix2 l q)
    (fun c hc => match c, hc with
      | ⟨0, _⟩, hc => absurd rfl hc
      | ⟨1, _⟩, _ => rfl)
    (by show 0 + l.val = r.val; omega)

/-- Three matrices stacked along their rows: a row of number a1 + l reads the second matrix at (l, q). -/
theorem rows3_second (x : (⟨2, ![a1, b]⟩ : Shape).Idx → α) (y : (⟨2, ![a2, b]⟩ : Shape).Idx → α)
    (z : (⟨2, ![a3, b]⟩ : Shape).Idx → α)
    (h : Shape.Concatenates [(⟨2, ![a1, b]⟩ : Shape), (⟨2, ![a2, b]⟩ : Shape), (⟨2, ![a3, b]⟩ : Shape)] (⟨2, ![n, b]⟩ : Shape) 0)
    (r : Fin n) (l : Fin a2) (q : Fin b) (hr : r.val = a1 + l.val) :
    concatenate (⟨2, ![n, b]⟩ : Shape) 0
        [⟨(⟨2, ![a1, b]⟩ : Shape), x⟩, ⟨(⟨2, ![a2, b]⟩ : Shape), y⟩, ⟨(⟨2, ![a3, b]⟩ : Shape), z⟩] h (ix2 r q)
      = y (ix2 l q) :=
  concatenate_apply_piece (t := (⟨2, ![n, b]⟩ : Shape)) 0
    [⟨(⟨2, ![a1, b]⟩ : Shape), x⟩, ⟨(⟨2, ![a2, b]⟩ : Shape), y⟩, ⟨(⟨2, ![a3, b]⟩ : Shape), z⟩] h (ix2 r q) 1 (by simp) _ y rfl rfl a1 (by simp)
    (ix2 l q)
    (fun c hc => match c, hc with
      | ⟨0, _⟩, hc => absurd rfl hc
      | ⟨1, _⟩, _ => rfl)
    (by show a1 + l.val = r.val; omega)

/-- Three matrices stacked along their rows: a row of number a1 + a2 + l reads the third matrix at (l, q). -/
theorem rows3_third (x : (⟨2, ![a1, b]⟩ : Shape).Idx → α) (y : (⟨2, ![a2, b]⟩ : Shape).Idx → α)
    (z : (⟨2, ![a3, b]⟩ : Shape).Idx → α)
    (h : Shape.Concatenates [(⟨2, ![a1, b]⟩ : Shape), (⟨2, ![a2, b]⟩ : Shape), (⟨2, ![a3, b]⟩ : Shape)] (⟨2, ![n, b]⟩ : Shape) 0)
    (r : Fin n) (l : Fin a3) (q : Fin b) (hr : r.val = a1 + a2 + l.val) :
    concatenate (⟨2, ![n, b]⟩ : Shape) 0
        [⟨(⟨2, ![a1, b]⟩ : Shape), x⟩, ⟨(⟨2, ![a2, b]⟩ : Shape), y⟩, ⟨(⟨2, ![a3, b]⟩ : Shape), z⟩] h (ix2 r q)
      = z (ix2 l q) :=
  concatenate_apply_piece (t := (⟨2, ![n, b]⟩ : Shape)) 0
    [⟨(⟨2, ![a1, b]⟩ : Shape), x⟩, ⟨(⟨2, ![a2, b]⟩ : Shape), y⟩, ⟨(⟨2, ![a3, b]⟩ : Shape), z⟩] h (ix2 r q) 2 (by simp) _ z rfl rfl (a1 + a2) (by simp)
    (ix2 l q)
    (fun c hc => match c, hc with
      | ⟨0, _⟩, hc => absurd rfl hc
      | ⟨1, _⟩, _ => rfl)
    (by show a1 + a2 + l.val = r.val; omega)

end Idealize.ShloMosaic.ConcatBlocks

end
-- ==== Proof.LibTrailingUnit.lean ====
/-
  A trailing axis of extent 1, and one position cut out of a last axis.

  An array [a, b, n] cut at position k of its last axis is an array [a, b, 1]; cast to the matrix [a, b] it reads, at
  (p, q), the array at (p, q, k). A vector [a] cast to the column [a, 1] reads, at (p, 0), the vector at p. Each is the
  library's reading of a slice or of a shape cast at an index, with the row-major positions written out. All extents
  are variables; the slice's offsets are a variable too, with their three values as hypotheses.
-/
import Idealize.ShloMosaic.Lib.Pipeline.Value
import Idealize.ShloMosaic.Lib.ValueIdx

noncomputable section

namespace Idealize.ShloMosaic.TrailingUnit

open Idealize.ShloMosaic Idealize.ShloMosaic.ValueIdx

variable {α : Type}

/-- A vector [a] cast to the column [a, 1] reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An [a, b, 1] array cast to the matrix [a, b] reads, at (p, q), the array at (p, q, 0). -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- The cut of an [a, b, n] array at position k of its last axis (offsets 0, 0, k; extents a, b, 1) reads, at
    (p, q, u), the array at (p, q, k). -/
theorem lastAxisCut_apply {a b n : ℕ} (off : Fin 3 → ℕ) (x : (⟨3, ![a, b, n]⟩ : Shape).Idx → α)
    (h : (⟨3, ![a, b, n]⟩ : Shape).Slices off ⟨3, ![a, b, 1]⟩) (p : Fin a) (q : Fin b) (u : Fin 1) (k : Fin n)
    (h0 : off 0 = 0) (h1 : off 1 = 0) (h2 : off 2 = k.val) :
    extractStridedSlice ⟨3, ![a, b, 1]⟩ off x h (ix3 p q u) = x (ix3 p q k) :=
  extractStridedSlice_apply off x h _ _ (fun c => match c with
    | ⟨0, _⟩ => by show p.val = off 0 + p.val; omega
    | ⟨1, _⟩ => by show q.val = off 1 + q.val; omega
    | ⟨2, _⟩ => by have hu : u.val = 0 := by omega
                   show k.val = off 2 + u.val; omega)

/-- Position k of the last axis as a matrix: the cut at k, cast to [a, b], reads at (p, q) the array at (p, q, k). -/
theorem lastAxisCut_matrix_apply {a b n : ℕ} (off : Fin 3 → ℕ) (x : (⟨3, ![a, b, n]⟩ : Shape).Idx → α)
    (hs : (⟨3, ![a, b, n]⟩ : Shape).Slices off ⟨3, ![a, b, 1]⟩) (hc : (⟨3, ![a, b, 1]⟩ : Shape).ShapeCasts ⟨2, ![a, b]⟩)
    (p : Fin a) (q : Fin b) (k : Fin n) (h0 : off 0 = 0) (h1 : off 1 = 0) (h2 : off 2 = k.val) :
    shapeCast ⟨2, ![a, b]⟩ (extractStridedSlice ⟨3, ![a, b, 1]⟩ off x hs) hc (ix2 p q) = x (ix3 p q k) :=
  (shapeCast_ab1_ab_apply _ hc p q).trans (lastAxisCut_apply off x hs p q 0 k h0 h1 h2)

end Idealize.ShloMosaic.TrailingUnit

end
-- ==== Proof.OperandsK.lean ====
/-
  What the four small operands of the kernel region hold when the region is entered.

  Before the region the program re-lays its weights on the host. The first layer's weights w1 : [256, 128, 3] become
  the matrix [256, 384] whose column k * 128 + ci holds w1[cm, ci, k]: the three positions of the last axis, each cut
  out and cast to [256, 128], side by side. The second layer's weights w2 : [128, 256, 3] become the matrix [384, 256]
  whose row k * 128 + co holds w2[co, cm, k]: the three positions stacked. The two biases become columns. A change of
  format is the identity on extended reals, so each entry of an operand is one entry of an argument array.
-/
import proofs.«164273_g2000305763469021_pallasbulk_548_28_alg».proof.Proof.KIFrame
import proofs.«164273_g2000305763469021_pallasbulk_548_28_alg».proof.Proof.LibConcat3
import proofs.«164273_g2000305763469021_pallasbulk_548_28_alg».proof.Proof.LibConcatRows
import proofs.«164273_g2000305763469021_pallasbulk_548_28_alg».proof.Proof.LibTrailingUnit
import Idealize.ShloMosaic.Lib.StableHlo.Run

set_option maxRecDepth 16384

noncomputable section

namespace Cert.KernelIdeal.Operands

open Cert.KernelIdeal Cert.KernelIdeal.Gen Cert.KernelIdeal.Hand
open Idealize.ShloMosaic Idealize.ShloMosaic.TcCoe Idealize.ShloMosaic.ValueIdx
open Idealize.ShloMosaic.StableHlo
open Idealize.ShloMosaic.ConcatBlocks Idealize.ShloMosaic.TrailingUnit

variable (m : (ℓ : Loc nD τ sig) → Buf (Elt Ideal) ℓ) (c : Dev nD)

/-! ## The operands as terms over the launch memory -/

/-- The first layer's weight matrix: the three positions of w1's last axis, each as a matrix, joined along the columns. -/
theorem v7_eq : (V m c main_v7 : S256x384.Idx → EReal)
    = truncf .bf16 (concatenate S256x384 1
        [⟨S256x128, shapeCast S256x128 (extractStridedSlice S256x128x1 ![0, 0, 0] (m ((c : Thread nD τ).loc main_arg1) : S256x128x3.Idx → EReal) slices_S256x128x3_S256x128x1_0_0_0) shapeCasts_S256x128x1_S256x128⟩,
         ⟨S256x128, shapeCast S256x128 (extractStridedSlice S256x128x1 ![0, 0, 1] (m ((c : Thread nD τ).loc main_arg1) : S256x128x3.Idx → EReal) slices_S256x128x3_S256x128x1_0_0_1) shapeCasts_S256x128x1_S256x128⟩,
         ⟨S256x128, shapeCast S256x128 (extractStridedSlice S256x128x1 ![0, 0, 2] (m ((c : Thread nD τ).loc main_arg1) : S256x128x3.Idx → EReal) slices_S256x128x3_S256x128x1_0_0_2) shapeCasts_S256x128x1_S256x128⟩]
        concatenates_S256x128_S256x128_S256x128_S256x384_d1 : FVec Ideal S256x384 .f32) bitsLt_bf16_f32 := by
  dsimp only [V, hostOps0]
  after_results
  rfl

/-- The second layer's weight matrix: the three positions of w2's last axis, each as a matrix, stacked along the rows. -/
theorem v15_eq : (V m c main_v15 : S384x256.Idx → EReal)
    = truncf .bf16 (concatenate S384x256 0
        [⟨S128x256, shapeCast S128x256 (extractStridedSlice S128x256x1 ![0, 0, 0] (m ((c : Thread nD τ).loc main_arg3) : S128x256x3.Idx → EReal) slices_S128x256x3_S128x256x1_0_0_0) shapeCasts_S128x256x1_S128x256⟩,
         ⟨S128x256, shapeCast S128x256 (extractStridedSlice S128x256x1 ![0, 0, 1] (m ((c : Thread nD τ).loc main_arg3) : S128x256x3.Idx → EReal) slices_S128x256x3_S128x256x1_0_0_1) shapeCasts_S128x256x1_S128x256⟩,
         ⟨S128x256, shapeCast S128x256 (extractStridedSlice S128x256x1 ![0, 0, 2] (m ((c : Thread nD τ).loc main_arg3) : S128x256x3.Idx → EReal) slices_S128x256x3_S128x256x1_0_0_2) shapeCasts_S128x256x1_S128x256⟩]
        concatenates_S128x256_S128x256_S128x256_S384x256_d0 : FVec Ideal S384x256 .f32) bitsLt_bf16_f32 := by
  dsimp only [V, hostOps0]
  after_results
  rfl

/-- The first bias as a column. -/
theorem v16_eq : (V m c main_v16 : S256x1.Idx → EReal)
    = shapeCast S256x1 (m ((c : Thread nD τ).loc main_arg2) : S256.Idx → EReal) shapeCasts_S256_S256x1 := by
  dsimp only [V, hostOps0]
  after_results
  rfl

/-- The second bias as a column. -/
theorem v17_eq : (V m c main_v17 : S128x1.Idx → EReal)
    = shapeCast S128x1 (m ((c : Thread nD τ).loc main_arg4) : S128.Idx → EReal) shapeCasts_S128_S128x1 := by
  dsimp only [V, hostOps0]
  after_results
  rfl

/-! ## The operands read at an index -/

/-- Column k * 128 + ci of the first layer's weight matrix holds w1[cm, ci, k]. -/
theorem w1_at (cm : Fin 256) (ci : Fin 128) (k : Fin 3) (j : Fin 384) (hj : j.val = k.val * 128 + ci.val) :
    (V m c main_v7 : S256x384.Idx → EReal) (ix2 cm j)
      = (m ((c : Thread nD τ).loc main_arg1) : S256x128x3.Idx → EReal) (ix3 cm ci k) := by
  refine (congrFun (v7_eq m c) (ix2 cm j)).trans ?_
  rw [truncf_apply]
  obtain ⟨jv, hjv⟩ := j
  match k, hj with
  | ⟨0, _⟩, hj =>
    have h : jv = ci.val := by have h : jv = 0 * 128 + ci.val := hj; omega
    subst h
    exact (concat3_first _ _ _ _ cm ci hjv).trans
      (lastAxisCut_matrix_apply _ _ _ _ cm ci _ rfl rfl rfl)
  | ⟨1, _⟩, hj =>
    have h : jv = 128 + ci.val := by have h : jv = 1 * 128 + ci.val := hj; omega
    subst h
    exact (concat3_second _ _ _ _ cm ci hjv).trans
      (lastAxisCut_matrix_apply _ _ _ _ cm ci _ rfl rfl rfl)
  | ⟨2, _⟩, hj =>
    have h : jv = 128 + 128 + ci.val := by have h : jv = 2 * 128 + ci.val := hj; omega
    subst h
    exact (concat3_third _ _ _ _ cm ci hjv).trans
      (lastAxisCut_matrix_apply _ _ _ _ cm ci _ rfl rfl rfl)

/-- Row k * 128 + co of the second layer's weight matrix holds w2[co, cm, k]. -/
theorem w2_at (co : Fin 128) (cm : Fin 256) (k : Fin 3) (r : Fin 384) (hr : r.val = k.val * 128 + co.val) :
    (V m c main_v15 : S384x256.Idx → EReal) (ix2 r cm)
      = (m ((c : Thread nD τ).loc main_arg3) : S128x256x3.Idx → EReal) (ix3 co cm k) := by
  refine (congrFun (v15_eq m c) (ix2 r cm)).trans ?_
  rw [truncf_apply]
  match k, hr with
  | ⟨0, _⟩, hr =>
    exact (rows3_first _ _ _ _ r co cm (by have h : r.val = 0 * 128 + co.val := hr; omega)).trans
      (lastAxisCut_matrix_apply _ _ _ _ co cm _ rfl rfl rfl)
  | ⟨1, _⟩, hr =>
    exact (rows3_second _ _ _ _ r co cm (by have h : r.val = 1 * 128 + co.val := hr; omega)).trans
      (lastAxisCut_matrix_apply _ _ _ _ co cm _ rfl rfl rfl)
  | ⟨2, _⟩, hr =>
    exact (rows3_third _ _ _ _ r co cm (by have h : r.val = 2 * 128 + co.val := hr; omega)).trans
      (lastAxisCut_matrix_apply _ _ _ _ co cm _ rfl rfl rfl)

/-- The first bias column holds b1[cm] in row cm. -/
theorem b1_at (cm : Fin 256) (u : Fin 1) :
    (V m c main_v16 : S256x1.Idx → EReal) (ix2 cm u) = (m ((c : Thread nD τ).loc main_arg2) : S256.Idx → EReal) (ix1 cm) :=
  (congrFun (v16_eq m c) (ix2 cm u)).trans (shapeCast_a_a1_apply _ _ cm u)

/-- The second bias column holds b2[co] in row co. -/
theorem b2_at (co : Fin 128) (u : Fin 1) :
    (V m c main_v17 : S128x1.Idx → EReal) (ix2 co u) = (m ((c : Thread nD τ).loc main_arg4) : S128.Idx → EReal) (ix1 co) :=
  (congrFun (v17_eq m c) (ix2 co u)).trans (shapeCast_a_a1_apply _ _ co u)

/-- Every column j of the first layer's weight matrix: position j / 128 of input channel j % 128. -/
theorem w1_col (cm : Fin 256) (j : Fin 384) :
    (V m c main_v7 : S256x384.Idx → EReal) (ix2 cm j)
      = (m ((c : Thread nD τ).loc main_arg1) : S256x128x3.Idx → EReal)
          (ix3 cm ⟨j.val % 128, Nat.mod_lt _ (by decide)⟩ ⟨j.val / 128, by have := j.isLt; omega⟩) :=
  w1_at m c cm ⟨j.val % 128, Nat.mod_lt _ (by decide)⟩ ⟨j.val / 128, by have := j.isLt; omega⟩ j
    (by show j.val = j.val / 128 * 128 + j.val % 128; omega)

/-! ## The same, block by block, with the column or row number written as a sum -/

theorem w1_tap0 (cm : Fin 256) (ci : Fin 128) (h : ci.val < 384) :
    (V m c main_v7 : S256x384.Idx → EReal) (ix2 cm ⟨ci.val, h⟩)
      = (m ((c : Thread nD τ).loc main_arg1) : S256x128x3.Idx → EReal) (ix3 cm ci 0) :=
  w1_at m c cm ci 0 ⟨ci.val, h⟩ (by show ci.val = 0 * 128 + ci.val; omega)
theorem w1_tap1 (cm : Fin 256) (ci : Fin 128) (h : 128 + ci.val < 384) :
    (V m c main_v7 : S256x384.Idx → EReal) (ix2 cm ⟨128 + ci.val, h⟩)
      = (m ((c : Thread nD τ).loc main_arg1) : S256x128x3.Idx → EReal) (ix3 cm ci 1) :=
  w1_at m c cm ci 1 ⟨128 + ci.val, h⟩ (by show 128 + ci.val = 1 * 128 + ci.val; omega)
theorem w1_tap2 (cm : Fin 256) (ci : Fin 128) (h : 128 + 128 + ci.val < 384) :
    (V m c main_v7 : S256x384.Idx → EReal) (ix2 cm ⟨128 + 128 + ci.val, h⟩)
      = (m ((c : Thread nD τ).loc main_arg1) : S256x128x3.Idx → EReal) (ix3 cm ci 2) :=
  w1_at m c cm ci 2 ⟨128 + 128 + ci.val, h⟩ (by show 128 + 128 + ci.val = 2 * 128 + ci.val; omega)

theorem w2_tap0 (co : Fin 128) (cm : Fin 256) (h : co.val < 384) :
    (V m c main_v15 : S384x256.Idx → EReal) (ix2 ⟨co.val, h⟩ cm)
      = (m ((c : Thread nD τ).loc main_arg3) : S128x256x3.Idx → EReal) (ix3 co cm 0) :=
  w2_at m c co cm 0 ⟨co.val, h⟩ (by show co.val = 0 * 128 + co.val; omega)
theorem w2_tap1 (co : Fin 128) (cm : Fin 256) (h : 128 + co.val < 384) :
    (V m c main_v15 : S384x256.Idx → EReal) (ix2 ⟨128 + co.val, h⟩ cm)
      = (m ((c : Thread nD τ).loc main_arg3) : S128x256x3.Idx → EReal) (ix3 co cm 1) :=
  w2_at m c co cm 1 ⟨128 + co.val, h⟩ (by show 128 + co.val = 1 * 128 + co.val; omega)
theorem w2_tap2 (co : Fin 128) (cm : Fin 256) (h : 128 + 128 + co.val < 384) :
    (V m c main_v15 : S384x256.Idx → EReal) (ix2 ⟨128 + 128 + co.val, h⟩ cm)
      = (m ((c : Thread nD τ).loc main_arg3) : S128x256x3.Idx → EReal) (ix3 co cm 2) :=
  w2_at m c co cm 2 ⟨128 + 128 + co.val, h⟩ (by show 128 + 128 + co.val = 2 * 128 + co.val; omega)

end Cert.KernelIdeal.Operands

end
-- ==== Proof.OperandsR.lean ====
/-
  What the four small operands of the reference's two kernel regions hold when the first region is entered.

  Before its regions the reference re-lays its weights on the host. The first layer's weights w1 : [256, 128, 3] become
  the matrix [256, 384] whose column k * 128 + ci holds w1[cm, ci, k]: the three positions of the last axis, each cut
  out and cast to [256, 128], side by side. The second layer's weights w2 : [128, 256, 3] become the matrix [128, 768]
  whose column k * 256 + cm holds w2[co, cm, k], likewise. The two biases become columns. So each entry of an operand is
  one entry of an argument array.
-/
import proofs.«164273_g2000305763469021_pallasbulk_548_28_alg».proof.Proof.Gen.ReferenceIdeal.Regions
import proofs.«164273_g2000305763469021_pallasbulk_548_28_alg».proof.Proof.LibConcat3
import proofs.«164273_g2000305763469021_pallasbulk_548_28_alg».proof.Proof.LibTrailingUnit
import Idealize.ShloMosaic.Lib.StableHlo.Run

set_option maxRecDepth 16384

noncomputable section

namespace Cert.ReferenceIdeal.Operands

open Cert.ReferenceIdeal Cert.ReferenceIdeal.Gen
open Idealize.ShloMosaic Idealize.ShloMosaic.TcCoe Idealize.ShloMosaic.ValueIdx
open Idealize.ShloMosaic.StableHlo
open Idealize.ShloMosaic.ConcatBlocks Idealize.ShloMosaic.TrailingUnit

variable (m : (ℓ : Loc nD τ sig) → Buf (Elt Ideal) ℓ) (c : Dev nD)

/-! ## The operands as terms over the launch memory -/

/-- The first layer's weight matrix: the three positions of w1's last axis, each as a matrix, joined along the columns. -/
theorem v6_eq : (V1 m c main_v6 : S256x384.Idx → EReal)
    = concatenate S256x384 1
        [⟨S256x128, shapeCast S256x128 (extractStridedSlice S256x128x1 ![0, 0, 0] (m ((c : Thread nD τ).loc main_arg1) : S256x128x3.Idx → EReal) slices_S256x128x3_S256x128x1_0_0_0) shapeCasts_S256x128x1_S256x128⟩,
         ⟨S256x128, shapeCast S256x128 (extractStridedSlice S256x128x1 ![0, 0, 1] (m ((c : Thread nD τ).loc main_arg1) : S256x128x3.Idx → EReal) slices_S256x128x3_S256x128x1_0_0_1) shapeCasts_S256x128x1_S256x128⟩,
         ⟨S256x128, shapeCast S256x128 (extractStridedSlice S256x128x1 ![0, 0, 2] (m ((c : Thread nD τ).loc main_arg1) : S256x128x3.Idx → EReal) slices_S256x128x3_S256x128x1_0_0_2) shapeCasts_S256x128x1_S256x128⟩]
        concatenates_S256x128_S256x128_S256x128_S256x384_d1 := by
  dsimp only [V1, V0, hostOps0]
  after_results
  rfl

/-- The second layer's weight matrix: the three positions of w2's last axis, each as a matrix, joined along the columns. -/
theorem v13_eq : (V1 m c main_v13 : S128x768.Idx → EReal)
    = concatenate S128x768 1
        [⟨S128x256, shapeCast S128x256 (extractStridedSlice S128x256x1 ![0, 0, 0] (m ((c : Thread nD τ).loc main_arg3) : S128x256x3.Idx → EReal) slices_S128x256x3_S128x256x1_0_0_0) shapeCasts_S128x256x1_S128x256⟩,
         ⟨S128x256, shapeCast S128x256 (extractStridedSlice S128x256x1 ![0, 0, 1] (m ((c : Thread nD τ).loc main_arg3) : S128x256x3.Idx → EReal) slices_S128x256x3_S128x256x1_0_0_1) shapeCasts_S128x256x1_S128x256⟩,
         ⟨S128x256, shapeCast S128x256 (extractStridedSlice S128x256x1 ![0, 0, 2] (m ((c : Thread nD τ).loc main_arg3) : S128x256x3.Idx → EReal) slices_S128x256x3_S128x256x1_0_0_2) shapeCasts_S128x256x1_S128x256⟩]
        concatenates_S128x256_S128x256_S128x256_S128x768_d1 := by
  dsimp only [V1, V0, hostOps0]
  after_results
  rfl

/-- The first bias as a column. -/
theorem v14_eq : (V1 m c main_v14 : S256x1.Idx → EReal)
    = shapeCast S256x1 (m ((c : Thread nD τ).loc main_arg2) : S256.Idx → EReal) shapeCasts_S256_S256x1 := by
  dsimp only [V1, V0, hostOps0]
  after_results
  rfl

/-- The second bias as a column. -/
theorem v15_eq : (V1 m c main_v15 : S128x1.Idx → EReal)
    = shapeCast S128x1 (m ((c : Thread nD τ).loc main_arg4) : S128.Idx → EReal) shapeCasts_S128_S128x1 := by
  dsimp only [V1, V0, hostOps0]
  after_results
  rfl

/-! ## The operands read at an index -/

/-- Column k * 128 + ci of the first layer's weight matrix holds w1[cm, ci, k]. -/
theorem w1_at (cm : Fin 256) (ci : Fin 128) (k : Fin 3) (j : Fin 384) (hj : j.val = k.val * 128 + ci.val) :
    (V1 m c main_v6 : S256x384.Idx → EReal) (ix2 cm j)
      = (m ((c : Thread nD τ).loc main_arg1) : S256x128x3.Idx → EReal) (ix3 cm ci k) := by
  refine (congrFun (v6_eq m c) (ix2 cm j)).trans ?_
  obtain ⟨jv, hjv⟩ := j
  match k, hj with
  | ⟨0, _⟩, hj =>
    have h : jv = ci.val := by have h : jv = 0 * 128 + ci.val := hj; omega
    subst h
    exact (concat3_first _ _ _ _ cm ci hjv).trans
      (lastAxisCut_matrix_apply _ _ _ _ cm ci _ rfl rfl rfl)
  | ⟨1, _⟩, hj =>
    have h : jv = 128 + ci.val := by have h : jv = 1 * 128 + ci.val := hj; omega
    subst h
    exact (concat3_second _ _ _ _ cm ci hjv).trans
      (lastAxisCut_matrix_apply _ _ _ _ cm ci _ rfl rfl rfl)
  | ⟨2, _⟩, hj =>
    have h : jv = 128 + 128 + ci.val := by have h : jv = 2 * 128 + ci.val := hj; omega
    subst h
    exact (concat3_third _ _ _ _ cm ci hjv).trans
      (lastAxisCut_matrix_apply _ _ _ _ cm ci _ rfl rfl rfl)

/-- Column k * 256 + cm of the second layer's weight matrix holds w2[co, cm, k]. -/
theorem w2_at (co : Fin 128) (cm : Fin 256) (k : Fin 3) (j : Fin 768) (hj : j.val = k.val * 256 + cm.val) :
    (V1 m c main_v13 : S128x768.Idx → EReal) (ix2 co j)
      = (m ((c : Thread nD τ).loc main_arg3) : S128x256x3.Idx → EReal) (ix3 co cm k) := by
  refine (congrFun (v13_eq m c) (ix2 co j)).trans ?_
  obtain ⟨jv, hjv⟩ := j
  match k, hj with
  | ⟨0, _⟩, hj =>
    have h : jv = cm.val := by have h : jv = 0 * 256 + cm.val := hj; omega
    subst h
    exact (concat3_first _ _ _ _ co cm hjv).trans
      (lastAxisCut_matrix_apply _ _ _ _ co cm _ rfl rfl rfl)
  | ⟨1, _⟩, hj =>
    have h : jv = 256 + cm.val := by have h : jv = 1 * 256 + cm.val := hj; omega
    subst h
    exact (concat3_second _ _ _ _ co cm hjv).trans
      (lastAxisCut_matrix_apply _ _ _ _ co cm _ rfl rfl rfl)
  | ⟨2, _⟩, hj =>
    have h : jv = 256 + 256 + cm.val := by have h : jv = 2 * 256 + cm.val := hj; omega
    subst h
    exact (concat3_third _ _ _ _ co cm hjv).trans
      (lastAxisCut_matrix_apply _ _ _ _ co cm _ rfl rfl rfl)

/-- The first bias column holds b1[cm] in row cm. -/
theorem b1_at (cm : Fin 256) (u : Fin 1) :
    (V1 m c main_v14 : S256x1.Idx → EReal) (ix2 cm u) = (m ((c : Thread nD τ).loc main_arg2) : S256.Idx → EReal) (ix1 cm) :=
  (congrFun (v14_eq m c) (ix2 cm u)).trans (shapeCast_a_a1_apply _ _ cm u)

/-- The second bias column holds b2[co] in row co. -/
theorem b2_at (co : Fin 128) (u : Fin 1) :
    (V1 m c main_v15 : S128x1.Idx → EReal) (ix2 co u) = (m ((c : Thread nD τ).loc main_arg4) : S128.Idx → EReal) (ix1 co) :=
  (congrFun (v15_eq m c) (ix2 co u)).trans (shapeCast_a_a1_apply _ _ co u)

/-- Every column j of the first layer's weight matrix: position j / 128 of input channel j % 128. -/
theorem w1_col (cm : Fin 256) (j : Fin 384) :
    (V1 m c main_v6 : S256x384.Idx → EReal) (ix2 cm j)
      = (m ((c : Thread nD τ).loc main_arg1) : S256x128x3.Idx → EReal)
          (ix3 cm ⟨j.val % 128, Nat.mod_lt _ (by decide)⟩ ⟨j.val / 128, by have := j.isLt; omega⟩) :=
  w1_at m c cm ⟨j.val % 128, Nat.mod_lt _ (by decide)⟩ ⟨j.val / 128, by have := j.isLt; omega⟩ j
    (by show j.val = j.val / 128 * 128 + j.val % 128; omega)

/-! ## The same, block by block, with the column number written as a sum -/

theorem w1_tap0 (cm : Fin 256) (ci : Fin 128) (h : ci.val < 384) :
    (V1 m c main_v6 : S256x384.Idx → EReal) (ix2 cm ⟨ci.val, h⟩)
      = (m ((c : Thread nD τ).loc main_arg1) : S256x128x3.Idx → EReal) (ix3 cm ci 0) :=
  w1_at m c cm ci 0 ⟨ci.val, h⟩ (by show ci.val = 0 * 128 + ci.val; omega)
theorem w1_tap1 (cm : Fin 256) (ci : Fin 128) (h : 128 + ci.val < 384) :
    (V1 m c main_v6 : S256x384.Idx → EReal) (ix2 cm ⟨128 + ci.val, h⟩)
      = (m ((c : Thread nD τ).loc main_arg1) : S256x128x3.Idx → EReal) (ix3 cm ci 1) :=
  w1_at m c cm ci 1 ⟨128 + ci.val, h⟩ (by show 128 + ci.val = 1 * 128 + ci.val; omega)
theorem w1_tap2 (cm : Fin 256) (ci : Fin 128) (h : 128 + 128 + ci.val < 384) :
    (V1 m c main_v6 : S256x384.Idx → EReal) (ix2 cm ⟨128 + 128 + ci.val, h⟩)
      = (m ((c : Thread nD τ).loc main_arg1) : S256x128x3.Idx → EReal) (ix3 cm ci 2) :=
  w1_at m c cm ci 2 ⟨128 + 128 + ci.val, h⟩ (by show 128 + 128 + ci.val = 2 * 128 + ci.val; omega)

theorem w2_tap0 (co : Fin 128) (cm : Fin 256) (h : cm.val < 768) :
    (V1 m c main_v13 : S128x768.Idx → EReal) (ix2 co ⟨cm.val, h⟩)
      = (m ((c : Thread nD τ).loc main_arg3) : S128x256x3.Idx → EReal) (ix3 co cm 0) :=
  w2_at m c co cm 0 ⟨cm.val, h⟩ (by show cm.val = 0 * 256 + cm.val; omega)
theorem w2_tap1 (co : Fin 128) (cm : Fin 256) (h : 256 + cm.val < 768) :
    (V1 m c main_v13 : S128x768.Idx → EReal) (ix2 co ⟨256 + cm.val, h⟩)
      = (m ((c : Thread nD τ).loc main_arg3) : S128x256x3.Idx → EReal) (ix3 co cm 1) :=
  w2_at m c co cm 1 ⟨256 + cm.val, h⟩ (by show 256 + cm.val = 1 * 256 + cm.val; omega)
theorem w2_tap2 (co : Fin 128) (cm : Fin 256) (h : 256 + 256 + cm.val < 768) :
    (V1 m c main_v13 : S128x768.Idx → EReal) (ix2 co ⟨256 + 256 + cm.val, h⟩)
      = (m ((c : Thread nD τ).loc main_arg3) : S128x256x3.Idx → EReal) (ix3 co cm 2) :=
  w2_at m c co cm 2 ⟨256 + 256 + cm.val, h⟩ (by show 256 + 256 + cm.val = 2 * 256 + cm.val; omega)

end Cert.ReferenceIdeal.Operands

end
-- ==== Proof.Bridge.lean ====
/-
  The two result arrays are one function of the arguments.

  Entry `(n, co, l)` of the kernel's result is its sample function of sample `n` read at `(co, l)`; the reference's is its own
  stored value of sample `n` read at `(co, l)`.  Both are two stacked three-tap convolutions with bias and rectification;
  they differ in how the taps are laid out (the kernel stacks the second layer's taps on the output rows and shifts the
  products, the reference stacks them on the contracted axis and shifts the operand) and agree entry by entry once the
  operands agree entry by entry — which they do, each being the same entries of the same argument arrays re-laid.
-/
import proofs.«164273_g2000305763469021_pallasbulk_548_28_alg».proof.Proof.KIArray
import proofs.«164273_g2000305763469021_pallasbulk_548_28_alg».proof.Proof.RArray
import proofs.«164273_g2000305763469021_pallasbulk_548_28_alg».proof.Proof.SampleBridge
import proofs.«164273_g2000305763469021_pallasbulk_548_28_alg».proof.Proof.OperandsK
import proofs.«164273_g2000305763469021_pallasbulk_548_28_alg».proof.Proof.OperandsR

set_option maxRecDepth 16384

noncomputable section

namespace Cert.Bridge

open Idealize.ShloMosaic Idealize.ShloMosaic.TcCoe Idealize.ShloMosaic.ValueIdx Idealize.SL.Sem
open Cert.ConvTaps

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- From memories that agree on the five arguments, the reference's result function is the kernel's. -/
theorem result_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.HandRun.resultFnR (F := Ideal) (m' ((c.tc : Thread Cert.ReferenceIdeal.nD Cert.ReferenceIdeal.τ).loc Cert.ReferenceIdeal.main_arg0))
        (Cert.ReferenceIdeal.Gen.V1 m' c Cert.ReferenceIdeal.main_v6) (Cert.ReferenceIdeal.Gen.V1 m' c Cert.ReferenceIdeal.main_v14) (Cert.ReferenceIdeal.Gen.V1 m' c Cert.ReferenceIdeal.main_v13) (Cert.ReferenceIdeal.Gen.V1 m' c Cert.ReferenceIdeal.main_v15)
      = Cert.KernelIdeal.Hand.resultFn (F := Ideal) (Cert.KernelIdeal.Hand.V m c Cert.KernelIdeal.main_arg0) (Cert.KernelIdeal.Hand.V m c Cert.KernelIdeal.main_v7) (Cert.KernelIdeal.Hand.V m c Cert.KernelIdeal.main_v16)
          (Cert.KernelIdeal.Hand.V m c Cert.KernelIdeal.main_v15) (Cert.KernelIdeal.Hand.V m c Cert.KernelIdeal.main_v17) := by
  funext i
  unfold Cert.ReferenceIdeal.HandRun.resultFnR Cert.KernelIdeal.Hand.resultFn Cert.KernelIdeal.Hand.sampleOut
  refine (Cert.SampleBridge.sample_eq_raw
    (Cert.KernelIdeal.Hand.V m c Cert.KernelIdeal.main_v7) (Cert.KernelIdeal.Hand.V m c Cert.KernelIdeal.main_v16) (Cert.KernelIdeal.Hand.V m c Cert.KernelIdeal.main_v15) (Cert.KernelIdeal.Hand.V m c Cert.KernelIdeal.main_v17)
    (Cert.KernelIdeal.Hand.sampleOf (Cert.KernelIdeal.Hand.V m c Cert.KernelIdeal.main_arg0) (i 0))
    (Cert.ReferenceIdeal.HandRun.sampleOfR (m' ((c.tc : Thread Cert.ReferenceIdeal.nD Cert.ReferenceIdeal.τ).loc Cert.ReferenceIdeal.main_arg0)) (i 0))
    (Cert.ReferenceIdeal.Gen.V1 m' c Cert.ReferenceIdeal.main_v6) (Cert.ReferenceIdeal.Gen.V1 m' c Cert.ReferenceIdeal.main_v14) (Cert.ReferenceIdeal.Gen.V1 m' c Cert.ReferenceIdeal.main_v13) (Cert.ReferenceIdeal.Gen.V1 m' c Cert.ReferenceIdeal.main_v15)
    ?hw1 ?hb1 ?hw2a ?hw2b ?hw2c ?hb2 ?hx (i 1) (i 2)).symm
  case hw1 =>
    intro cm j
    have hj : j.val < 384 := j.isLt
    let k : Fin 3 := ⟨j.val / 128, by omega⟩
    let ci : Fin 128 := ⟨j.val % 128, by omega⟩
    have hjk : j.val = k.val * 128 + ci.val := by show j.val = j.val / 128 * 128 + j.val % 128; omega
    exact (Cert.KernelIdeal.Operands.w1_at m c cm ci k j hjk).trans
      ((congrFun h1 (ix3 cm ci k)).symm.trans (Cert.ReferenceIdeal.Operands.w1_at m' c cm ci k j hjk).symm)
  case hb1 =>
    intro cm
    exact (Cert.KernelIdeal.Operands.b1_at m c cm 0).trans ((congrFun h2 (ix1 cm)).symm.trans (Cert.ReferenceIdeal.Operands.b1_at m' c cm 0).symm)
  case hw2a =>
    intro co cm
    exact (Cert.KernelIdeal.Operands.w2_tap0 m c co cm _).trans ((congrFun h3 (ix3 co cm 0)).symm.trans (Cert.ReferenceIdeal.Operands.w2_tap0 m' c co cm _).symm)
  case hw2b =>
    intro co cm
    exact (Cert.KernelIdeal.Operands.w2_tap1 m c co cm _).trans ((congrFun h3 (ix3 co cm 1)).symm.trans (Cert.ReferenceIdeal.Operands.w2_tap1 m' c co cm _).symm)
  case hw2c =>
    intro co cm
    exact (Cert.KernelIdeal.Operands.w2_tap2 m c co cm _).trans ((congrFun h3 (ix3 co cm 2)).symm.trans (Cert.ReferenceIdeal.Operands.w2_tap2 m' c co cm _).symm)
  case hb2 =>
    intro co
    exact (Cert.KernelIdeal.Operands.b2_at m c co 0).trans ((congrFun h4 (ix1 co)).symm.trans (Cert.ReferenceIdeal.Operands.b2_at m' c co 0).symm)
  case hx =>
    intro ci l
    show Cert.KernelIdeal.Hand.V m c Cert.KernelIdeal.main_arg0 (ix3 (i 0) ci l) = m' ((c.tc : Thread Cert.ReferenceIdeal.nD Cert.ReferenceIdeal.τ).loc Cert.ReferenceIdeal.main_arg0) (ix3 (i 0) ci l)
    rw [Cert.KernelIdeal.Hand.V_main_arg0]
    exact (congrFun h0 (ix3 (i 0) ci l)).symm

end Cert.Bridge

end
-- ==== Proof.lean ====
/-
  Two stacked one-dimensional convolutions (three taps, zero padding, bias, rectification) over
  `x : f32[256, 128, 512]`, computed by a kernel that handles 32 samples per grid point — first-layer taps side by side on
  the contracted axis, second-layer taps stacked on the output rows with the shifted products added afterwards — against a
  reference kernel that handles one sample per grid point with both layers' taps on the contracted axis and the shifts
  applied to the operand under 0/1 lane masks.

  Frames.  None of the three programs' frames follows from a ready statement; each is proved from the program text: the
  body run once on symbolic staging buffers, the inputs left as staged and the output block overwritten by stores that
  tile it; then the pipeline's launch (`Proof/KFrame.lean`, `Proof/KIFrame.lean`; for the reference, whose `@main` has
  a second, result-less kernel region before the convolution, `Proof/RefRun.lean`).

  Values.  At the ideal instance a float is an extended real, a change of format is the identity and every operation is
  exact.  The kernel's result array is, at `(n, co, l)`, its sample function of sample `n` at `(co, l)` (`Proof/KIStores.lean`:
  the 32 stores of a point are one function at 32 slabs; `Proof/KIValue.lean`, `Proof/KIArray.lean`: blocks to array);
  likewise the reference's (`Proof/RArray.lean`).  Read at an index both sample functions are
  `max (∑ taps · shifted rows + bias) 0` twice over (`Proof/KernelSample.lean`, `Proof/RefSample.lean`), with the zero-filled
  shift of a product row equal to the product with the zero-filled, masked shift of the operand row, and the two groupings of
  the three tap sums and the bias equal by commutativity and associativity of addition on the extended reals alone
  (`Proof/LibConvTaps.lean`, `Proof/SampleBridge.lean`): no finiteness of the inputs is used.  The operands the two regions
  read are the same entries of the same argument arrays (`Proof/OperandsK.lean`, `Proof/OperandsR.lean`).  Hence equal
  results from memories that agree on the arguments (`Proof/Bridge.lean`).

  The idealization rewrote nothing, so its conjunct is `True`.
-/
import proofs.«164273_g2000305763469021_pallasbulk_548_28_alg».proof.Defs
import proofs.«164273_g2000305763469021_pallasbulk_548_28_alg».proof.Proof.Gen.Kernel
import proofs.«164273_g2000305763469021_pallasbulk_548_28_alg».proof.Proof.Gen.KernelIdeal
import proofs.«164273_g2000305763469021_pallasbulk_548_28_alg».proof.Proof.Gen.ReferenceIdeal
import proofs.«164273_g2000305763469021_pallasbulk_548_28_alg».proof.Proof.Gen.Pre_finite_inputs
import proofs.«164273_g2000305763469021_pallasbulk_548_28_alg».proof.Proof.KFrame
import proofs.«164273_g2000305763469021_pallasbulk_548_28_alg».proof.Proof.Bridge

noncomputable section

namespace Cert.Proof

open Idealize.ShloMosaic Idealize.SL.Sem

/-- The word-level kernel program runs and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- So does the idealized reference: its run with the result named, the result forgotten. -/
theorem frame_ri : Cert.frame_ReferenceIdeal := fun m ρ _ =>
  (θ_run (Cert.ReferenceIdeal.defs (F := Ideal)) _ _).mono (fun _ h c => (h c).2) (Cert.ReferenceIdeal.HandRun.run (F := Ideal) m ρ)

/-- From memories agreeing on the arguments both idealized programs run and end with the same result array: the
    kernel's result function of its arguments, which the reference's equals. -/
theorem algebraic : Cert.algebraic_KernelIdeal_ReferenceIdeal := by
  intro m ρ m' ρ' _ hagree
  refine ⟨fun c => Cert.KernelIdeal.Hand.resultFn (F := Ideal) (Cert.KernelIdeal.Hand.V m c Cert.KernelIdeal.main_arg0)
      (Cert.KernelIdeal.Hand.V m c Cert.KernelIdeal.main_v7) (Cert.KernelIdeal.Hand.V m c Cert.KernelIdeal.main_v16)
      (Cert.KernelIdeal.Hand.V m c Cert.KernelIdeal.main_v15) (Cert.KernelIdeal.Hand.V m c Cert.KernelIdeal.main_v17), ?_, ?_⟩
  · exact (θ_run (Cert.KernelIdeal.defs (F := Ideal)) _ _).mono
      (fun _ h c => ⟨((h c).1).trans (Cert.KernelIdeal.Hand.final m c), (h c).2⟩)
      (Cert.KernelIdeal.Hand.run_named (F := Ideal) m ρ)
  · exact (θ_run (Cert.ReferenceIdeal.defs (F := Ideal)) _ _).mono
      (fun _ h c => ⟨((h c).1).trans ((Cert.ReferenceIdeal.HandRun.finalR m' c).trans
          (Cert.Bridge.result_eq m m' c (hagree c).1 (hagree c).2.1 (hagree c).2.2.1 (hagree c).2.2.2.1 (hagree c).2.2.2.2)), (h c).2⟩)
      (Cert.ReferenceIdeal.HandRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
